-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x11 : Shape := ⟨2, ![100000, 11]⟩
abbrev S2x3200000 : Shape := ⟨2, ![2, 3200000]⟩
abbrev S11x64 : Shape := ⟨2, ![11, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S_ : Shape := ⟨0, ![]⟩

class Facts : Prop where
  bcast_S_S100000x11 : S_.BroadcastsInDim S100000x11 (![] : Fin 0 → Fin S100000x11.rank)
  reducesTo_S100000x11_S_d0_1 : S100000x11.ReducesTo [0, 1] S_
  h_S_ : 0 < S_.numel
  bcast_S_S11x64 : S_.BroadcastsInDim S11x64 (![] : Fin 0 → Fin S11x64.rank)
  reducesTo_S11x64_S_d0_1 : S11x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_

variable [Facts]

def fn_part2 {F : FTy → Type} [FloatOps F] (main_arg8 : FVec F S16x8 .f32) (main_arg9 : FVec F S8 .f32) (main_v33 : IVec S_ 1) : IVec S_ 1 :=
  let main_v34 : FVec F S16x8 .f32 := Host.absf main_arg8
  let main_cst_12 : FVec F S_ .f32 := constant S_ .f32 0x7F800000#32
  let main_v35 : FVec F S16x8 .f32 := broadcastInDim S16x8 ![] bcast_S_S16x8 main_cst_12
  let main_v36 : IVec S16x8 1 := cmpf .olt main_v34 main_v35
  let main_c_13 : IVec S_ 1 := constantI S_ 1 1#1
  let main_v37 : IVec S_ 1 := (fun x v => Host.reduce IntOp.andi x v reducesTo_S16x8_S_d0_1 h_S_) main_v36 main_c_13
  let main_v38 : IVec S_ 1 := andi main_v33 main_v37
  let main_v39 : FVec F S8 .f32 := Host.absf main_arg9
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  main_v43

def fn_part1 {F : FTy → Type} [FloatOps F] (main_arg5 : FVec F S32 .f32) (main_arg6 : FVec F S32x16 .f32) (main_arg7 : FVec F S16 .f32) (main_arg8 : FVec F S16x8 .f32) (main_arg9 : FVec F S8 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x16 .f32 := Host.absf main_arg6
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_v33

def fn {F : FTy → Type} [FloatOps F] (main_arg0 : FVec F S100000x11 .f32) (main_arg1 : IVec S2x3200000 32) (main_arg2 : FVec F S11x64 .f32) (main_arg3 : FVec F S64 .f32) (main_arg4 : FVec F S64x32 .f32) (main_arg5 : FVec F S32 .f32) (main_arg6 : FVec F S32x16 .f32) (main_arg7 : FVec F S16 .f32) (main_arg8 : FVec F S16x8 .f32) (main_arg9 : FVec F S8 .f32) : IVec S_ 1 :=
  let main_v0 : FVec F S100000x11 .f32 := Host.absf main_arg0
  let main_cst : FVec F S_ .f32 := constant S_ .f32 0x7F800000#32
  let main_v1 : FVec F S100000x11 .f32 := broadcastInDim S100000x11 ![] bcast_S_S100000x11 main_cst
  let main_v2 : IVec S100000x11 1 := cmpf .olt main_v0 main_v1
  let main_c : IVec S_ 1 := constantI S_ 1 1#1
  let main_v3 : IVec S_ 1 := (fun x v => Host.reduce IntOp.andi x v reducesTo_S100000x11_S_d0_1 h_S_) main_v2 main_c
  let main_v4 : FVec F S11x64 .f32 := Host.absf main_arg2
  let main_cst_0 : FVec F S_ .f32 := constant S_ .f32 0x7F800000#32
  let main_v5 : FVec F S11x64 .f32 := broadcastInDim S11x64 ![] bcast_S_S11x64 main_cst_0
  let main_v6 : IVec S11x64 1 := cmpf .olt main_v4 main_v5
  let main_c_1 : IVec S_ 1 := constantI S_ 1 1#1
  let main_v7 : IVec S_ 1 := (fun x v => Host.reduce IntOp.andi x v reducesTo_S11x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_arg8 main_arg9 main_v13 main_v16
-- ==== Kernel.lean ====
abbrev S100000x11 : Shape := ⟨2, ![100000, 11]⟩
abbrev S2x3200000 : Shape := ⟨2, ![2, 3200000]⟩
abbrev S11x64 : Shape := ⟨2, ![11, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S10000x11 : Shape := ⟨2, ![10000, 11]⟩
abbrev S10000x64 : Shape := ⟨2, ![10000, 64]⟩
abbrev S3300000x64 : Shape := ⟨2, ![3300000, 64]⟩
abbrev S1x64 : Shape := ⟨2, ![1, 64]⟩
abbrev S100000x32 : Shape := ⟨2, ![100000, 32]⟩
abbrev S10000x32 : Shape := ⟨2, ![10000, 32]⟩
abbrev S3300000x32 : Shape := ⟨2, ![3300000, 32]⟩
abbrev S1x32 : Shape := ⟨2, ![1, 32]⟩
abbrev S100000x16 : Shape := ⟨2, ![100000, 16]⟩
abbrev S10000x16 : Shape := ⟨2, ![10000, 16]⟩
abbrev S3300000x16 : Shape := ⟨2, ![3300000, 16]⟩
abbrev S1x16 : Shape := ⟨2, ![1, 16]⟩
abbrev S100000x8 : Shape := ⟨2, ![100000, 8]⟩
abbrev S10000x8 : Shape := ⟨2, ![10000, 8]⟩
abbrev S3300000x8 : Shape := ⟨2, ![3300000, 8]⟩
abbrev S1x8 : Shape := ⟨2, ![1, 8]⟩

abbrev nBuf : Space → Nat
  | .hbm => 129
  | .vmem => 40
  | .smem => 0
  | _ => 0

abbrev hbmTy0_0 (i : Nat) : BufTy := match i % 128 with
  | 0 => ⟨S100000x11, .f32⟩
  | 1 => ⟨S2x3200000, .i32⟩
  | 2 => ⟨S11x64, .f32⟩
  | 3 => ⟨S64, .f32⟩
  | 4 => ⟨S64x32, .f32⟩
  | 5 => ⟨S32, .f32⟩
  | 6 => ⟨S32x16, .f32⟩
  | 7 => ⟨S16, .f32⟩
  | 8 => ⟨S16x8, .f32⟩
  | 9 => ⟨S8, .f32⟩
  | 10 => ⟨S100000, .i32⟩
  | 11 => ⟨S1x3200000, .i32⟩
  | 12 => ⟨S3200000, .i32⟩
  | 13 => ⟨S3300000, .i32⟩
  | 14 => ⟨S1x3200000, .i32⟩
  | 15 => ⟨S3200000, .i32⟩
  | 16 => ⟨S3300000, .i32⟩
  | 17 => ⟨S_, .f32⟩
  | 18 => ⟨S3300000, .f32⟩
  | 19 => ⟨S_, .f32⟩
  | 20 => ⟨S100000, .f32⟩
  | 21 => ⟨S3300000x1, .i32⟩
  | 22 => ⟨S100000, .f32⟩
  | 23 => ⟨S_, .f32⟩
  | 24 => ⟨S100000, .f32⟩
  | 25 => ⟨S100000, .i1⟩
  | 26 => ⟨S_, .f32⟩
  | 27 => ⟨S100000, .f32⟩
  | 28 => ⟨S100000, .f32⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S3300000, .i32⟩
  | 36 => ⟨S3300000, .i1⟩
  | 37 => ⟨S_, .i32⟩
  | 38 => ⟨S3300000, .i32⟩
  | 39 => ⟨S3300000, .i32⟩
  | 40 => ⟨S3300000, .i32⟩
  | 41 => ⟨S3300000x1, .i32⟩
  | 42 => ⟨S3300000, .f32⟩
  | 43 => ⟨S_, .i32⟩
  | 44 => ⟨S3300000, .i32⟩
  | 45 => ⟨S3300000, .i1⟩
  | 46 => ⟨S_, .i32⟩
  | 47 => ⟨S3300000, .i32⟩
  | 48 => ⟨S3300000, .i32⟩
  | 49 => ⟨S3300000, .i32⟩
  | 50 => ⟨S3300000x1, .i32⟩
  | 51 => ⟨S3300000, .f32⟩
  | 52 => ⟨S3300000, .f32⟩
  | 53 => ⟨S100000x64, .f32⟩
  | 54 => ⟨S_, .i32⟩
  | 55 => ⟨S3300000, .i32⟩
  | 56 => ⟨S3300000, .i1⟩
  | 57 => ⟨S_, .i32⟩
  | 58 => ⟨S3300000, .i32⟩
  | 59 => ⟨S3300000, .i32⟩
  | 60 => ⟨S3300000, .i32⟩
  | 61 => ⟨S3300000x1, .i32⟩
  | 62 => ⟨S3300000x64, .f32⟩
  | 63 => ⟨S3300000x1, .f32⟩
  | 64 => ⟨S3300000x64, .f32⟩
  | 65 => ⟨S3300000x64, .f32⟩
  | 66 => ⟨S_, .f32⟩
  | 67 => ⟨S100000x64, .f32⟩
  | 68 => ⟨S3300000x1, .i32⟩
  | 69 => ⟨S100000x64, .f32⟩
  | 70 => ⟨S1x64, .f32⟩
  | 71 => ⟨S100000x64, .f32⟩
  | 72 => ⟨S100000x32, .f32⟩
  | 73 => ⟨S_, .i32⟩
  | 74 => ⟨S3300000, .i32⟩
  | 75 => ⟨S3300000, .i1⟩
  | 76 => ⟨S_, .i32⟩
  | 77 => ⟨S3300000, .i32⟩
  | 78 => ⟨S3300000, .i32⟩
  | 79 => ⟨S3300000, .i32⟩
  | 80 => ⟨S3300000x1, .i32⟩
  | 81 => ⟨S3300000x32, .f32⟩
  | 82 => ⟨S3300000x1, .f32⟩
  | 83 => ⟨S3300000x32, .f32⟩
  | 84 => ⟨S3300000x32, .f32⟩
  | 85 => ⟨S_, .f32⟩
  | 86 => ⟨S100000x32, .f32⟩
  | 87 => ⟨S3300000x1, .i32⟩
  | 88 => ⟨S100000x32, .f32⟩
  | 89 => ⟨S1x32, .f32⟩
  | 90 => ⟨S100000x32, .f32⟩
  | 91 => ⟨S100000x16, .f32⟩
  | 92 => ⟨S_, .i32⟩
  | 93 => ⟨S3300000, .i32⟩
  | 94 => ⟨S3300000, .i1⟩
  | 95 => ⟨S_, .i32⟩
  | 96 => ⟨S3300000, .i32⟩
  | 97 => ⟨S3300000, .i32⟩
  | 98 => ⟨S3300000, .i32⟩
  | 99 => ⟨S3300000x1, .i32⟩
  | 100 => ⟨S3300000x16, .f32⟩
  | 101 => ⟨S3300000x1, .f32⟩
  | 102 => ⟨S3300000x16, .f32⟩
  | 103 => ⟨S3300000x16, .f32⟩
  | 104 => ⟨S_, .f32⟩
  | 105 => ⟨S100000x16, .f32⟩
  | 106 => ⟨S3300000x1, .i32⟩
  | 107 => ⟨S100000x16, .f32⟩
  | 108 => ⟨S1x16, .f32⟩
  | 109 => ⟨S100000x16, .f32⟩
  | 110 => ⟨S100000x8, .f32⟩
  | 111 => ⟨S_, .i32⟩
  | 112 => ⟨S3300000, .i32⟩
  | 113 => ⟨S3300000, .i1⟩
  | 114 => ⟨S_, .i32⟩
  | 115 => ⟨S3300000, .i32⟩
  | 116 => ⟨S3300000, .i32⟩
  | 117 => ⟨S3300000, .i32⟩
  | 118 => ⟨S3300000x1, .i32⟩
  | 119 => ⟨S3300000x8, .f32⟩
  | 120 => ⟨S3300000x1, .f32⟩
  | 121 => ⟨S3300000x8, .f32⟩
  | 122 => ⟨S3300000x8, .f32⟩
  | 123 => ⟨S_, .f32⟩
  | 124 => ⟨S100000x8, .f32⟩
  | 125 => ⟨S3300000x1, .i32⟩
  | 126 => ⟨S100000x8, .f32⟩
  | 127 => ⟨S1x8, .f32⟩
  | _ => ⟨S100000x11, .f32⟩

abbrev hbmTy0_1 (i : Nat) : BufTy := match i % 128 with
  | 0 => ⟨S100000x8, .f32⟩
  | _ => ⟨S100000x11, .f32⟩

abbrev hbmTy (i : Nat) : BufTy := match i / 128 with
  | 0 => hbmTy0_0 i
  | 1 => hbmTy0_1 i
  | _ => ⟨S100000x11, .f32⟩

abbrev bufTy : (tb : Table) → Fin (tcTables nBuf tb) → BufTy
  | .hbm, ⟨i, _⟩ => hbmTy i
  | .local _ .vmem, ⟨0, _⟩ => ⟨S10000x11, .f32⟩
  | .local _ .vmem, ⟨1, _⟩ => ⟨S10000x11, .f32⟩
  | .local _ .vmem, ⟨2, _⟩ => ⟨S11x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x32, .f32⟩
  | .local _ .vmem, ⟨13, _⟩ => ⟨S10000x32, .f32⟩
  | .local _ .vmem, ⟨14, _⟩ => ⟨S10000x32, .f32⟩
  | .local _ .vmem, ⟨15, _⟩ => ⟨S10000x32, .f32⟩
  | .local _ .vmem, ⟨16, _⟩ => ⟨S10000x32, .f32⟩
  | .local _ .vmem, ⟨17, _⟩ => ⟨S1x32, .f32⟩
  | .local _ .vmem, ⟨18, _⟩ => ⟨S10000x32, .f32⟩
  | .local _ .vmem, ⟨19, _⟩ => ⟨S10000x32, .f32⟩
  | .local _ .vmem, ⟨20, _⟩ => ⟨S10000x32, .f32⟩
  | .local _ .vmem, ⟨21, _⟩ => ⟨S10000x32, .f32⟩
  | .local _ .vmem, ⟨22, _⟩ => ⟨S32x16, .f32⟩
  | .local _ .vmem, ⟨23, _⟩ => ⟨S10000x16, .f32⟩
  | .local _ .vmem, ⟨24, _⟩ => ⟨S10000x16, .f32⟩
  | .local _ .vmem, ⟨25, _⟩ => ⟨S10000x16, .f32⟩
  | .local _ .vmem, ⟨26, _⟩ => ⟨S10000x16, .f32⟩
  | .local _ .vmem, ⟨27, _⟩ => ⟨S1x16, .f32⟩
  | .local _ .vmem, ⟨28, _⟩ => ⟨S10000x16, .f32⟩
  | .local _ .vmem, ⟨29, _⟩ => ⟨S10000x16, .f32⟩
  | .local _ .vmem, ⟨30, _⟩ => ⟨S10000x16, .f32⟩
  | .local _ .vmem, ⟨31, _⟩ => ⟨S10000x16, .f32⟩
  | .local _ .vmem, ⟨32, _⟩ => ⟨S16x8, .f32⟩
  | .local _ .vmem, ⟨33, _⟩ => ⟨S10000x8, .f32⟩
  | .local _ .vmem, ⟨34, _⟩ => ⟨S10000x8, .f32⟩
  | .local _ .vmem, ⟨35, _⟩ => ⟨S10000x8, .f32⟩
  | .local _ .vmem, ⟨36, _⟩ => ⟨S10000x8, .f32⟩
  | .local _ .vmem, ⟨37, _⟩ => ⟨S1x8, .f32⟩
  | .local _ .vmem, ⟨38, _⟩ => ⟨S10000x8, .f32⟩
  | .local _ .vmem, ⟨39, _⟩ => ⟨S10000x8, .f32⟩
  | _, _ => ⟨S100000x11, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_c_10 : Ref sig .tc := ⟨.hbm, 73, rfl⟩
abbrev main_v49 : Ref sig .tc := ⟨.hbm, 74, rfl⟩
abbrev main_v50 : Ref sig .tc := ⟨.hbm, 75, rfl⟩
abbrev main_c_11 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_13 : Ref sig .tc := ⟨.hbm, 92, rfl⟩
abbrev main_v65 : Ref sig .tc := ⟨.hbm, 93, rfl⟩
abbrev main_v66 : Ref sig .tc := ⟨.hbm, 94, rfl⟩
abbrev main_c_14 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_15 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_c_16 : Ref sig .tc := ⟨.hbm, 111, rfl⟩
abbrev main_v81 : Ref sig .tc := ⟨.hbm, 112, rfl⟩
abbrev main_v82 : Ref sig .tc := ⟨.hbm, 113, rfl⟩
abbrev main_c_17 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_18 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x11 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S11x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x16 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x16 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x16 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S16x8 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x8 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x8 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x8 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S10000x8 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x11_S10000x11_0_0 : ∀ a, (![0, 0] : Fin 2 → Nat) a + S10000x11.size a ≤ S10000x11.size a
  h_S10000x11 : 0 < S10000x11.numel
  bitsLt_bf16_f32 : FTy.bits .bf16 < FTy.bits .f32
  inb_S11x64_S11x64_0_0 : ∀ a, (![0, 0] : Fin 2 → Nat) a + S11x64.size a ≤ S11x64.size a
  h_S11x64 : 0 < S11x64.numel
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x16_S32x16_0_0 : ∀ a, (![0, 0] : Fin 2 → Nat) a + S32x16.size a ≤ S32x16.size a
  h_S32x16 : 0 < S32x16.numel
  inb_S10000x16_S10000x16_0_0 : ∀ a, (![0, 0] : Fin 2 → Nat) a + S10000x16.size a ≤ S10000x16.size a
  h_S10000x16 : 0 < S10000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x8_S16x8_0_0 : ∀ a, (![0, 0] : Fin 2 → Nat) a + S16x8.size a ≤ S16x8.size a
  h_S16x8 : 0 < S16x8.numel
  inb_S10000x8_S10000x8_0_0 : ∀ a, (![0, 0] : Fin 2 → Nat) a + S10000x8.size a ≤ S10000x8.size a
  h_S10000x8 : 0 < S10000x8.numel
  bcast_S3300000x1_S3300000x8_0_1 : S3300000x1.BroadcastsInDim S3300000x8 (![0, 1] : Fin 2 → Fin S3300000x8.rank)
  bcast_S_S100000x8 : S_.BroadcastsInDim S100000x8 (![] : Fin 0 → Fin S100000x8.rank)
  shapeCasts_S8_S1x8 : S8.ShapeCasts S1x8
  shapeCasts_S10000x8_S10000x8 : S10000x8.ShapeCasts S10000x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S10000x8 : S1x8.Broadcasts S10000x8
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x11_S11x64_S10000x64_1_0_0_1_n_n_wf : DotDims.WF S10000x11 S11x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x32_S10000x32_1_0_0_1_n_n_wf : DotDims.WF S10000x64 S64x32 S10000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S10000x32_S32x16_S10000x16_1_0_0_1_n_n_wf : DotDims.WF S10000x32 S32x16 S10000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x8_S10000x8_1_0_0_1_n_n_wf : DotDims.WF S10000x16 S16x8 S10000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x11.size a ≤ S100000x11.size a
  hwx0_0 : ∀ i : grid0.Coords, EltTy.bits .f32 = 32 ∨ (Rect.block (s := S100000x11) S10000x11.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S11x64.size a ≤ S11x64.size a
  hwx0_1 : ∀ i : grid0.Coords, EltTy.bits .f32 = 32 ∨ (Rect.block (s := S11x64) S11x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x32.size a ≤ S100000x32.size a
  hwx3_2 : ∀ i : grid3.Coords, EltTy.bits .f32 = 32 ∨ (Rect.block (s := S100000x32) S10000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x32.size a ≤ S100000x32.size a
  hwx4_0 : ∀ i : grid4.Coords, EltTy.bits .f32 = 32 ∨ (Rect.block (s := S100000x32) S10000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x16.size a ≤ S32x16.size a
  hwx4_1 : ∀ i : grid4.Coords, EltTy.bits .f32 = 32 ∨ (Rect.block (s := S32x16) S32x16.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x16.size a ≤ S100000x16.size a
  hwx4_2 : ∀ i : grid4.Coords, EltTy.bits .f32 = 32 ∨ (Rect.block (s := S100000x16) S10000x16.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x16.size a ≤ S100000x16.size a
  hwx5_0 : ∀ i : grid5.Coords, EltTy.bits .f32 = 32 ∨ (Rect.block (s := S100000x16) S10000x16.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x16.size a ≤ S1x16.size a
  hwx5_1 : ∀ i : grid5.Coords, EltTy.bits .f32 = 32 ∨ (Rect.block (s := S1x16) S1x16.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x16.size a ≤ S100000x16.size a
  hwx5_2 : ∀ i : grid5.Coords, EltTy.bits .f32 = 32 ∨ (Rect.block (s := S100000x16) S10000x16.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x16.size a ≤ S100000x16.size a
  hwx6_0 : ∀ i : grid6.Coords, EltTy.bits .f32 = 32 ∨ (Rect.block (s := S100000x16) S10000x16.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S16x8.size a ≤ S16x8.size a
  hwx6_1 : ∀ i : grid6.Coords, EltTy.bits .f32 = 32 ∨ (Rect.block (s := S16x8) S16x8.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x8.size a ≤ S100000x8.size a
  hwx6_2 : ∀ i : grid6.Coords, EltTy.bits .f32 = 32 ∨ (Rect.block (s := S100000x8) S10000x8.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x8.size a ≤ S100000x8.size a
  hwx7_0 : ∀ i : grid7.Coords, EltTy.bits .f32 = 32 ∨ (Rect.block (s := S100000x8) S10000x8.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x8.size a ≤ S1x8.size a
  hwx7_1 : ∀ i : grid7.Coords, EltTy.bits .f32 = 32 ∨ (Rect.block (s := S1x8) S1x8.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x8.size a ≤ S100000x8.size a
  hwx7_2 : ∀ i : grid7.Coords, EltTy.bits .f32 = 32 ∨ (Rect.block (s := S100000x8) S10000x8.size (cc7_transform_2 i) (hinb7_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x11_S11x64_S10000x64_1_0_0_1_n_n : DotDims S10000x11 S11x64 S10000x64 where
  lhsContracting := [1]
  rhsContracting := [0]
  lhsNonContracting := [0]
  rhsNonContracting := [1]
  lhsBatch := []
  rhsBatch := []
  wf := dot_S10000x11_S11x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x8_S10000x8_1_0_0_1_n_n : DotDims S10000x16 S16x8 S10000x8 where
  lhsContracting := [1]
  rhsContracting := [0]
  lhsNonContracting := [0]
  rhsNonContracting := [1]
  lhsBatch := []
  rhsBatch := []
  wf := dot_S10000x16_S16x8_S10000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf

abbrev win0_0 : Pipeline.Window sig grid0 :=
  Pipeline.Window.ofSpec (Memref.whole main_arg0) S10000x11.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S11x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S10000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S10000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S32x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S10000x16.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S10000x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S1x16.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S10000x16.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v79) S10000x16.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S16x8.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v80) S10000x8.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v93) S10000x8.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v94) S1x8.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v95) S10000x8.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S100000x11 : Shape := ⟨2, ![100000, 11]⟩
abbrev S2x3200000 : Shape := ⟨2, ![2, 3200000]⟩
abbrev S11x64 : Shape := ⟨2, ![11, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x32 : Shape := ⟨2, ![100000, 32]⟩
abbrev S3300000x32 : Shape := ⟨2, ![3300000, 32]⟩
abbrev S1x32 : Shape := ⟨2, ![1, 32]⟩
abbrev S100000x16 : Shape := ⟨2, ![100000, 16]⟩
abbrev S3300000x16 : Shape := ⟨2, ![3300000, 16]⟩
abbrev S1x16 : Shape := ⟨2, ![1, 16]⟩
abbrev S100000x8 : Shape := ⟨2, ![100000, 8]⟩
abbrev S3300000x8 : Shape := ⟨2, ![3300000, 8]⟩
abbrev S1x8 : Shape := ⟨2, ![1, 8]⟩

abbrev nBuf : Space → Nat
  | .hbm => 142
  | .vmem => 0
  | .smem => 0
  | _ => 0

abbrev hbmTy0_0 (i : Nat) : BufTy := match i % 128 with
  | 0 => ⟨S100000x11, .f32⟩
  | 1 => ⟨S2x3200000, .i32⟩
  | 2 => ⟨S11x64, .f32⟩
  | 3 => ⟨S64, .f32⟩
  | 4 => ⟨S64x32, .f32⟩
  | 5 => ⟨S32, .f32⟩
  | 6 => ⟨S32x16, .f32⟩
  | 7 => ⟨S16, .f32⟩
  | 8 => ⟨S16x8, .f32⟩
  | 9 => ⟨S8, .f32⟩
  | 10 => ⟨S100000, .i32⟩
  | 11 => ⟨S1x3200000, .i32⟩
  | 12 => ⟨S3200000, .i32⟩
  | 13 => ⟨S3300000, .i32⟩
  | 14 => ⟨S1x3200000, .i32⟩
  | 15 => ⟨S3200000, .i32⟩
  | 16 => ⟨S3300000, .i32⟩
  | 17 => ⟨S_, .f32⟩
  | 18 => ⟨S3300000, .f32⟩
  | 19 => ⟨S_, .f32⟩
  | 20 => ⟨S100000, .f32⟩
  | 21 => ⟨S3300000x1, .i32⟩
  | 22 => ⟨S100000, .f32⟩
  | 23 => ⟨S_, .f32⟩
  | 24 => ⟨S100000, .f32⟩
  | 25 => ⟨S100000, .i1⟩
  | 26 => ⟨S_, .f32⟩
  | 27 => ⟨S100000, .f32⟩
  | 28 => ⟨S100000, .f32⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S3300000, .i32⟩
  | 36 => ⟨S3300000, .i1⟩
  | 37 => ⟨S_, .i32⟩
  | 38 => ⟨S3300000, .i32⟩
  | 39 => ⟨S3300000, .i32⟩
  | 40 => ⟨S3300000, .i32⟩
  | 41 => ⟨S3300000x1, .i32⟩
  | 42 => ⟨S3300000, .f32⟩
  | 43 => ⟨S_, .i32⟩
  | 44 => ⟨S3300000, .i32⟩
  | 45 => ⟨S3300000, .i1⟩
  | 46 => ⟨S_, .i32⟩
  | 47 => ⟨S3300000, .i32⟩
  | 48 => ⟨S3300000, .i32⟩
  | 49 => ⟨S3300000, .i32⟩
  | 50 => ⟨S3300000x1, .i32⟩
  | 51 => ⟨S3300000, .f32⟩
  | 52 => ⟨S3300000, .f32⟩
  | 53 => ⟨S100000x64, .f32⟩
  | 54 => ⟨S_, .i32⟩
  | 55 => ⟨S3300000, .i32⟩
  | 56 => ⟨S3300000, .i1⟩
  | 57 => ⟨S_, .i32⟩
  | 58 => ⟨S3300000, .i32⟩
  | 59 => ⟨S3300000, .i32⟩
  | 60 => ⟨S3300000, .i32⟩
  | 61 => ⟨S3300000x1, .i32⟩
  | 62 => ⟨S3300000x64, .f32⟩
  | 63 => ⟨S3300000x1, .f32⟩
  | 64 => ⟨S3300000x64, .f32⟩
  | 65 => ⟨S3300000x64, .f32⟩
  | 66 => ⟨S_, .f32⟩
  | 67 => ⟨S100000x64, .f32⟩
  | 68 => ⟨S3300000x1, .i32⟩
  | 69 => ⟨S100000x64, .f32⟩
  | 70 => ⟨S1x64, .f32⟩
  | 71 => ⟨S100000x64, .f32⟩
  | 72 => ⟨S100000x64, .f32⟩
  | 73 => ⟨S_, .f32⟩
  | 74 => ⟨S100000x64, .f32⟩
  | 75 => ⟨S100000x64, .f32⟩
  | 76 => ⟨S100000x32, .f32⟩
  | 77 => ⟨S_, .i32⟩
  | 78 => ⟨S3300000, .i32⟩
  | 79 => ⟨S3300000, .i1⟩
  | 80 => ⟨S_, .i32⟩
  | 81 => ⟨S3300000, .i32⟩
  | 82 => ⟨S3300000, .i32⟩
  | 83 => ⟨S3300000, .i32⟩
  | 84 => ⟨S3300000x1, .i32⟩
  | 85 => ⟨S3300000x32, .f32⟩
  | 86 => ⟨S3300000x1, .f32⟩
  | 87 => ⟨S3300000x32, .f32⟩
  | 88 => ⟨S3300000x32, .f32⟩
  | 89 => ⟨S_, .f32⟩
  | 90 => ⟨S100000x32, .f32⟩
  | 91 => ⟨S3300000x1, .i32⟩
  | 92 => ⟨S100000x32, .f32⟩
  | 93 => ⟨S1x32, .f32⟩
  | 94 => ⟨S100000x32, .f32⟩
  | 95 => ⟨S100000x32, .f32⟩
  | 96 => ⟨S_, .f32⟩
  | 97 => ⟨S100000x32, .f32⟩
  | 98 => ⟨S100000x32, .f32⟩
  | 99 => ⟨S100000x16, .f32⟩
  | 100 => ⟨S_, .i32⟩
  | 101 => ⟨S3300000, .i32⟩
  | 102 => ⟨S3300000, .i1⟩
  | 103 => ⟨S_, .i32⟩
  | 104 => ⟨S3300000, .i32⟩
  | 105 => ⟨S3300000, .i32⟩
  | 106 => ⟨S3300000, .i32⟩
  | 107 => ⟨S3300000x1, .i32⟩
  | 108 => ⟨S3300000x16, .f32⟩
  | 109 => ⟨S3300000x1, .f32⟩
  | 110 => ⟨S3300000x16, .f32⟩
  | 111 => ⟨S3300000x16, .f32⟩
  | 112 => ⟨S_, .f32⟩
  | 113 => ⟨S100000x16, .f32⟩
  | 114 => ⟨S3300000x1, .i32⟩
  | 115 => ⟨S100000x16, .f32⟩
  | 116 => ⟨S1x16, .f32⟩
  | 117 => ⟨S100000x16, .f32⟩
  | 118 => ⟨S100000x16, .f32⟩
  | 119 => ⟨S_, .f32⟩
  | 120 => ⟨S100000x16, .f32⟩
  | 121 => ⟨S100000x16, .f32⟩
  | 122 => ⟨S100000x8, .f32⟩
  | 123 => ⟨S_, .i32⟩
  | 124 => ⟨S3300000, .i32⟩
  | 125 => ⟨S3300000, .i1⟩
  | 126 => ⟨S_, .i32⟩
  | 127 => ⟨S3300000, .i32⟩
  | _ => ⟨S100000x11, .f32⟩

abbrev hbmTy0_1 (i : Nat) : BufTy := match i % 128 with
  | 0 => ⟨S3300000, .i32⟩
  | 1 => ⟨S3300000, .i32⟩
  | 2 => ⟨S3300000x1, .i32⟩
  | 3 => ⟨S3300000x8, .f32⟩
  | 4 => ⟨S3300000x1, .f32⟩
  | 5 => ⟨S3300000x8, .f32⟩
  | 6 => ⟨S3300000x8, .f32⟩
  | 7 => ⟨S_, .f32⟩
  | 8 => ⟨S100000x8, .f32⟩
  | 9 => ⟨S3300000x1, .i32⟩
  | 10 => ⟨S100000x8, .f32⟩
  | 11 => ⟨S1x8, .f32⟩
  | 12 => ⟨S100000x8, .f32⟩
  | 13 => ⟨S100000x8, .f32⟩
  | _ => ⟨S100000x11, .f32⟩

abbrev hbmTy (i : Nat) : BufTy := match i / 128 with
  | 0 => hbmTy0_0 i
  | 1 => hbmTy0_1 i
  | _ => ⟨S100000x11, .f32⟩

abbrev bufTy : (tb : Table) → Fin (tcTables nBuf tb) → BufTy
  | .hbm, ⟨i, _⟩ => hbmTy i
  | _, _ => ⟨S100000x11, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_cst : Ref sig .tc := ⟨.hbm, 73, rfl⟩
abbrev main_call1_v0 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_c_11 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_12 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_call2_cst : Ref sig .tc := ⟨.hbm, 96, rfl⟩
abbrev main_call2_v0 : Ref sig .tc := ⟨.hbm, 97, rfl⟩
abbrev main_v67 : Ref sig .tc := ⟨.hbm, 98, rfl⟩
abbrev main_v68 : Ref sig .tc := ⟨.hbm, 99, rfl⟩
abbrev main_c_13 : Ref sig .tc := ⟨.hbm, 100, rfl⟩
abbrev main_v69 : Ref sig .tc := ⟨.hbm, 101, rfl⟩
abbrev main_v70 : Ref sig .tc := ⟨.hbm, 102, rfl⟩
abbrev main_c_14 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_15 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_call3_cst : Ref sig .tc := ⟨.hbm, 119, rfl⟩
abbrev main_call3_v0 : Ref sig .tc := ⟨.hbm, 120, rfl⟩
abbrev main_v85 : Ref sig .tc := ⟨.hbm, 121, rfl⟩
abbrev main_v86 : Ref sig .tc := ⟨.hbm, 122, rfl⟩
abbrev main_c_16 : Ref sig .tc := ⟨.hbm, 123, rfl⟩
abbrev main_v87 : Ref sig .tc := ⟨.hbm, 124, rfl⟩
abbrev main_v88 : Ref sig .tc := ⟨.hbm, 125, rfl⟩
abbrev main_c_17 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_cst_18 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x8_0_1 : S3300000x1.BroadcastsInDim S3300000x8 (![0, 1] : Fin 2 → Fin S3300000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x11_S11x64_S100000x64_1_0_0_1_n_n_wf : DotDims.WF S100000x11 S11x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x32_S100000x32_1_0_0_1_n_n_wf : DotDims.WF S100000x64 S64x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x16_S100000x16_1_0_0_1_n_n_wf : DotDims.WF S100000x32 S32x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x8_S100000x8_1_0_0_1_n_n_wf : DotDims.WF S100000x16 S16x8 S100000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x11_S11x64_S100000x64_1_0_0_1_n_n : DotDims S100000x11 S11x64 S100000x64 where
  lhsContracting := [1]
  rhsContracting := [0]
  lhsNonContracting := [0]
  rhsNonContracting := [1]
  lhsBatch := []
  rhsBatch := []
  wf := dot_S100000x11_S11x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x8_S100000x8_1_0_0_1_n_n : DotDims S100000x16 S16x8 S100000x8 where
  lhsContracting := [1]
  rhsContracting := [0]
  lhsNonContracting := [0]
  rhsNonContracting := [1]
  lhsBatch := []
  rhsBatch := []
  wf := dot_S100000x16_S16x8_S100000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf

class Facts : Prop extends Facts₀ where

variable [Facts]
-- ==== Proof.KernelRun.lean ====
/-
  The graph-convolution program's run with its result named.

  The program is four layers; each layer is a dense product of the node features with a weight matrix (a region of
  ten row blocks), a gather of the product's rows along the edges scaled by the symmetric degree normalisation and
  summed into the destination nodes (operations on the host), and a bias added row by row, followed in the first
  three layers by the positive part (a second region of ten row blocks). So @main is fifteen segments: seven stretches
  of host operations and eight regions. The contents of every buffer at each boundary between two segments is a fold
  from the launch memory: a stretch of host operations applies its operations, a region replaces its output array by
  what its ten write-backs leave.

  Stated here: every weakly fair execution terminates, the last region's output buffer ends holding what the last
  boundary of that fold holds there, and the ten argument arrays end as launched. The later modules read the fold.
-/
import proofs.«111440_j76244259439066_1_alg».proof.Proof.Gen.KernelIdeal.Frame

set_option maxRecDepth 16384

noncomputable section

namespace Cert.KernelIdeal.RunNamed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes
-- unfolding plain definitions in a metavariable's type
set_option backward.isDefEq.respectTransparency.types false in
/-- Every weakly fair execution of @main terminates without a fault; the fourth layer's output buffer ends at the
    last boundary's contents, and every argument array ends as launched. The final thread state holds every unscoped
    buffer at the last boundary's contents; the result buffer is one of them, read as it stands, and each argument is
    walked back through the fold to the launch memory. -/
theorem run : θ_run defs (onTc (τ := τ) (main (F := F))) ⟨m, fun _ => 0, ρ⟩ (fun r => ∀ c : Dev nD,
      r.2.mem ((c.tc : Thread nD τ).loc main_v95) = W15 m ρ c (Proc.devRef .tc main_v95)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v95 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c)⟩)

end Cert.KernelIdeal.RunNamed

end
-- ==== Proof.Gcn.lean ====
/-
  The four-layer graph convolution as ONE function of the ten argument arrays, in the host operations' own terms.

  The graph has 100000 nodes and 3200000 directed edges `edge[0, j] → edge[1, j]`, to which a self loop per node is
  appended: 3300000 edges. The degree of a node is the number of edges that end in it; an edge's weight is
  `d(source)^(-1/2) · d(target)^(-1/2)` (with the convention that a node no edge ends in has inverse root 0: it cannot
  happen, every node has its loop, but the program spells the case). A layer maps node features `h` to
  `A · (h · W) + b`, where `A` is the weighted adjacency matrix applied by gather, scale and scatter-add; the first
  three layers take the positive part. A node index below zero counts from the end (the gather's indices are wrapped),
  which the program also spells although the indices here are the edge list itself.

  Every definition is the corresponding stretch of host operations composed, with the same dimension records, so
  that the reference program's result unfolds to `result` literally.
-/
import proofs.«111440_j76244259439066_1_alg».proof.Proof.Gen.ReferenceIdeal

noncomputable section

namespace Cert.Gcn

open Cert.ReferenceIdeal Cert.ReferenceIdeal.Gen Idealize.ShloMosaic

variable {F : FTy → Type} [FloatOps F]

/-- The edges' source nodes: row 0 of the edge list, then the self loops `0, 1, …, 99999`. -/
def source (e : (⟨S2x3200000, .i32⟩ : BufTy).Contents (Elt F)) : (⟨S3300000, .i32⟩ : BufTy).Contents (Elt F) :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- The edges' target nodes: row 1 of the edge list, then the self loops. -/
def target (e : (⟨S2x3200000, .i32⟩ : BufTy).Contents (Elt F)) : (⟨S3300000, .i32⟩ : BufTy).Contents (Elt F) :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- A node's degree, from the edges' targets `t`: a one summed into it for every edge that ends in it. -/
def degree (t : (⟨S3300000, .i32⟩ : BufTy).Contents (Elt F)) : (⟨S100000, .f32⟩ : BufTy).Contents (Elt F) :=
  Host.scatterAdd scatter_S100000_S3300000x1_S3300000_n_0_0_1
    (broadcastInDim S100000 ![] bcast_S_S100000 (constant S_ .f32 0x00000000#32))
    (broadcastInDim S3300000x1 ![0] bcast_S3300000_S3300000x1_0 t)
    (broadcastInDim S3300000 ![] bcast_S_S3300000 (constant S_ .f32 0x3F800000#32))

/-- `d^(-1/2)` where the degree `d` is positive (the root is taken of `max d 1`), zero elsewhere. -/
def invSqrt (d : (⟨S100000, .f32⟩ : BufTy).Contents (Elt F)) : (⟨S100000, .f32⟩ : BufTy).Contents (Elt F) :=
  select (cmpf (F := F) .ogt d (broadcastInDim S100000 ![] bcast_S_S100000 (constant S_ .f32 0x00000000#32)))
    (Host.rsqrt (maximumf d (broadcastInDim S100000 ![] bcast_S_S100000 (constant S_ .f32 0x3F800000#32))))
    (broadcastInDim S100000 ![] bcast_S_S100000 (id (constant S_ .f32 0x00000000#32)))

/-- Node indices as a gather takes them: one column, an index below zero counted from the end. -/
def wrapped (ix : (⟨S3300000, .i32⟩ : BufTy).Contents (Elt F)) : (⟨S3300000x1, .i32⟩ : BufTy).Contents (Elt F) :=
  broadcastInDim S3300000x1 ![0] bcast_S3300000_S3300000x1_0
    (select (cmpi .slt ix (broadcastInDim S3300000 ![] bcast_S_S3300000 (constantI S_ 32 0#32)))
      (addi ix (broadcastInDim S3300000 ![] bcast_S_S3300000 (constantI S_ 32 100000#32))) ix)

/-- An edge's weight, from the nodes' inverse root degrees `r` and the edges' sources `s` and targets `t`: the inverse
    roots of its two ends, multiplied. -/
def edgeWeight (r : (⟨S100000, .f32⟩ : BufTy).Contents (Elt F)) (s t : (⟨S3300000, .i32⟩ : BufTy).Contents (Elt F)) : (⟨S3300000, .f32⟩ : BufTy).Contents (Elt F) :=
  mulf (Host.gather gather_S100000_S3300000x1_S3300000_n_0_n_n_0_1_1 r (wrapped s))
    (Host.gather gather_S100000_S3300000x1_S3300000_n_0_n_n_0_1_1 r (wrapped t))

/-- The weights of the graph's edges, from the edge list. -/
def weights (e : (⟨S2x3200000, .i32⟩ : BufTy).Contents (Elt F)) : (⟨S3300000, .f32⟩ : BufTy).Contents (Elt F) :=
  edgeWeight (invSqrt (degree (target e))) (source e) (target e)

/-- Layer 1's dense product: row `r`, column `c` is the sum over `k` of `h r k · w k c` (the host's dot_general over the one contracted axis). -/
def dense64 (h : (⟨S100000x11, .f32⟩ : BufTy).Contents (Elt F)) (w : (⟨S11x64, .f32⟩ : BufTy).Contents (Elt F)) : (⟨S100000x64, .f32⟩ : BufTy).Contents (Elt F) :=
  Host.dotGeneral dot_S100000x11_S11x64_S100000x64_1_0_0_1_n_n none h w

/-- Layer 1's aggregation over the edges with sources `s`, targets `t` and weights `w`: every edge takes the row of `h` at its
    source node, scaled by its weight, and the scaled rows are summed into the rows of the edges' target nodes, from zero. -/
def aggregate64 (h : (⟨S100000x64, .f32⟩ : BufTy).Contents (Elt F)) (s t : (⟨S3300000, .i32⟩ : BufTy).Contents (Elt F)) (w : (⟨S3300000, .f32⟩ : BufTy).Contents (Elt F)) : (⟨S100000x64, .f32⟩ : BufTy).Contents (Elt F) :=
  Host.scatterAdd scatter_S100000x64_S3300000x1_S3300000x64_1_0_0_1
    (broadcastInDim S100000x64 ![] bcast_S_S100000x64 (constant S_ .f32 0x00000000#32))
    (broadcastInDim S3300000x1 ![0] bcast_S3300000_S3300000x1_0 t)
    (mulf (Host.gather gather_S100000x64_S3300000x1_S3300000x64_1_0_n_n_0_1_164 h (wrapped s))
      (broadcastInDim S3300000x64 ![0, 1] bcast_S3300000x1_S3300000x64_0_1 (broadcastInDim S3300000x1 ![0] bcast_S3300000_S3300000x1_0 w)))

/-- The bias of layer 1 added to every row. -/
def biased64 (a : (⟨S100000x64, .f32⟩ : BufTy).Contents (Elt F)) (b : (⟨S64, .f32⟩ : BufTy).Contents (Elt F)) : (⟨S100000x64, .f32⟩ : BufTy).Contents (Elt F) :=
  addf a (broadcastInDim S100000x64 ![0, 1] bcast_S1x64_S100000x64_0_1 (broadcastInDim S1x64 ![1] bcast_S64_S1x64_1 b))

/-- … and its positive part, entry by entry: the maximum with zero. -/
def activated64 (a : (⟨S100000x64, .f32⟩ : BufTy).Contents (Elt F)) (b : (⟨S64, .f32⟩ : BufTy).Contents (Elt F)) : (⟨S100000x64, .f32⟩ : BufTy).Contents (Elt F) :=
  maximumf (biased64 a b) (broadcastInDim S100000x64 ![] bcast_S_S100000x64 (constant S_ .f32 0x00000000#32))

/-- Layer 2's dense product: row `r`, column `c` is the sum over `k` of `h r k · w k c` (the host's dot_general over the one contracted axis). -/
def dense32 (h : (⟨S100000x64, .f32⟩ : BufTy).Contents (Elt F)) (w : (⟨S64x32, .f32⟩ : BufTy).Contents (Elt F)) : (⟨S100000x32, .f32⟩ : BufTy).Contents (Elt F) :=
  Host.dotGeneral dot_S100000x64_S64x32_S100000x32_1_0_0_1_n_n none h w

/-- Layer 2's aggregation over the edges with sources `s`, targets `t` and weights `w`: every edge takes the row of `h` at its
    source node, scaled by its weight, and the scaled rows are summed into the rows of the edges' target nodes, from zero. -/
def aggregate32 (h : (⟨S100000x32, .f32⟩ : BufTy).Contents (Elt F)) (s t : (⟨S3300000, .i32⟩ : BufTy).Contents (Elt F)) (w : (⟨S3300000, .f32⟩ : BufTy).Contents (Elt F)) : (⟨S100000x32, .f32⟩ : BufTy).Contents (Elt F) :=
  Host.scatterAdd scatter_S100000x32_S3300000x1_S3300000x32_1_0_0_1
    (broadcastInDim S100000x32 ![] bcast_S_S100000x32 (constant S_ .f32 0x00000000#32))
    (broadcastInDim S3300000x1 ![0] bcast_S3300000_S3300000x1_0 t)
    (mulf (Host.gather gather_S100000x32_S3300000x1_S3300000x32_1_0_n_n_0_1_132 h (wrapped s))
      (broadcastInDim S3300000x32 ![0, 1] bcast_S3300000x1_S3300000x32_0_1 (broadcastInDim S3300000x1 ![0] bcast_S3300000_S3300000x1_0 w)))

/-- The bias of layer 2 added to every row. -/
def biased32 (a : (⟨S100000x32, .f32⟩ : BufTy).Contents (Elt F)) (b : (⟨S32, .f32⟩ : BufTy).Contents (Elt F)) : (⟨S100000x32, .f32⟩ : BufTy).Contents (Elt F) :=
  addf a (broadcastInDim S100000x32 ![0, 1] bcast_S1x32_S100000x32_0_1 (broadcastInDim S1x32 ![1] bcast_S32_S1x32_1 b))

/-- … and its positive part, entry by entry: the maximum with zero. -/
def activated32 (a : (⟨S100000x32, .f32⟩ : BufTy).Contents (Elt F)) (b : (⟨S32, .f32⟩ : BufTy).Contents (Elt F)) : (⟨S100000x32, .f32⟩ : BufTy).Contents (Elt F) :=
  maximumf (biased32 a b) (broadcastInDim S100000x32 ![] bcast_S_S100000x32 (constant S_ .f32 0x00000000#32))

/-- Layer 3's dense product: row `r`, column `c` is the sum over `k` of `h r k · w k c` (the host's dot_general over the one contracted axis). -/
def dense16 (h : (⟨S100000x32, .f32⟩ : BufTy).Contents (Elt F)) (w : (⟨S32x16, .f32⟩ : BufTy).Contents (Elt F)) : (⟨S100000x16, .f32⟩ : BufTy).Contents (Elt F) :=
  Host.dotGeneral dot_S100000x32_S32x16_S100000x16_1_0_0_1_n_n none h w

/-- Layer 3's aggregation over the edges with sources `s`, targets `t` and weights `w`: every edge takes the row of `h` at its
    source node, scaled by its weight, and the scaled rows are summed into the rows of the edges' target nodes, from zero. -/
def aggregate16 (h : (⟨S100000x16, .f32⟩ : BufTy).Contents (Elt F)) (s t : (⟨S3300000, .i32⟩ : BufTy).Contents (Elt F)) (w : (⟨S3300000, .f32⟩ : BufTy).Contents (Elt F)) : (⟨S100000x16, .f32⟩ : BufTy).Contents (Elt F) :=
  Host.scatterAdd scatter_S100000x16_S3300000x1_S3300000x16_1_0_0_1
    (broadcastInDim S100000x16 ![] bcast_S_S100000x16 (constant S_ .f32 0x00000000#32))
    (broadcastInDim S3300000x1 ![0] bcast_S3300000_S3300000x1_0 t)
    (mulf (Host.gather gather_S100000x16_S3300000x1_S3300000x16_1_0_n_n_0_1_116 h (wrapped s))
      (broadcastInDim S3300000x16 ![0, 1] bcast_S3300000x1_S3300000x16_0_1 (broadcastInDim S3300000x1 ![0] bcast_S3300000_S3300000x1_0 w)))

/-- The bias of layer 3 added to every row. -/
def biased16 (a : (⟨S100000x16, .f32⟩ : BufTy).Contents (Elt F)) (b : (⟨S16, .f32⟩ : BufTy).Contents (Elt F)) : (⟨S100000x16, .f32⟩ : BufTy).Contents (Elt F) :=
  addf a (broadcastInDim S100000x16 ![0, 1] bcast_S1x16_S100000x16_0_1 (broadcastInDim S1x16 ![1] bcast_S16_S1x16_1 b))

/-- … and its positive part, entry by entry: the maximum with zero. -/
def activated16 (a : (⟨S100000x16, .f32⟩ : BufTy).Contents (Elt F)) (b : (⟨S16, .f32⟩ : BufTy).Contents (Elt F)) : (⟨S100000x16, .f32⟩ : BufTy).Contents (Elt F) :=
  maximumf (biased16 a b) (broadcastInDim S100000x16 ![] bcast_S_S100000x16 (constant S_ .f32 0x00000000#32))

/-- Layer 4's dense product: row `r`, column `c` is the sum over `k` of `h r k · w k c` (the host's dot_general over the one contracted axis). -/
def dense8 (h : (⟨S100000x16, .f32⟩ : BufTy).Contents (Elt F)) (w : (⟨S16x8, .f32⟩ : BufTy).Contents (Elt F)) : (⟨S100000x8, .f32⟩ : BufTy).Contents (Elt F) :=
  Host.dotGeneral dot_S100000x16_S16x8_S100000x8_1_0_0_1_n_n none h w

/-- Layer 4's aggregation over the edges with sources `s`, targets `t` and weights `w`: every edge takes the row of `h` at its
    source node, scaled by its weight, and the scaled rows are summed into the rows of the edges' target nodes, from zero. -/
def aggregate8 (h : (⟨S100000x8, .f32⟩ : BufTy).Contents (Elt F)) (s t : (⟨S3300000, .i32⟩ : BufTy).Contents (Elt F)) (w : (⟨S3300000, .f32⟩ : BufTy).Contents (Elt F)) : (⟨S100000x8, .f32⟩ : BufTy).Contents (Elt F) :=
  Host.scatterAdd scatter_S100000x8_S3300000x1_S3300000x8_1_0_0_1
    (broadcastInDim S100000x8 ![] bcast_S_S100000x8 (constant S_ .f32 0x00000000#32))
    (broadcastInDim S3300000x1 ![0] bcast_S3300000_S3300000x1_0 t)
    (mulf (Host.gather gather_S100000x8_S3300000x1_S3300000x8_1_0_n_n_0_1_18 h (wrapped s))
      (broadcastInDim S3300000x8 ![0, 1] bcast_S3300000x1_S3300000x8_0_1 (broadcastInDim S3300000x1 ![0] bcast_S3300000_S3300000x1_0 w)))

/-- The bias of layer 4 added to every row. -/
def biased8 (a : (⟨S100000x8, .f32⟩ : BufTy).Contents (Elt F)) (b : (⟨S8, .f32⟩ : BufTy).Contents (Elt F)) : (⟨S100000x8, .f32⟩ : BufTy).Contents (Elt F) :=
  addf a (broadcastInDim S100000x8 ![0, 1] bcast_S1x8_S100000x8_0_1 (broadcastInDim S1x8 ![1] bcast_S8_S1x8_1 b))

/-- The first layer's output: 64 features per node. -/
def layer1 (x : (⟨S100000x11, .f32⟩ : BufTy).Contents (Elt F)) (e : (⟨S2x3200000, .i32⟩ : BufTy).Contents (Elt F)) (w1 : (⟨S11x64, .f32⟩ : BufTy).Contents (Elt F)) (b1 : (⟨S64, .f32⟩ : BufTy).Contents (Elt F)) : (⟨S100000x64, .f32⟩ : BufTy).Contents (Elt F) :=
  activated64 (aggregate64 (dense64 x w1) (source e) (target e) (weights e)) b1

/-- The second layer's output: 32 features per node. -/
def layer2 (x : (⟨S100000x11, .f32⟩ : BufTy).Contents (Elt F)) (e : (⟨S2x3200000, .i32⟩ : BufTy).Contents (Elt F)) (w1 : (⟨S11x64, .f32⟩ : BufTy).Contents (Elt F)) (b1 : (⟨S64, .f32⟩ : BufTy).Contents (Elt F)) (w2 : (⟨S64x32, .f32⟩ : BufTy).Contents (Elt F)) (b2 : (⟨S32, .f32⟩ : BufTy).Contents (Elt F)) : (⟨S100000x32, .f32⟩ : BufTy).Contents (Elt F) :=
  activated32 (aggregate32 (dense32 (layer1 x e w1 b1) w2) (source e) (target e) (weights e)) b2

/-- The third layer's output: 16 features per node. -/
def layer3 (x : (⟨S100000x11, .f32⟩ : BufTy).Contents (Elt F)) (e : (⟨S2x3200000, .i32⟩ : BufTy).Contents (Elt F)) (w1 : (⟨S11x64, .f32⟩ : BufTy).Contents (Elt F)) (b1 : (⟨S64, .f32⟩ : BufTy).Contents (Elt F)) (w2 : (⟨S64x32, .f32⟩ : BufTy).Contents (Elt F)) (b2 : (⟨S32, .f32⟩ : BufTy).Contents (Elt F)) (w3 : (⟨S32x16, .f32⟩ : BufTy).Contents (Elt F)) (b3 : (⟨S16, .f32⟩ : BufTy).Contents (Elt F)) : (⟨S100000x16, .f32⟩ : BufTy).Contents (Elt F) :=
  activated16 (aggregate16 (dense16 (layer2 x e w1 b1 w2 b2) w3) (source e) (target e) (weights e)) b3

/-- The network: four layers, the first three activated; 8 features per node. -/
def result (x : (⟨S100000x11, .f32⟩ : BufTy).Contents (Elt F)) (e : (⟨S2x3200000, .i32⟩ : BufTy).Contents (Elt F)) (w1 : (⟨S11x64, .f32⟩ : BufTy).Contents (Elt F)) (b1 : (⟨S64, .f32⟩ : BufTy).Contents (Elt F)) (w2 : (⟨S64x32, .f32⟩ : BufTy).Contents (Elt F)) (b2 : (⟨S32, .f32⟩ : BufTy).Contents (Elt F)) (w3 : (⟨S32x16, .f32⟩ : BufTy).Contents (Elt F)) (b3 : (⟨S16, .f32⟩ : BufTy).Contents (Elt F)) (w4 : (⟨S16x8, .f32⟩ : BufTy).Contents (Elt F)) (b4 : (⟨S8, .f32⟩ : BufTy).Contents (Elt F)) : (⟨S100000x8, .f32⟩ : BufTy).Contents (Elt F) :=
  biased8 (aggregate8 (dense8 (layer3 x e w1 b1 w2 b2 w3 b3) w4) (source e) (target e) (weights e)) b4

end Cert.Gcn

end
-- ==== Proof.Dense64.lean ====
/-
  Layer 1's dense product, computed by a region of ten row blocks: each grid point loads 10000 rows of the node
  features (11 columns) and the whole 11 × 64 weight matrix, and stores their product. At the ideal instance the
  narrowing to bf16 before the product is the identity, so after the ten write-backs the output array is the
  matrix product of the two arrays the region found, whatever they are.
-/
import proofs.«111440_j76244259439066_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Dense64

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-! The product's index arithmetic: at output index `j` and contraction index `r` the left operand is read at row `j 0`,
    column `r`, the right operand at row `r`, column `j 1`. -/

theorem lhs_row (j : S10000x64.Idx) (r : dot_S10000x11_S11x64_S10000x64_1_0_0_1_n_n.contr.Idx) : (dot_S10000x11_S11x64_S10000x64_1_0_0_1_n_n.lhsIdx j r 0).val = (j 0).val := by
  unfold DotDims.lhsIdx
  rw [dif_neg (show ¬(0 : Fin S10000x11.rank) ∈ dot_S10000x11_S11x64_S10000x64_1_0_0_1_n_n.lhsBatch by decide), dif_pos (show (0 : Fin S10000x11.rank) ∈ dot_S10000x11_S11x64_S10000x64_1_0_0_1_n_n.lhsNonContracting by decide)]
  rfl
theorem lhs_col (j : S10000x64.Idx) (r : dot_S10000x11_S11x64_S10000x64_1_0_0_1_n_n.contr.Idx) : (dot_S10000x11_S11x64_S10000x64_1_0_0_1_n_n.lhsIdx j r 1).val = (r ⟨0, by decide⟩).val :=
  dot_S10000x11_S11x64_S10000x64_1_0_0_1_n_n.lhsIdx_val_of_single rfl j r
theorem rhs_row (j : S10000x64.Idx) (r : dot_S10000x11_S11x64_S10000x64_1_0_0_1_n_n.contr.Idx) : (dot_S10000x11_S11x64_S10000x64_1_0_0_1_n_n.rhsIdx j r 0).val = (r ⟨0, by decide⟩).val :=
  dot_S10000x11_S11x64_S10000x64_1_0_0_1_n_n.rhsIdx_val_of_single rfl j r
theorem rhs_col (j : S10000x64.Idx) (r : dot_S10000x11_S11x64_S10000x64_1_0_0_1_n_n.contr.Idx) : (dot_S10000x11_S11x64_S10000x64_1_0_0_1_n_n.rhsIdx j r 1).val = (j 1).val := by
  unfold DotDims.rhsIdx
  rw [dif_neg (show ¬(1 : Fin S11x64.rank) ∈ dot_S10000x11_S11x64_S10000x64_1_0_0_1_n_n.rhsBatch by decide), dif_pos (show (1 : Fin S11x64.rank) ∈ dot_S10000x11_S11x64_S10000x64_1_0_0_1_n_n.rhsNonContracting by decide)]
  rfl

/-- The body's stored value at row `p`, column `q` of the block: the sum over `k` of the loaded rows' entry `(p, k)` times
    the weights' entry `(k, q)` — the change of float format is the identity on extended reals and the accumulator
    starts at zero. -/
theorem payload_apply (x0 : Vec Ideal S10000x11 .f32) (x1 : Vec Ideal S11x64 .f32) (p : Fin 10000) (q : Fin 64) :
    k0_pay1 x0 x1 (ix2 p q) = ∑ k : Fin 11, x0 (ix2 p k) * x1 (ix2 k q) := by
  unfold k0_pay1
  show FloatOps.matmul dot_S10000x11_S11x64_S10000x64_1_0_0_1_n_n none (truncf (F := Ideal) .bf16 x0 bitsLt_bf16_f32) (truncf (F := Ideal) .bf16 x1 bitsLt_bf16_f32) (constant (F := Ideal) S10000x64 .f32 0x00000000#32) (ix2 p q) = _
  rw [Ideal.matmul_constant_zero_apply, ← Equiv.sum_comp (ValueIdx.contrEquiv1 dot_S10000x11_S11x64_S10000x64_1_0_0_1_n_n 11 rfl rfl).symm]
  refine Finset.sum_congr rfl fun k _ => ?_
  have hk := ValueIdx.contrEquiv1_symm_val dot_S10000x11_S11x64_S10000x64_1_0_0_1_n_n 11 rfl rfl k
  have el : dot_S10000x11_S11x64_S10000x64_1_0_0_1_n_n.lhsIdx (ix2 p q) ((ValueIdx.contrEquiv1 dot_S10000x11_S11x64_S10000x64_1_0_0_1_n_n 11 rfl rfl).symm k) = ix2 p k := funext fun a => Fin.ext (by
    match a with
    | ⟨0, _⟩ => exact lhs_row _ _
    | ⟨1, _⟩ => exact (lhs_col _ _).trans hk)
  have er : dot_S10000x11_S11x64_S10000x64_1_0_0_1_n_n.rhsIdx (ix2 p q) ((ValueIdx.contrEquiv1 dot_S10000x11_S11x64_S10000x64_1_0_0_1_n_n 11 rfl rfl).symm k) = ix2 k q := funext fun a => Fin.ext (by
    match a with
    | ⟨0, _⟩ => exact (rhs_row _ _).trans hk
    | ⟨1, _⟩ => exact rhs_col _ _)
  rw [el, er]
  rfl

/-- Row `i 0` of the features at column `k`, and row `k` of the weights at column `i 1`. -/
abbrev lrow (i : S100000x64.Idx) (k : Fin 11) : S100000x11.Idx := ix2 (⟨(i 0).val, idx2_lt0 i⟩ : Fin 100000) k
abbrev rcol (i : S100000x64.Idx) (k : Fin 11) : S11x64.Idx := ix2 k (⟨(i 1).val, idx2_lt1 i⟩ : Fin 64)

/-- The region's output as one function of its two input arrays: the matrix product. -/
def product (a : S100000x11.Idx → EReal) (w : S11x64.Idx → EReal) : S100000x64.Idx → EReal :=
  fun i => ∑ k : Fin 11, a (lrow i k) * w (rcol i k)

/-- The index maps over the ten grid points: feature and output blocks move together down the rows, the weights stay. -/
theorem idx_facts : ∀ t : Fin cfg0.N, win0_0.index t (0 : Fin 2) = win0_2.index t (0 : Fin 2)
    ∧ win0_0.index t (1 : Fin 2) = 0 ∧ win0_2.index t (1 : Fin 2) = 0
    ∧ win0_1.index t (0 : Fin 2) = 0 ∧ win0_1.index t (1 : Fin 2) = 0
    ∧ win0_2.index t (0 : Fin 2) ≤ 9 :=
  (by decide +kernel : ∀ t : Fin grid0.N, _)

/-- Every one of the ten row blocks is some point's output block. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- What point `t` writes back is block `t` of the product of the arrays as the region finds them: a row of the output
    depends on the same row of the features only, and the feature block holds exactly the rows the output block covers. -/
theorem flushed_eq (c : Dev nD) (t : Fin cfg0.N) :
    (dat0 V c).flushed 2 t = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero origin]
  simp only [View.ld_unit_zero (S := S10000x11) origin, View.ld_unit_zero (S := S11x64) origin]
  obtain ⟨e0, e1, e2, e3, e4, e5⟩ := idx_facts t
  funext j
  obtain ⟨p, q, rfl⟩ : ∃ (p : Fin 10000) (q : Fin 64), j = ix2 p q := ⟨j 0, j 1, eq_ix2 j⟩
  show k0_pay1 (iblk0 V c 0 t) (iblk0 V c 1 t) (ix2 p q) = product (V c main_arg0) (V c main_arg2) (((cfg0.win 2).blk t).view.emb (ix2 p q))
  refine (payload_apply (iblk0 V c 0 t) (iblk0 V c 1 t) p q).trans ?_
  refine Finset.sum_congr rfl fun k _ => ?_
  have h0 : ((cfg0.win 0).blk t).view.emb (ix2 p k) = lrow (((cfg0.win 2).blk t).view.emb (ix2 p q)) k := by
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 11 + 1 * k.val = k.val; omega
  have h1 : ((cfg0.win 1).blk t).view.emb (ix2 k q) = rcol (((cfg0.win 2).blk t).view.emb (ix2 p q)) k := by
    funext a; apply Fin.ext
    match a with
    | ⟨0, _⟩ => show win0_1.index t (0 : Fin 2) * 11 + 1 * k.val = k.val; omega
    | ⟨1, _⟩ => show win0_1.index t (1 : Fin 2) * 64 + 1 * q.val = win0_2.index t (1 : Fin 2) * 64 + 1 * q.val; omega
  exact congrArg₂ (fun (u v : EReal) => u * v) (congrArg (V c main_arg0) h0) (congrArg (V c main_arg2) h1)

/-- An index of the output array lies in point `t`'s block iff each coordinate lies in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v32).slice (win0_2.rect t)).set ↔ _
  rw [View.set_slice_whole, Rect.mem_set_unit]
  exact Iff.rfl

/-- The ten blocks cover the array: row `r` lies in the block of point `r / 10000`. -/
theorem cover (i : S100000x64.Idx) : ∃ t : Fin cfg0.N, (cfg0.win 2).flush t = true ∧ i ∈ ((cfg0.win 2).blk t).view.set := by
  have hi0 : (i 0).val < 100000 := idx2_lt0 i
  have hi1 : (i 1).val < 64 := idx2_lt1 i
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The output array after the region's ten write-backs is the product of the two input arrays. -/
theorem value (c : Dev nD) : (dat0 V c).arrAt 2 cfg0.N = product (V c main_arg0) (V c main_arg2) :=
  (dat0 V c).arrAt_eq_of_cover 2 (product (V c main_arg0) (V c main_arg2)) (fun t _ => flushed_eq V c t) cover

end Cert.KernelIdeal.Dense64

end
-- ==== Proof.Dense32.lean ====
/-
  Layer 2's dense product, computed by a region of ten row blocks: each grid point loads 10000 rows of the node
  features (64 columns) and the whole 64 × 32 weight matrix, and stores their product. At the ideal instance the
  narrowing to bf16 before the product is the identity, so after the ten write-backs the output array is the
  matrix product of the two arrays the region found, whatever they are.
-/
import proofs.«111440_j76244259439066_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Dense32

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-! The product's index arithmetic: at output index `j` and contraction index `r` the left operand is read at row `j 0`,
    column `r`, the right operand at row `r`, column `j 1`. -/

theorem lhs_row (j : S10000x32.Idx) (r : dot_S10000x64_S64x32_S10000x32_1_0_0_1_n_n.contr.Idx) : (dot_S10000x64_S64x32_S10000x32_1_0_0_1_n_n.lhsIdx j r 0).val = (j 0).val := by
  unfold DotDims.lhsIdx
  rw [dif_neg (show ¬(0 : Fin S10000x64.rank) ∈ dot_S10000x64_S64x32_S10000x32_1_0_0_1_n_n.lhsBatch by decide), dif_pos (show (0 : Fin S10000x64.rank) ∈ dot_S10000x64_S64x32_S10000x32_1_0_0_1_n_n.lhsNonContracting by decide)]
  rfl
theorem lhs_col (j : S10000x32.Idx) (r : dot_S10000x64_S64x32_S10000x32_1_0_0_1_n_n.contr.Idx) : (dot_S10000x64_S64x32_S10000x32_1_0_0_1_n_n.lhsIdx j r 1).val = (r ⟨0, by decide⟩).val :=
  dot_S10000x64_S64x32_S10000x32_1_0_0_1_n_n.lhsIdx_val_of_single rfl j r
theorem rhs_row (j : S10000x32.Idx) (r : dot_S10000x64_S64x32_S10000x32_1_0_0_1_n_n.contr.Idx) : (dot_S10000x64_S64x32_S10000x32_1_0_0_1_n_n.rhsIdx j r 0).val = (r ⟨0, by decide⟩).val :=
  dot_S10000x64_S64x32_S10000x32_1_0_0_1_n_n.rhsIdx_val_of_single rfl j r
theorem rhs_col (j : S10000x32.Idx) (r : dot_S10000x64_S64x32_S10000x32_1_0_0_1_n_n.contr.Idx) : (dot_S10000x64_S64x32_S10000x32_1_0_0_1_n_n.rhsIdx j r 1).val = (j 1).val := by
  unfold DotDims.rhsIdx
  rw [dif_neg (show ¬(1 : Fin S64x32.rank) ∈ dot_S10000x64_S64x32_S10000x32_1_0_0_1_n_n.rhsBatch by decide), dif_pos (show (1 : Fin S64x32.rank) ∈ dot_S10000x64_S64x32_S10000x32_1_0_0_1_n_n.rhsNonContracting by decide)]
  rfl

/-- The body's stored value at row `p`, column `q` of the block: the sum over `k` of the loaded rows' entry `(p, k)` times
    the weights' entry `(k, q)` — the change of float format is the identity on extended reals and the accumulator
    starts at zero. -/
theorem payload_apply (x0 : Vec Ideal S10000x64 .f32) (x1 : Vec Ideal S64x32 .f32) (p : Fin 10000) (q : Fin 32) :
    k2_pay1 x0 x1 (ix2 p q) = ∑ k : Fin 64, x0 (ix2 p k) * x1 (ix2 k q) := by
  unfold k2_pay1
  show FloatOps.matmul dot_S10000x64_S64x32_S10000x32_1_0_0_1_n_n none (truncf (F := Ideal) .bf16 (shapeCast S10000x64 x0 shapeCasts_S10000x64_S10000x64) bitsLt_bf16_f32) (truncf (F := Ideal) .bf16 x1 bitsLt_bf16_f32) (constant (F := Ideal) S10000x32 .f32 0x00000000#32) (ix2 p q) = _
  rw [shapeCast_self]
  rw [Ideal.matmul_constant_zero_apply, ← Equiv.sum_comp (ValueIdx.contrEquiv1 dot_S10000x64_S64x32_S10000x32_1_0_0_1_n_n 64 rfl rfl).symm]
  refine Finset.sum_congr rfl fun k _ => ?_
  have hk := ValueIdx.contrEquiv1_symm_val dot_S10000x64_S64x32_S10000x32_1_0_0_1_n_n 64 rfl rfl k
  have el : dot_S10000x64_S64x32_S10000x32_1_0_0_1_n_n.lhsIdx (ix2 p q) ((ValueIdx.contrEquiv1 dot_S10000x64_S64x32_S10000x32_1_0_0_1_n_n 64 rfl rfl).symm k) = ix2 p k := funext fun a => Fin.ext (by
    match a with
    | ⟨0, _⟩ => exact lhs_row _ _
    | ⟨1, _⟩ => exact (lhs_col _ _).trans hk)
  have er : dot_S10000x64_S64x32_S10000x32_1_0_0_1_n_n.rhsIdx (ix2 p q) ((ValueIdx.contrEquiv1 dot_S10000x64_S64x32_S10000x32_1_0_0_1_n_n 64 rfl rfl).symm k) = ix2 k q := funext fun a => Fin.ext (by
    match a with
    | ⟨0, _⟩ => exact (rhs_row _ _).trans hk
    | ⟨1, _⟩ => exact rhs_col _ _)
  rw [el, er]
  rfl

/-- Row `i 0` of the features at column `k`, and row `k` of the weights at column `i 1`. -/
abbrev lrow (i : S100000x32.Idx) (k : Fin 64) : S100000x64.Idx := ix2 (⟨(i 0).val, idx2_lt0 i⟩ : Fin 100000) k
abbrev rcol (i : S100000x32.Idx) (k : Fin 64) : S64x32.Idx := ix2 k (⟨(i 1).val, idx2_lt1 i⟩ : Fin 32)

/-- The region's output as one function of its two input arrays: the matrix product. -/
def product (a : S100000x64.Idx → EReal) (w : S64x32.Idx → EReal) : S100000x32.Idx → EReal :=
  fun i => ∑ k : Fin 64, a (lrow i k) * w (rcol i k)

/-- The index maps over the ten grid points: feature and output blocks move together down the rows, the weights stay. -/
theorem idx_facts : ∀ t : Fin cfg2.N, win2_0.index t (0 : Fin 2) = win2_2.index t (0 : Fin 2)
    ∧ win2_0.index t (1 : Fin 2) = 0 ∧ win2_2.index t (1 : Fin 2) = 0
    ∧ win2_1.index t (0 : Fin 2) = 0 ∧ win2_1.index t (1 : Fin 2) = 0
    ∧ win2_2.index t (0 : Fin 2) ≤ 9 :=
  (by decide +kernel : ∀ t : Fin grid2.N, _)

/-- Every one of the ten row blocks is some point's output block. -/
theorem idx_onto : ∀ q0 : Fin 10, ∃ t : Fin cfg2.N, win2_2.index t = ![q0.val, 0] :=
  (by decide +kernel : ∀ q0 : Fin 10, ∃ t : Fin grid2.N, win2_2.index t = ![q0.val, 0])

/-- What point `t` writes back is block `t` of the product of the arrays as the region finds them: a row of the output
    depends on the same row of the features only, and the feature block holds exactly the rows the output block covers. -/
theorem flushed_eq (c : Dev nD) (t : Fin cfg2.N) :
    (dat2 V c).flushed 2 t = ((cfg2.win 2).blk t).view.read (Elt Ideal) (product (V c main_v47) (V c main_arg4)) := by
  show (cfg2.win 2).cut (grid2.coords t) ((dat2 V c).after 2 t) = _
  rw [after2_2]
  unfold out2_2
  rw [View.canon_unit_zero origin]
  simp only [View.ld_unit_zero (S := S10000x64) origin, View.ld_unit_zero (S := S64x32) origin]
  obtain ⟨e0, e1, e2, e3, e4, e5⟩ := idx_facts t
  funext j
  obtain ⟨p, q, rfl⟩ : ∃ (p : Fin 10000) (q : Fin 32), j = ix2 p q := ⟨j 0, j 1, eq_ix2 j⟩
  show k2_pay1 (iblk2 V c 0 t) (iblk2 V c 1 t) (ix2 p q) = product (V c main_v47) (V c main_arg4) (((cfg2.win 2).blk t).view.emb (ix2 p q))
  refine (payload_apply (iblk2 V c 0 t) (iblk2 V c 1 t) p q).trans ?_
  refine Finset.sum_congr rfl fun k _ => ?_
  have h0 : ((cfg2.win 0).blk t).view.emb (ix2 p k) = lrow (((cfg2.win 2).blk t).view.emb (ix2 p q)) k := by
    funext a; apply Fin.ext
    match a with
    | ⟨0, _⟩ => show win2_0.index t (0 : Fin 2) * 10000 + 1 * p.val = win2_2.index t (0 : Fin 2) * 10000 + 1 * p.val; omega
    | ⟨1, _⟩ => show win2_0.index t (1 : Fin 2) * 64 + 1 * k.val = k.val; omega
  have h1 : ((cfg2.win 1).blk t).view.emb (ix2 k q) = rcol (((cfg2.win 2).blk t).view.emb (ix2 p q)) k := by
    funext a; apply Fin.ext
    match a with
    | ⟨0, _⟩ => show win2_1.index t (0 : Fin 2) * 64 + 1 * k.val = k.val; omega
    | ⟨1, _⟩ => show win2_1.index t (1 : Fin 2) * 32 + 1 * q.val = win2_2.index t (1 : Fin 2) * 32 + 1 * q.val; omega
  exact congrArg₂ (fun (u v : EReal) => u * v) (congrArg (V c main_v47) h0) (congrArg (V c main_arg4) h1)

/-- An index of the output array lies in point `t`'s block iff each coordinate lies in the block's range on its axis. -/
theorem mem_blk (t : Fin cfg2.N) (i : S100000x32.Idx) :
    i ∈ ((cfg2.win 2).blk t).view.set ↔ ∀ a : Fin 2, win2_2.index t a * S10000x32.size a ≤ (i a).val ∧ (i a).val < win2_2.index t a * S10000x32.size a + S10000x32.size a := by
  show i ∈ ((View.whole main_v48).slice (win2_2.rect t)).set ↔ _
  rw [View.set_slice_whole, Rect.mem_set_unit]
  exact Iff.rfl

/-- The ten blocks cover the array: row `r` lies in the block of point `r / 10000`. -/
theorem cover (i : S100000x32.Idx) : ∃ t : Fin cfg2.N, (cfg2.win 2).flush t = true ∧ i ∈ ((cfg2.win 2).blk t).view.set := by
  have hi0 : (i 0).val < 100000 := idx2_lt0 i
  have hi1 : (i 1).val < 32 := idx2_lt1 i
  obtain ⟨t, ht⟩ := idx_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 32 ≤ (i 1).val ∧ (i 1).val < win2_2.index t (1 : Fin 2) * 32 + 32; omega

/-- The output array after the region's ten write-backs is the product of the two input arrays. -/
theorem value (c : Dev nD) : (dat2 V c).arrAt 2 cfg2.N = product (V c main_v47) (V c main_arg4) :=
  (dat2 V c).arrAt_eq_of_cover 2 (product (V c main_v47) (V c main_arg4)) (fun t _ => flushed_eq V c t) cover

end Cert.KernelIdeal.Dense32

end
-- ==== Proof.Dense16.lean ====
/-
  Layer 3's dense product, computed by a region of ten row blocks: each grid point loads 10000 rows of the node
  features (32 columns) and the whole 32 × 16 weight matrix, and stores their product. At the ideal instance the
  narrowing to bf16 before the product is the identity, so after the ten write-backs the output array is the
  matrix product of the two arrays the region found, whatever they are.
-/
import proofs.«111440_j76244259439066_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Dense16

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-! The product's index arithmetic: at output index `j` and contraction index `r` the left operand is read at row `j 0`,
    column `r`, the right operand at row `r`, column `j 1`. -/

theorem lhs_row (j : S10000x16.Idx) (r : dot_S10000x32_S32x16_S10000x16_1_0_0_1_n_n.contr.Idx) : (dot_S10000x32_S32x16_S10000x16_1_0_0_1_n_n.lhsIdx j r 0).val = (j 0).val := by
  unfold DotDims.lhsIdx
  rw [dif_neg (show ¬(0 : Fin S10000x32.rank) ∈ dot_S10000x32_S32x16_S10000x16_1_0_0_1_n_n.lhsBatch by decide), dif_pos (show (0 : Fin S10000x32.rank) ∈ dot_S10000x32_S32x16_S10000x16_1_0_0_1_n_n.lhsNonContracting by decide)]
  rfl
theorem lhs_col (j : S10000x16.Idx) (r : dot_S10000x32_S32x16_S10000x16_1_0_0_1_n_n.contr.Idx) : (dot_S10000x32_S32x16_S10000x16_1_0_0_1_n_n.lhsIdx j r 1).val = (r ⟨0, by decide⟩).val :=
  dot_S10000x32_S32x16_S10000x16_1_0_0_1_n_n.lhsIdx_val_of_single rfl j r
theorem rhs_row (j : S10000x16.Idx) (r : dot_S10000x32_S32x16_S10000x16_1_0_0_1_n_n.contr.Idx) : (dot_S10000x32_S32x16_S10000x16_1_0_0_1_n_n.rhsIdx j r 0).val = (r ⟨0, by decide⟩).val :=
  dot_S10000x32_S32x16_S10000x16_1_0_0_1_n_n.rhsIdx_val_of_single rfl j r
theorem rhs_col (j : S10000x16.Idx) (r : dot_S10000x32_S32x16_S10000x16_1_0_0_1_n_n.contr.Idx) : (dot_S10000x32_S32x16_S10000x16_1_0_0_1_n_n.rhsIdx j r 1).val = (j 1).val := by
  unfold DotDims.rhsIdx
  rw [dif_neg (show ¬(1 : Fin S32x16.rank) ∈ dot_S10000x32_S32x16_S10000x16_1_0_0_1_n_n.rhsBatch by decide), dif_pos (show (1 : Fin S32x16.rank) ∈ dot_S10000x32_S32x16_S10000x16_1_0_0_1_n_n.rhsNonContracting by decide)]
  rfl

/-- The body's stored value at row `p`, column `q` of the block: the sum over `k` of the loaded rows' entry `(p, k)` times
    the weights' entry `(k, q)` — the change of float format is the identity on extended reals and the accumulator
    starts at zero. -/
theorem payload_apply (x0 : Vec Ideal S10000x32 .f32) (x1 : Vec Ideal S32x16 .f32) (p : Fin 10000) (q : Fin 16) :
    k4_pay1 x0 x1 (ix2 p q) = ∑ k : Fin 32, x0 (ix2 p k) * x1 (ix2 k q) := by
  unfold k4_pay1
  show FloatOps.matmul dot_S10000x32_S32x16_S10000x16_1_0_0_1_n_n none (truncf (F := Ideal) .bf16 (shapeCast S10000x32 x0 shapeCasts_S10000x32_S10000x32) bitsLt_bf16_f32) (truncf (F := Ideal) .bf16 x1 bitsLt_bf16_f32) (constant (F := Ideal) S10000x16 .f32 0x00000000#32) (ix2 p q) = _
  rw [shapeCast_self]
  rw [Ideal.matmul_constant_zero_apply, ← Equiv.sum_comp (ValueIdx.contrEquiv1 dot_S10000x32_S32x16_S10000x16_1_0_0_1_n_n 32 rfl rfl).symm]
  refine Finset.sum_congr rfl fun k _ => ?_
  have hk := ValueIdx.contrEquiv1_symm_val dot_S10000x32_S32x16_S10000x16_1_0_0_1_n_n 32 rfl rfl k
  have el : dot_S10000x32_S32x16_S10000x16_1_0_0_1_n_n.lhsIdx (ix2 p q) ((ValueIdx.contrEquiv1 dot_S10000x32_S32x16_S10000x16_1_0_0_1_n_n 32 rfl rfl).symm k) = ix2 p k := funext fun a => Fin.ext (by
    match a with
    | ⟨0, _⟩ => exact lhs_row _ _
    | ⟨1, _⟩ => exact (lhs_col _ _).trans hk)
  have er : dot_S10000x32_S32x16_S10000x16_1_0_0_1_n_n.rhsIdx (ix2 p q) ((ValueIdx.contrEquiv1 dot_S10000x32_S32x16_S10000x16_1_0_0_1_n_n 32 rfl rfl).symm k) = ix2 k q := funext fun a => Fin.ext (by
    match a with
    | ⟨0, _⟩ => exact (rhs_row _ _).trans hk
    | ⟨1, _⟩ => exact rhs_col _ _)
  rw [el, er]
  rfl

/-- Row `i 0` of the features at column `k`, and row `k` of the weights at column `i 1`. -/
abbrev lrow (i : S100000x16.Idx) (k : Fin 32) : S100000x32.Idx := ix2 (⟨(i 0).val, idx2_lt0 i⟩ : Fin 100000) k
abbrev rcol (i : S100000x16.Idx) (k : Fin 32) : S32x16.Idx := ix2 k (⟨(i 1).val, idx2_lt1 i⟩ : Fin 16)

/-- The region's output as one function of its two input arrays: the matrix product. -/
def product (a : S100000x32.Idx → EReal) (w : S32x16.Idx → EReal) : S100000x16.Idx → EReal :=
  fun i => ∑ k : Fin 32, a (lrow i k) * w (rcol i k)

/-- The index maps over the ten grid points: feature and output blocks move together down the rows, the weights stay. -/
theorem idx_facts : ∀ t : Fin cfg4.N, win4_0.index t (0 : Fin 2) = win4_2.index t (0 : Fin 2)
    ∧ win4_0.index t (1 : Fin 2) = 0 ∧ win4_2.index t (1 : Fin 2) = 0
    ∧ win4_1.index t (0 : Fin 2) = 0 ∧ win4_1.index t (1 : Fin 2) = 0
    ∧ win4_2.index t (0 : Fin 2) ≤ 9 :=
  (by decide +kernel : ∀ t : Fin grid4.N, _)

/-- Every one of the ten row blocks is some point's output block. -/
theorem idx_onto : ∀ q0 : Fin 10, ∃ t : Fin cfg4.N, win4_2.index t = ![q0.val, 0] :=
  (by decide +kernel : ∀ q0 : Fin 10, ∃ t : Fin grid4.N, win4_2.index t = ![q0.val, 0])

/-- What point `t` writes back is block `t` of the product of the arrays as the region finds them: a row of the output
    depends on the same row of the features only, and the feature block holds exactly the rows the output block covers. -/
theorem flushed_eq (c : Dev nD) (t : Fin cfg4.N) :
    (dat4 V c).flushed 2 t = ((cfg4.win 2).blk t).view.read (Elt Ideal) (product (V c main_v63) (V c main_arg6)) := by
  show (cfg4.win 2).cut (grid4.coords t) ((dat4 V c).after 2 t) = _
  rw [after4_2]
  unfold out4_2
  rw [View.canon_unit_zero origin]
  simp only [View.ld_unit_zero (S := S10000x32) origin, View.ld_unit_zero (S := S32x16) origin]
  obtain ⟨e0, e1, e2, e3, e4, e5⟩ := idx_facts t
  funext j
  obtain ⟨p, q, rfl⟩ : ∃ (p : Fin 10000) (q : Fin 16), j = ix2 p q := ⟨j 0, j 1, eq_ix2 j⟩
  show k4_pay1 (iblk4 V c 0 t) (iblk4 V c 1 t) (ix2 p q) = product (V c main_v63) (V c main_arg6) (((cfg4.win 2).blk t).view.emb (ix2 p q))
  refine (payload_apply (iblk4 V c 0 t) (iblk4 V c 1 t) p q).trans ?_
  refine Finset.sum_congr rfl fun k _ => ?_
  have h0 : ((cfg4.win 0).blk t).view.emb (ix2 p k) = lrow (((cfg4.win 2).blk t).view.emb (ix2 p q)) k := by
    funext a; apply Fin.ext
    match a with
    | ⟨0, _⟩ => show win4_0.index t (0 : Fin 2) * 10000 + 1 * p.val = win4_2.index t (0 : Fin 2) * 10000 + 1 * p.val; omega
    | ⟨1, _⟩ => show win4_0.index t (1 : Fin 2) * 32 + 1 * k.val = k.val; omega
  have h1 : ((cfg4.win 1).blk t).view.emb (ix2 k q) = rcol (((cfg4.win 2).blk t).view.emb (ix2 p q)) k := by
    funext a; apply Fin.ext
    match a with
    | ⟨0, _⟩ => show win4_1.index t (0 : Fin 2) * 32 + 1 * k.val = k.val; omega
    | ⟨1, _⟩ => show win4_1.index t (1 : Fin 2) * 16 + 1 * q.val = win4_2.index t (1 : Fin 2) * 16 + 1 * q.val; omega
  exact congrArg₂ (fun (u v : EReal) => u * v) (congrArg (V c main_v63) h0) (congrArg (V c main_arg6) h1)

/-- An index of the output array lies in point `t`'s block iff each coordinate lies in the block's range on its axis. -/
theorem mem_blk (t : Fin cfg4.N) (i : S100000x16.Idx) :
    i ∈ ((cfg4.win 2).blk t).view.set ↔ ∀ a : Fin 2, win4_2.index t a * S10000x16.size a ≤ (i a).val ∧ (i a).val < win4_2.index t a * S10000x16.size a + S10000x16.size a := by
  show i ∈ ((View.whole main_v64).slice (win4_2.rect t)).set ↔ _
  rw [View.set_slice_whole, Rect.mem_set_unit]
  exact Iff.rfl

/-- The ten blocks cover the array: row `r` lies in the block of point `r / 10000`. -/
theorem cover (i : S100000x16.Idx) : ∃ t : Fin cfg4.N, (cfg4.win 2).flush t = true ∧ i ∈ ((cfg4.win 2).blk t).view.set := by
  have hi0 : (i 0).val < 100000 := idx2_lt0 i
  have hi1 : (i 1).val < 16 := idx2_lt1 i
  obtain ⟨t, ht⟩ := idx_onto ⟨(i 0).val / 10000, by omega⟩
  have q0 : win4_2.index t (0 : Fin 2) = (i 0).val / 10000 := congrFun ht 0
  have q1 : win4_2.index t (1 : Fin 2) = 0 := congrFun ht 1
  refine ⟨t, flush4_2 t, ?_⟩
  rw [mem_blk]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 16 ≤ (i 1).val ∧ (i 1).val < win4_2.index t (1 : Fin 2) * 16 + 16; omega

/-- The output array after the region's ten write-backs is the product of the two input arrays. -/
theorem value (c : Dev nD) : (dat4 V c).arrAt 2 cfg4.N = product (V c main_v63) (V c main_arg6) :=
  (dat4 V c).arrAt_eq_of_cover 2 (product (V c main_v63) (V c main_arg6)) (fun t _ => flushed_eq V c t) cover

end Cert.KernelIdeal.Dense16

end
-- ==== Proof.Dense8.lean ====
/-
  Layer 4's dense product, computed by a region of ten row blocks: each grid point loads 10000 rows of the node
  features (16 columns) and the whole 16 × 8 weight matrix, and stores their product. At the ideal instance the
  narrowing to bf16 before the product is the identity, so after the ten write-backs the output array is the
  matrix product of the two arrays the region found, whatever they are.
-/
import proofs.«111440_j76244259439066_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Dense8

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-! The product's index arithmetic: at output index `j` and contraction index `r` the left operand is read at row `j 0`,
    column `r`, the right operand at row `r`, column `j 1`. -/

theorem lhs_row (j : S10000x8.Idx) (r : dot_S10000x16_S16x8_S10000x8_1_0_0_1_n_n.contr.Idx) : (dot_S10000x16_S16x8_S10000x8_1_0_0_1_n_n.lhsIdx j r 0).val = (j 0).val := by
  unfold DotDims.lhsIdx
  rw [dif_neg (show ¬(0 : Fin S10000x16.rank) ∈ dot_S10000x16_S16x8_S10000x8_1_0_0_1_n_n.lhsBatch by decide), dif_pos (show (0 : Fin S10000x16.rank) ∈ dot_S10000x16_S16x8_S10000x8_1_0_0_1_n_n.lhsNonContracting by decide)]
  rfl
theorem lhs_col (j : S10000x8.Idx) (r : dot_S10000x16_S16x8_S10000x8_1_0_0_1_n_n.contr.Idx) : (dot_S10000x16_S16x8_S10000x8_1_0_0_1_n_n.lhsIdx j r 1).val = (r ⟨0, by decide⟩).val :=
  dot_S10000x16_S16x8_S10000x8_1_0_0_1_n_n.lhsIdx_val_of_single rfl j r
theorem rhs_row (j : S10000x8.Idx) (r : dot_S10000x16_S16x8_S10000x8_1_0_0_1_n_n.contr.Idx) : (dot_S10000x16_S16x8_S10000x8_1_0_0_1_n_n.rhsIdx j r 0).val = (r ⟨0, by decide⟩).val :=
  dot_S10000x16_S16x8_S10000x8_1_0_0_1_n_n.rhsIdx_val_of_single rfl j r
theorem rhs_col (j : S10000x8.Idx) (r : dot_S10000x16_S16x8_S10000x8_1_0_0_1_n_n.contr.Idx) : (dot_S10000x16_S16x8_S10000x8_1_0_0_1_n_n.rhsIdx j r 1).val = (j 1).val := by
  unfold DotDims.rhsIdx
  rw [dif_neg (show ¬(1 : Fin S16x8.rank) ∈ dot_S10000x16_S16x8_S10000x8_1_0_0_1_n_n.rhsBatch by decide), dif_pos (show (1 : Fin S16x8.rank) ∈ dot_S10000x16_S16x8_S10000x8_1_0_0_1_n_n.rhsNonContracting by decide)]
  rfl

/-- The body's stored value at row `p`, column `q` of the block: the sum over `k` of the loaded rows' entry `(p, k)` times
    the weights' entry `(k, q)` — the change of float format is the identity on extended reals and the accumulator
    starts at zero. -/
theorem payload_apply (x0 : Vec Ideal S10000x16 .f32) (x1 : Vec Ideal S16x8 .f32) (p : Fin 10000) (q : Fin 8) :
    k6_pay1 x0 x1 (ix2 p q) = ∑ k : Fin 16, x0 (ix2 p k) * x1 (ix2 k q) := by
  unfold k6_pay1
  show FloatOps.matmul dot_S10000x16_S16x8_S10000x8_1_0_0_1_n_n none (truncf (F := Ideal) .bf16 (shapeCast S10000x16 x0 shapeCasts_S10000x16_S10000x16) bitsLt_bf16_f32) (truncf (F := Ideal) .bf16 x1 bitsLt_bf16_f32) (constant (F := Ideal) S10000x8 .f32 0x00000000#32) (ix2 p q) = _
  rw [shapeCast_self]
  rw [Ideal.matmul_constant_zero_apply, ← Equiv.sum_comp (ValueIdx.contrEquiv1 dot_S10000x16_S16x8_S10000x8_1_0_0_1_n_n 16 rfl rfl).symm]
  refine Finset.sum_congr rfl fun k _ => ?_
  have hk := ValueIdx.contrEquiv1_symm_val dot_S10000x16_S16x8_S10000x8_1_0_0_1_n_n 16 rfl rfl k
  have el : dot_S10000x16_S16x8_S10000x8_1_0_0_1_n_n.lhsIdx (ix2 p q) ((ValueIdx.contrEquiv1 dot_S10000x16_S16x8_S10000x8_1_0_0_1_n_n 16 rfl rfl).symm k) = ix2 p k := funext fun a => Fin.ext (by
    match a with
    | ⟨0, _⟩ => exact lhs_row _ _
    | ⟨1, _⟩ => exact (lhs_col _ _).trans hk)
  have er : dot_S10000x16_S16x8_S10000x8_1_0_0_1_n_n.rhsIdx (ix2 p q) ((ValueIdx.contrEquiv1 dot_S10000x16_S16x8_S10000x8_1_0_0_1_n_n 16 rfl rfl).symm k) = ix2 k q := funext fun a => Fin.ext (by
    match a with
    | ⟨0, _⟩ => exact (rhs_row _ _).trans hk
    | ⟨1, _⟩ => exact rhs_col _ _)
  rw [el, er]
  rfl

/-- Row `i 0` of the features at column `k`, and row `k` of the weights at column `i 1`. -/
abbrev lrow (i : S100000x8.Idx) (k : Fin 16) : S100000x16.Idx := ix2 (⟨(i 0).val, idx2_lt0 i⟩ : Fin 100000) k
abbrev rcol (i : S100000x8.Idx) (k : Fin 16) : S16x8.Idx := ix2 k (⟨(i 1).val, idx2_lt1 i⟩ : Fin 8)

/-- The region's output as one function of its two input arrays: the matrix product. -/
def product (a : S100000x16.Idx → EReal) (w : S16x8.Idx → EReal) : S100000x8.Idx → EReal :=
  fun i => ∑ k : Fin 16, a (lrow i k) * w (rcol i k)

/-- The index maps over the ten grid points: feature and output blocks move together down the rows, the weights stay. -/
theorem idx_facts : ∀ t : Fin cfg6.N, win6_0.index t (0 : Fin 2) = win6_2.index t (0 : Fin 2)
    ∧ win6_0.index t (1 : Fin 2) = 0 ∧ win6_2.index t (1 : Fin 2) = 0
    ∧ win6_1.index t (0 : Fin 2) = 0 ∧ win6_1.index t (1 : Fin 2) = 0
    ∧ win6_2.index t (0 : Fin 2) ≤ 9 :=
  (by decide +kernel : ∀ t : Fin grid6.N, _)

/-- Every one of the ten row blocks is some point's output block. -/
theorem idx_onto : ∀ q0 : Fin 10, ∃ t : Fin cfg6.N, win6_2.index t = ![q0.val, 0] :=
  (by decide +kernel : ∀ q0 : Fin 10, ∃ t : Fin grid6.N, win6_2.index t = ![q0.val, 0])

/-- What point `t` writes back is block `t` of the product of the arrays as the region finds them: a row of the output
    depends on the same row of the features only, and the feature block holds exactly the rows the output block covers. -/
theorem flushed_eq (c : Dev nD) (t : Fin cfg6.N) :
    (dat6 V c).flushed 2 t = ((cfg6.win 2).blk t).view.read (Elt Ideal) (product (V c main_v79) (V c main_arg8)) := by
  show (cfg6.win 2).cut (grid6.coords t) ((dat6 V c).after 2 t) = _
  rw [after6_2]
  unfold out6_2
  rw [View.canon_unit_zero origin]
  simp only [View.ld_unit_zero (S := S10000x16) origin, View.ld_unit_zero (S := S16x8) origin]
  obtain ⟨e0, e1, e2, e3, e4, e5⟩ := idx_facts t
  funext j
  obtain ⟨p, q, rfl⟩ : ∃ (p : Fin 10000) (q : Fin 8), j = ix2 p q := ⟨j 0, j 1, eq_ix2 j⟩
  show k6_pay1 (iblk6 V c 0 t) (iblk6 V c 1 t) (ix2 p q) = product (V c main_v79) (V c main_arg8) (((cfg6.win 2).blk t).view.emb (ix2 p q))
  refine (payload_apply (iblk6 V c 0 t) (iblk6 V c 1 t) p q).trans ?_
  refine Finset.sum_congr rfl fun k _ => ?_
  have h0 : ((cfg6.win 0).blk t).view.emb (ix2 p k) = lrow (((cfg6.win 2).blk t).view.emb (ix2 p q)) k := by
    funext a; apply Fin.ext
    match a with
    | ⟨0, _⟩ => show win6_0.index t (0 : Fin 2) * 10000 + 1 * p.val = win6_2.index t (0 : Fin 2) * 10000 + 1 * p.val; omega
    | ⟨1, _⟩ => show win6_0.index t (1 : Fin 2) * 16 + 1 * k.val = k.val; omega
  have h1 : ((cfg6.win 1).blk t).view.emb (ix2 k q) = rcol (((cfg6.win 2).blk t).view.emb (ix2 p q)) k := by
    funext a; apply Fin.ext
    match a with
    | ⟨0, _⟩ => show win6_1.index t (0 : Fin 2) * 16 + 1 * k.val = k.val; omega
    | ⟨1, _⟩ => show win6_1.index t (1 : Fin 2) * 8 + 1 * q.val = win6_2.index t (1 : Fin 2) * 8 + 1 * q.val; omega
  exact congrArg₂ (fun (u v : EReal) => u * v) (congrArg (V c main_v79) h0) (congrArg (V c main_arg8) h1)

/-- An index of the output array lies in point `t`'s block iff each coordinate lies in the block's range on its axis. -/
theorem mem_blk (t : Fin cfg6.N) (i : S100000x8.Idx) :
    i ∈ ((cfg6.win 2).blk t).view.set ↔ ∀ a : Fin 2, win6_2.index t a * S10000x8.size a ≤ (i a).val ∧ (i a).val < win6_2.index t a * S10000x8.size a + S10000x8.size a := by
  show i ∈ ((View.whole main_v80).slice (win6_2.rect t)).set ↔ _
  rw [View.set_slice_whole, Rect.mem_set_unit]
  exact Iff.rfl

/-- The ten blocks cover the array: row `r` lies in the block of point `r / 10000`. -/
theorem cover (i : S100000x8.Idx) : ∃ t : Fin cfg6.N, (cfg6.win 2).flush t = true ∧ i ∈ ((cfg6.win 2).blk t).view.set := by
  have hi0 : (i 0).val < 100000 := idx2_lt0 i
  have hi1 : (i 1).val < 8 := idx2_lt1 i
  obtain ⟨t, ht⟩ := idx_onto ⟨(i 0).val / 10000, by omega⟩
  have q0 : win6_2.index t (0 : Fin 2) = (i 0).val / 10000 := congrFun ht 0
  have q1 : win6_2.index t (1 : Fin 2) = 0 := congrFun ht 1
  refine ⟨t, flush6_2 t, ?_⟩
  rw [mem_blk]
  intro a
  match a with
  | ⟨0, _⟩ => show win6_2.index t (0 : Fin 2) * 10000 ≤ (i 0).val ∧ (i 0).val < win6_2.index t (0 : Fin 2) * 10000 + 10000; omega
  | ⟨1, _⟩ => show win6_2.index t (1 : Fin 2) * 8 ≤ (i 1).val ∧ (i 1).val < win6_2.index t (1 : Fin 2) * 8 + 8; omega

/-- The output array after the region's ten write-backs is the product of the two input arrays. -/
theorem value (c : Dev nD) : (dat6 V c).arrAt 2 cfg6.N = product (V c main_v79) (V c main_arg8) :=
  (dat6 V c).arrAt_eq_of_cover 2 (product (V c main_v79) (V c main_arg8)) (fun t _ => flushed_eq V c t) cover

end Cert.KernelIdeal.Dense8

end
-- ==== Proof.Bias64.lean ====
/-
  Layer 1's bias and positive part, computed by a region of ten row blocks: each grid point loads 10000 rows of the aggregated
  features (64 columns) and the one bias row, adds the bias to every row and takes the maximum with zero. After the ten
  write-backs the output array is that pointwise function of the two arrays the region found, whatever they are.
-/
import proofs.«111440_j76244259439066_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Bias64

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The body's stored value at row `p`, column `q` of the block: the loaded entry plus the bias row's entry in that
    column, then the maximum with zero (the two casts are to the same shape; the broadcast repeats the one bias row). -/
theorem payload_apply (x0 : Vec Ideal S10000x64 .f32) (x1 : Vec Ideal S1x64 .f32) (p : Fin 10000) (q : Fin 64) :
    k1_pay1 x0 x1 (ix2 p q) = max (x0 (ix2 p q) + x1 (ix2 (0 : Fin 1) q)) (Ideal.ofBits .f32 0x00000000#32) := by
  unfold k1_pay1
  show max (shapeCast S10000x64 x0 _ (ix2 p q) + broadcastTo S10000x64 (shapeCast S1x64 x1 _) _ (ix2 p q)) (Ideal.ofBits .f32 0x00000000#32) = _
  rw [shapeCast_self, shapeCast_self, broadcastTo_1b_ab_apply]

/-- The bias entry an index of the node array reads: row 0, the index's column. -/
abbrev biasIdx (i : S100000x64.Idx) : S1x64.Idx := ix2 (0 : Fin 1) (⟨(i 1).val, idx2_lt1 i⟩ : Fin 64)

/-- The region's output as one function of its two input arrays. -/
def rowsPlusBias (a : S100000x64.Idx → EReal) (b : S1x64.Idx → EReal) : S100000x64.Idx → EReal :=
  fun i => max (a i + b (biasIdx i)) (Ideal.ofBits .f32 0x00000000#32)

/-- The index maps over the ten grid points: input and output blocks move together down the rows, the bias block stays. -/
theorem idx_facts : ∀ t : Fin cfg1.N, win1_0.index t (0 : Fin 2) = win1_2.index t (0 : Fin 2)
    ∧ win1_0.index t (1 : Fin 2) = 0 ∧ win1_2.index t (1 : Fin 2) = 0
    ∧ win1_1.index t (0 : Fin 2) = 0 ∧ win1_1.index t (1 : Fin 2) = 0
    ∧ win1_2.index t (0 : Fin 2) ≤ 9 :=
  (by decide +kernel : ∀ t : Fin grid1.N, _)

/-- Every one of the ten row blocks is some point's output block. -/
theorem idx_onto : ∀ q0 : Fin 10, ∃ t : Fin cfg1.N, win1_2.index t = ![q0.val, 0] :=
  (by decide +kernel : ∀ q0 : Fin 10, ∃ t : Fin grid1.N, win1_2.index t = ![q0.val, 0])

/-- What point `t` writes back is block `t` of `rowsPlusBias` of the arrays as the region finds them: the input block is
    rows `10000 t … 10000 t + 9999` of the first array, the same rows the output block covers, and the bias block is
    the whole second array. -/
theorem flushed_eq (c : Dev nD) (t : Fin cfg1.N) :
    (dat1 V c).flushed 2 t = ((cfg1.win 2).blk t).view.read (Elt Ideal) (rowsPlusBias (V c main_v45) (V c main_v46)) := by
  show (cfg1.win 2).cut (grid1.coords t) ((dat1 V c).after 2 t) = _
  rw [after1_2]
  unfold out1_2
  rw [View.canon_unit_zero origin]
  simp only [View.ld_unit_zero (S := S10000x64) origin, View.ld_unit_zero (S := S1x64) origin]
  obtain ⟨e0, e1, e2, e3, e4, e5⟩ := idx_facts t
  funext j
  obtain ⟨p, q, rfl⟩ : ∃ (p : Fin 10000) (q : Fin 64), j = ix2 p q := ⟨j 0, j 1, eq_ix2 j⟩
  show k1_pay1 (iblk1 V c 0 t) (iblk1 V c 1 t) (ix2 p q) = rowsPlusBias (V c main_v45) (V c main_v46) (((cfg1.win 2).blk t).view.emb (ix2 p q))
  refine (payload_apply (iblk1 V c 0 t) (iblk1 V c 1 t) p q).trans ?_
  have h0 : ((cfg1.win 0).blk t).view.emb (ix2 p q) = ((cfg1.win 2).blk t).view.emb (ix2 p q) := by
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 64 + 1 * q.val = win1_2.index t (1 : Fin 2) * 64 + 1 * q.val; omega
  have h1 : ((cfg1.win 1).blk t).view.emb (ix2 (0 : Fin 1) q) = biasIdx (((cfg1.win 2).blk t).view.emb (ix2 p q)) := by
    funext a; apply Fin.ext
    match a with
    | ⟨0, _⟩ => show win1_1.index t (0 : Fin 2) * 1 + 1 * 0 = 0; omega
    | ⟨1, _⟩ => show win1_1.index t (1 : Fin 2) * 64 + 1 * q.val = win1_2.index t (1 : Fin 2) * 64 + 1 * q.val; omega
  exact congrArg₂ (fun (u v : EReal) => max (u + v) (Ideal.ofBits .f32 0x00000000#32))
    (congrArg (V c main_v45) h0) (congrArg (V c main_v46) h1)

/-- An index of the output array lies in point `t`'s block iff each coordinate lies in the block's range on its axis. -/
theorem mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v47).slice (win1_2.rect t)).set ↔ _
  rw [View.set_slice_whole, Rect.mem_set_unit]
  exact Iff.rfl

/-- The ten blocks cover the array: row `r` lies in the block of point `r / 10000`. -/
theorem cover (i : S100000x64.Idx) : ∃ t : Fin cfg1.N, (cfg1.win 2).flush t = true ∧ i ∈ ((cfg1.win 2).blk t).view.set := by
  have hi0 : (i 0).val < 100000 := idx2_lt0 i
  have hi1 : (i 1).val < 64 := idx2_lt1 i
  obtain ⟨t, ht⟩ := idx_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The output array after the region's ten write-backs is `rowsPlusBias` of the two input arrays. -/
theorem value (c : Dev nD) : (dat1 V c).arrAt 2 cfg1.N = rowsPlusBias (V c main_v45) (V c main_v46) :=
  (dat1 V c).arrAt_eq_of_cover 2 (rowsPlusBias (V c main_v45) (V c main_v46)) (fun t _ => flushed_eq V c t) cover

end Cert.KernelIdeal.Bias64

end
-- ==== Proof.Bias32.lean ====
/-
  Layer 2's bias and positive part, computed by a region of ten row blocks: each grid point loads 10000 rows of the aggregated
  features (32 columns) and the one bias row, adds the bias to every row and takes the maximum with zero. After the ten
  write-backs the output array is that pointwise function of the two arrays the region found, whatever they are.
-/
import proofs.«111440_j76244259439066_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Bias32

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The body's stored value at row `p`, column `q` of the block: the loaded entry plus the bias row's entry in that
    column, then the maximum with zero (the two casts are to the same shape; the broadcast repeats the one bias row). -/
theorem payload_apply (x0 : Vec Ideal S10000x32 .f32) (x1 : Vec Ideal S1x32 .f32) (p : Fin 10000) (q : Fin 32) :
    k3_pay1 x0 x1 (ix2 p q) = max (x0 (ix2 p q) + x1 (ix2 (0 : Fin 1) q)) (Ideal.ofBits .f32 0x00000000#32) := by
  unfold k3_pay1
  show max (shapeCast S10000x32 x0 _ (ix2 p q) + broadcastTo S10000x32 (shapeCast S1x32 x1 _) _ (ix2 p q)) (Ideal.ofBits .f32 0x00000000#32) = _
  rw [shapeCast_self, shapeCast_self, broadcastTo_1b_ab_apply]

/-- The bias entry an index of the node array reads: row 0, the index's column. -/
abbrev biasIdx (i : S100000x32.Idx) : S1x32.Idx := ix2 (0 : Fin 1) (⟨(i 1).val, idx2_lt1 i⟩ : Fin 32)

/-- The region's output as one function of its two input arrays. -/
def rowsPlusBias (a : S100000x32.Idx → EReal) (b : S1x32.Idx → EReal) : S100000x32.Idx → EReal :=
  fun i => max (a i + b (biasIdx i)) (Ideal.ofBits .f32 0x00000000#32)

/-- The index maps over the ten grid points: input and output blocks move together down the rows, the bias block stays. -/
theorem idx_facts : ∀ t : Fin cfg3.N, win3_0.index t (0 : Fin 2) = win3_2.index t (0 : Fin 2)
    ∧ win3_0.index t (1 : Fin 2) = 0 ∧ win3_2.index t (1 : Fin 2) = 0
    ∧ win3_1.index t (0 : Fin 2) = 0 ∧ win3_1.index t (1 : Fin 2) = 0
    ∧ win3_2.index t (0 : Fin 2) ≤ 9 :=
  (by decide +kernel : ∀ t : Fin grid3.N, _)

/-- Every one of the ten row blocks is some point's output block. -/
theorem idx_onto : ∀ q0 : Fin 10, ∃ t : Fin cfg3.N, win3_2.index t = ![q0.val, 0] :=
  (by decide +kernel : ∀ q0 : Fin 10, ∃ t : Fin grid3.N, win3_2.index t = ![q0.val, 0])

/-- What point `t` writes back is block `t` of `rowsPlusBias` of the arrays as the region finds them: the input block is
    rows `10000 t … 10000 t + 9999` of the first array, the same rows the output block covers, and the bias block is
    the whole second array. -/
theorem flushed_eq (c : Dev nD) (t : Fin cfg3.N) :
    (dat3 V c).flushed 2 t = ((cfg3.win 2).blk t).view.read (Elt Ideal) (rowsPlusBias (V c main_v61) (V c main_v62)) := by
  show (cfg3.win 2).cut (grid3.coords t) ((dat3 V c).after 2 t) = _
  rw [after3_2]
  unfold out3_2
  rw [View.canon_unit_zero origin]
  simp only [View.ld_unit_zero (S := S10000x32) origin, View.ld_unit_zero (S := S1x32) origin]
  obtain ⟨e0, e1, e2, e3, e4, e5⟩ := idx_facts t
  funext j
  obtain ⟨p, q, rfl⟩ : ∃ (p : Fin 10000) (q : Fin 32), j = ix2 p q := ⟨j 0, j 1, eq_ix2 j⟩
  show k3_pay1 (iblk3 V c 0 t) (iblk3 V c 1 t) (ix2 p q) = rowsPlusBias (V c main_v61) (V c main_v62) (((cfg3.win 2).blk t).view.emb (ix2 p q))
  refine (payload_apply (iblk3 V c 0 t) (iblk3 V c 1 t) p q).trans ?_
  have h0 : ((cfg3.win 0).blk t).view.emb (ix2 p q) = ((cfg3.win 2).blk t).view.emb (ix2 p q) := by
    funext a; apply Fin.ext
    match a with
    | ⟨0, _⟩ => show win3_0.index t (0 : Fin 2) * 10000 + 1 * p.val = win3_2.index t (0 : Fin 2) * 10000 + 1 * p.val; omega
    | ⟨1, _⟩ => show win3_0.index t (1 : Fin 2) * 32 + 1 * q.val = win3_2.index t (1 : Fin 2) * 32 + 1 * q.val; omega
  have h1 : ((cfg3.win 1).blk t).view.emb (ix2 (0 : Fin 1) q) = biasIdx (((cfg3.win 2).blk t).view.emb (ix2 p q)) := by
    funext a; apply Fin.ext
    match a with
    | ⟨0, _⟩ => show win3_1.index t (0 : Fin 2) * 1 + 1 * 0 = 0; omega
    | ⟨1, _⟩ => show win3_1.index t (1 : Fin 2) * 32 + 1 * q.val = win3_2.index t (1 : Fin 2) * 32 + 1 * q.val; omega
  exact congrArg₂ (fun (u v : EReal) => max (u + v) (Ideal.ofBits .f32 0x00000000#32))
    (congrArg (V c main_v61) h0) (congrArg (V c main_v62) h1)

/-- An index of the output array lies in point `t`'s block iff each coordinate lies in the block's range on its axis. -/
theorem mem_blk (t : Fin cfg3.N) (i : S100000x32.Idx) :
    i ∈ ((cfg3.win 2).blk t).view.set ↔ ∀ a : Fin 2, win3_2.index t a * S10000x32.size a ≤ (i a).val ∧ (i a).val < win3_2.index t a * S10000x32.size a + S10000x32.size a := by
  show i ∈ ((View.whole main_v63).slice (win3_2.rect t)).set ↔ _
  rw [View.set_slice_whole, Rect.mem_set_unit]
  exact Iff.rfl

/-- The ten blocks cover the array: row `r` lies in the block of point `r / 10000`. -/
theorem cover (i : S100000x32.Idx) : ∃ t : Fin cfg3.N, (cfg3.win 2).flush t = true ∧ i ∈ ((cfg3.win 2).blk t).view.set := by
  have hi0 : (i 0).val < 100000 := idx2_lt0 i
  have hi1 : (i 1).val < 32 := idx2_lt1 i
  obtain ⟨t, ht⟩ := idx_onto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 32 ≤ (i 1).val ∧ (i 1).val < win3_2.index t (1 : Fin 2) * 32 + 32; omega

/-- The output array after the region's ten write-backs is `rowsPlusBias` of the two input arrays. -/
theorem value (c : Dev nD) : (dat3 V c).arrAt 2 cfg3.N = rowsPlusBias (V c main_v61) (V c main_v62) :=
  (dat3 V c).arrAt_eq_of_cover 2 (rowsPlusBias (V c main_v61) (V c main_v62)) (fun t _ => flushed_eq V c t) cover

end Cert.KernelIdeal.Bias32

end
-- ==== Proof.Bias16.lean ====
/-
  Layer 3's bias and positive part, computed by a region of ten row blocks: each grid point loads 10000 rows of the aggregated
  features (16 columns) and the one bias row, adds the bias to every row and takes the maximum with zero. After the ten
  write-backs the output array is that pointwise function of the two arrays the region found, whatever they are.
-/
import proofs.«111440_j76244259439066_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Bias16

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The body's stored value at row `p`, column `q` of the block: the loaded entry plus the bias row's entry in that
    column, then the maximum with zero (the two casts are to the same shape; the broadcast repeats the one bias row). -/
theorem payload_apply (x0 : Vec Ideal S10000x16 .f32) (x1 : Vec Ideal S1x16 .f32) (p : Fin 10000) (q : Fin 16) :
    k5_pay1 x0 x1 (ix2 p q) = max (x0 (ix2 p q) + x1 (ix2 (0 : Fin 1) q)) (Ideal.ofBits .f32 0x00000000#32) := by
  unfold k5_pay1
  show max (shapeCast S10000x16 x0 _ (ix2 p q) + broadcastTo S10000x16 (shapeCast S1x16 x1 _) _ (ix2 p q)) (Ideal.ofBits .f32 0x00000000#32) = _
  rw [shapeCast_self, shapeCast_self, broadcastTo_1b_ab_apply]

/-- The bias entry an index of the node array reads: row 0, the index's column. -/
abbrev biasIdx (i : S100000x16.Idx) : S1x16.Idx := ix2 (0 : Fin 1) (⟨(i 1).val, idx2_lt1 i⟩ : Fin 16)

/-- The region's output as one function of its two input arrays. -/
def rowsPlusBias (a : S100000x16.Idx → EReal) (b : S1x16.Idx → EReal) : S100000x16.Idx → EReal :=
  fun i => max (a i + b (biasIdx i)) (Ideal.ofBits .f32 0x00000000#32)

/-- The index maps over the ten grid points: input and output blocks move together down the rows, the bias block stays. -/
theorem idx_facts : ∀ t : Fin cfg5.N, win5_0.index t (0 : Fin 2) = win5_2.index t (0 : Fin 2)
    ∧ win5_0.index t (1 : Fin 2) = 0 ∧ win5_2.index t (1 : Fin 2) = 0
    ∧ win5_1.index t (0 : Fin 2) = 0 ∧ win5_1.index t (1 : Fin 2) = 0
    ∧ win5_2.index t (0 : Fin 2) ≤ 9 :=
  (by decide +kernel : ∀ t : Fin grid5.N, _)

/-- Every one of the ten row blocks is some point's output block. -/
theorem idx_onto : ∀ q0 : Fin 10, ∃ t : Fin cfg5.N, win5_2.index t = ![q0.val, 0] :=
  (by decide +kernel : ∀ q0 : Fin 10, ∃ t : Fin grid5.N, win5_2.index t = ![q0.val, 0])

/-- What point `t` writes back is block `t` of `rowsPlusBias` of the arrays as the region finds them: the input block is
    rows `10000 t … 10000 t + 9999` of the first array, the same rows the output block covers, and the bias block is
    the whole second array. -/
theorem flushed_eq (c : Dev nD) (t : Fin cfg5.N) :
    (dat5 V c).flushed 2 t = ((cfg5.win 2).blk t).view.read (Elt Ideal) (rowsPlusBias (V c main_v77) (V c main_v78)) := by
  show (cfg5.win 2).cut (grid5.coords t) ((dat5 V c).after 2 t) = _
  rw [after5_2]
  unfold out5_2
  rw [View.canon_unit_zero origin]
  simp only [View.ld_unit_zero (S := S10000x16) origin, View.ld_unit_zero (S := S1x16) origin]
  obtain ⟨e0, e1, e2, e3, e4, e5⟩ := idx_facts t
  funext j
  obtain ⟨p, q, rfl⟩ : ∃ (p : Fin 10000) (q : Fin 16), j = ix2 p q := ⟨j 0, j 1, eq_ix2 j⟩
  show k5_pay1 (iblk5 V c 0 t) (iblk5 V c 1 t) (ix2 p q) = rowsPlusBias (V c main_v77) (V c main_v78) (((cfg5.win 2).blk t).view.emb (ix2 p q))
  refine (payload_apply (iblk5 V c 0 t) (iblk5 V c 1 t) p q).trans ?_
  have h0 : ((cfg5.win 0).blk t).view.emb (ix2 p q) = ((cfg5.win 2).blk t).view.emb (ix2 p q) := by
    funext a; apply Fin.ext
    match a with
    | ⟨0, _⟩ => show win5_0.index t (0 : Fin 2) * 10000 + 1 * p.val = win5_2.index t (0 : Fin 2) * 10000 + 1 * p.val; omega
    | ⟨1, _⟩ => show win5_0.index t (1 : Fin 2) * 16 + 1 * q.val = win5_2.index t (1 : Fin 2) * 16 + 1 * q.val; omega
  have h1 : ((cfg5.win 1).blk t).view.emb (ix2 (0 : Fin 1) q) = biasIdx (((cfg5.win 2).blk t).view.emb (ix2 p q)) := by
    funext a; apply Fin.ext
    match a with
    | ⟨0, _⟩ => show win5_1.index t (0 : Fin 2) * 1 + 1 * 0 = 0; omega
    | ⟨1, _⟩ => show win5_1.index t (1 : Fin 2) * 16 + 1 * q.val = win5_2.index t (1 : Fin 2) * 16 + 1 * q.val; omega
  exact congrArg₂ (fun (u v : EReal) => max (u + v) (Ideal.ofBits .f32 0x00000000#32))
    (congrArg (V c main_v77) h0) (congrArg (V c main_v78) h1)

/-- An index of the output array lies in point `t`'s block iff each coordinate lies in the block's range on its axis. -/
theorem mem_blk (t : Fin cfg5.N) (i : S100000x16.Idx) :
    i ∈ ((cfg5.win 2).blk t).view.set ↔ ∀ a : Fin 2, win5_2.index t a * S10000x16.size a ≤ (i a).val ∧ (i a).val < win5_2.index t a * S10000x16.size a + S10000x16.size a := by
  show i ∈ ((View.whole main_v79).slice (win5_2.rect t)).set ↔ _
  rw [View.set_slice_whole, Rect.mem_set_unit]
  exact Iff.rfl

/-- The ten blocks cover the array: row `r` lies in the block of point `r / 10000`. -/
theorem cover (i : S100000x16.Idx) : ∃ t : Fin cfg5.N, (cfg5.win 2).flush t = true ∧ i ∈ ((cfg5.win 2).blk t).view.set := by
  have hi0 : (i 0).val < 100000 := idx2_lt0 i
  have hi1 : (i 1).val < 16 := idx2_lt1 i
  obtain ⟨t, ht⟩ := idx_onto ⟨(i 0).val / 10000, by omega⟩
  have q0 : win5_2.index t (0 : Fin 2) = (i 0).val / 10000 := congrFun ht 0
  have q1 : win5_2.index t (1 : Fin 2) = 0 := congrFun ht 1
  refine ⟨t, flush5_2 t, ?_⟩
  rw [mem_blk]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 16 ≤ (i 1).val ∧ (i 1).val < win5_2.index t (1 : Fin 2) * 16 + 16; omega

/-- The output array after the region's ten write-backs is `rowsPlusBias` of the two input arrays. -/
theorem value (c : Dev nD) : (dat5 V c).arrAt 2 cfg5.N = rowsPlusBias (V c main_v77) (V c main_v78) :=
  (dat5 V c).arrAt_eq_of_cover 2 (rowsPlusBias (V c main_v77) (V c main_v78)) (fun t _ => flushed_eq V c t) cover

end Cert.KernelIdeal.Bias16

end
-- ==== Proof.Bias8.lean ====
/-
  Layer 4's bias, computed by a region of ten row blocks: each grid point loads 10000 rows of the aggregated
  features (8 columns) and the one bias row, adds the bias to every row. After the ten
  write-backs the output array is that pointwise function of the two arrays the region found, whatever they are.
-/
import proofs.«111440_j76244259439066_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Bias8

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The body's stored value at row `p`, column `q` of the block: the loaded entry plus the bias row's entry in that
    column (the two casts are to the same shape; the broadcast repeats the one bias row). -/
theorem payload_apply (x0 : Vec Ideal S10000x8 .f32) (x1 : Vec Ideal S1x8 .f32) (p : Fin 10000) (q : Fin 8) :
    k7_pay1 x0 x1 (ix2 p q) = x0 (ix2 p q) + x1 (ix2 (0 : Fin 1) q) := by
  unfold k7_pay1
  show shapeCast S10000x8 x0 _ (ix2 p q) + broadcastTo S10000x8 (shapeCast S1x8 x1 _) _ (ix2 p q) = _
  rw [shapeCast_self, shapeCast_self, broadcastTo_1b_ab_apply]

/-- The bias entry an index of the node array reads: row 0, the index's column. -/
abbrev biasIdx (i : S100000x8.Idx) : S1x8.Idx := ix2 (0 : Fin 1) (⟨(i 1).val, idx2_lt1 i⟩ : Fin 8)

/-- The region's output as one function of its two input arrays. -/
def rowsPlusBias (a : S100000x8.Idx → EReal) (b : S1x8.Idx → EReal) : S100000x8.Idx → EReal :=
  fun i => a i + b (biasIdx i)

/-- The index maps over the ten grid points: input and output blocks move together down the rows, the bias block stays. -/
theorem idx_facts : ∀ t : Fin cfg7.N, win7_0.index t (0 : Fin 2) = win7_2.index t (0 : Fin 2)
    ∧ win7_0.index t (1 : Fin 2) = 0 ∧ win7_2.index t (1 : Fin 2) = 0
    ∧ win7_1.index t (0 : Fin 2) = 0 ∧ win7_1.index t (1 : Fin 2) = 0
    ∧ win7_2.index t (0 : Fin 2) ≤ 9 :=
  (by decide +kernel : ∀ t : Fin grid7.N, _)

/-- Every one of the ten row blocks is some point's output block. -/
theorem idx_onto : ∀ q0 : Fin 10, ∃ t : Fin cfg7.N, win7_2.index t = ![q0.val, 0] :=
  (by decide +kernel : ∀ q0 : Fin 10, ∃ t : Fin grid7.N, win7_2.index t = ![q0.val, 0])

/-- What point `t` writes back is block `t` of `rowsPlusBias` of the arrays as the region finds them: the input block is
    rows `10000 t … 10000 t + 9999` of the first array, the same rows the output block covers, and the bias block is
    the whole second array. -/
theorem flushed_eq (c : Dev nD) (t : Fin cfg7.N) :
    (dat7 V c).flushed 2 t = ((cfg7.win 2).blk t).view.read (Elt Ideal) (rowsPlusBias (V c main_v93) (V c main_v94)) := by
  show (cfg7.win 2).cut (grid7.coords t) ((dat7 V c).after 2 t) = _
  rw [after7_2]
  unfold out7_2
  rw [View.canon_unit_zero origin]
  simp only [View.ld_unit_zero (S := S10000x8) origin, View.ld_unit_zero (S := S1x8) origin]
  obtain ⟨e0, e1, e2, e3, e4, e5⟩ := idx_facts t
  funext j
  obtain ⟨p, q, rfl⟩ : ∃ (p : Fin 10000) (q : Fin 8), j = ix2 p q := ⟨j 0, j 1, eq_ix2 j⟩
  show k7_pay1 (iblk7 V c 0 t) (iblk7 V c 1 t) (ix2 p q) = rowsPlusBias (V c main_v93) (V c main_v94) (((cfg7.win 2).blk t).view.emb (ix2 p q))
  refine (payload_apply (iblk7 V c 0 t) (iblk7 V c 1 t) p q).trans ?_
  have h0 : ((cfg7.win 0).blk t).view.emb (ix2 p q) = ((cfg7.win 2).blk t).view.emb (ix2 p q) := by
    funext a; apply Fin.ext
    match a with
    | ⟨0, _⟩ => show win7_0.index t (0 : Fin 2) * 10000 + 1 * p.val = win7_2.index t (0 : Fin 2) * 10000 + 1 * p.val; omega
    | ⟨1, _⟩ => show win7_0.index t (1 : Fin 2) * 8 + 1 * q.val = win7_2.index t (1 : Fin 2) * 8 + 1 * q.val; omega
  have h1 : ((cfg7.win 1).blk t).view.emb (ix2 (0 : Fin 1) q) = biasIdx (((cfg7.win 2).blk t).view.emb (ix2 p q)) := by
    funext a; apply Fin.ext
    match a with
    | ⟨0, _⟩ => show win7_1.index t (0 : Fin 2) * 1 + 1 * 0 = 0; omega
    | ⟨1, _⟩ => show win7_1.index t (1 : Fin 2) * 8 + 1 * q.val = win7_2.index t (1 : Fin 2) * 8 + 1 * q.val; omega
  exact congrArg₂ (fun (u v : EReal) => u + v)
    (congrArg (V c main_v93) h0) (congrArg (V c main_v94) h1)

/-- An index of the output array lies in point `t`'s block iff each coordinate lies in the block's range on its axis. -/
theorem mem_blk (t : Fin cfg7.N) (i : S100000x8.Idx) :
    i ∈ ((cfg7.win 2).blk t).view.set ↔ ∀ a : Fin 2, win7_2.index t a * S10000x8.size a ≤ (i a).val ∧ (i a).val < win7_2.index t a * S10000x8.size a + S10000x8.size a := by
  show i ∈ ((View.whole main_v95).slice (win7_2.rect t)).set ↔ _
  rw [View.set_slice_whole, Rect.mem_set_unit]
  exact Iff.rfl

/-- The ten blocks cover the array: row `r` lies in the block of point `r / 10000`. -/
theorem cover (i : S100000x8.Idx) : ∃ t : Fin cfg7.N, (cfg7.win 2).flush t = true ∧ i ∈ ((cfg7.win 2).blk t).view.set := by
  have hi0 : (i 0).val < 100000 := idx2_lt0 i
  have hi1 : (i 1).val < 8 := idx2_lt1 i
  obtain ⟨t, ht⟩ := idx_onto ⟨(i 0).val / 10000, by omega⟩
  have q0 : win7_2.index t (0 : Fin 2) = (i 0).val / 10000 := congrFun ht 0
  have q1 : win7_2.index t (1 : Fin 2) = 0 := congrFun ht 1
  refine ⟨t, flush7_2 t, ?_⟩
  rw [mem_blk]
  intro a
  match a with
  | ⟨0, _⟩ => show win7_2.index t (0 : Fin 2) * 10000 ≤ (i 0).val ∧ (i 0).val < win7_2.index t (0 : Fin 2) * 10000 + 10000; omega
  | ⟨1, _⟩ => show win7_2.index t (1 : Fin 2) * 8 ≤ (i 1).val ∧ (i 1).val < win7_2.index t (1 : Fin 2) * 8 + 8; omega

/-- The output array after the region's ten write-backs is `rowsPlusBias` of the two input arrays. -/
theorem value (c : Dev nD) : (dat7 V c).arrAt 2 cfg7.N = rowsPlusBias (V c main_v93) (V c main_v94) :=
  (dat7 V c).arrAt_eq_of_cover 2 (rowsPlusBias (V c main_v93) (V c main_v94)) (fun t _ => flushed_eq V c t) cover

end Cert.KernelIdeal.Bias8

end
-- ==== Proof.GcnLaws.lean ====
/-
  The two laws that join the program's regions to the host operations of the reference, at the ideal instance.

  (1) A region's block product — ten blocks of 10000 rows, each the block's rows times the whole weight matrix,
      accumulated from zero — and the host's dot_general are the same sum over the contracted axis, entry by entry.
      No finiteness is needed: it is one sum on both sides, term for term.
  (2) The region's bias row broadcast down the block, added (and the maximum with zero), and the host's bias vector
      broadcast to one row and then to every row, added (and the maximum with zero), read the same bias entry: the
      column of the output entry. The program reshapes the bias vector to one row where the reference broadcasts it.
-/
import proofs.«111440_j76244259439066_1_alg».proof.Proof.Gcn
import proofs.«111440_j76244259439066_1_alg».proof.Proof.Dense64
import proofs.«111440_j76244259439066_1_alg».proof.Proof.Dense32
import proofs.«111440_j76244259439066_1_alg».proof.Proof.Dense16
import proofs.«111440_j76244259439066_1_alg».proof.Proof.Dense8
import proofs.«111440_j76244259439066_1_alg».proof.Proof.Bias64
import proofs.«111440_j76244259439066_1_alg».proof.Proof.Bias32
import proofs.«111440_j76244259439066_1_alg».proof.Proof.Bias16
import proofs.«111440_j76244259439066_1_alg».proof.Proof.Bias8
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.GcnLaws

open Cert.ReferenceIdeal Cert.ReferenceIdeal.Gen Idealize.ShloMosaic
open Idealize.ShloMosaic.ValueIdx

/-! ## Width 64 -/

namespace Dense64

theorem lhs_row (j : S100000x64.Idx) (r : dot_S100000x11_S11x64_S100000x64_1_0_0_1_n_n.contr.Idx) : (dot_S100000x11_S11x64_S100000x64_1_0_0_1_n_n.lhsIdx j r 0).val = (j 0).val := by
  unfold DotDims.lhsIdx
  rw [dif_neg (show ¬(0 : Fin S100000x11.rank) ∈ dot_S100000x11_S11x64_S100000x64_1_0_0_1_n_n.lhsBatch by decide), dif_pos (show (0 : Fin S100000x11.rank) ∈ dot_S100000x11_S11x64_S100000x64_1_0_0_1_n_n.lhsNonContracting by decide)]
  rfl
theorem lhs_col (j : S100000x64.Idx) (r : dot_S100000x11_S11x64_S100000x64_1_0_0_1_n_n.contr.Idx) : (dot_S100000x11_S11x64_S100000x64_1_0_0_1_n_n.lhsIdx j r 1).val = (r ⟨0, by decide⟩).val :=
  dot_S100000x11_S11x64_S100000x64_1_0_0_1_n_n.lhsIdx_val_of_single rfl j r
theorem rhs_row (j : S100000x64.Idx) (r : dot_S100000x11_S11x64_S100000x64_1_0_0_1_n_n.contr.Idx) : (dot_S100000x11_S11x64_S100000x64_1_0_0_1_n_n.rhsIdx j r 0).val = (r ⟨0, by decide⟩).val :=
  dot_S100000x11_S11x64_S100000x64_1_0_0_1_n_n.rhsIdx_val_of_single rfl j r
theorem rhs_col (j : S100000x64.Idx) (r : dot_S100000x11_S11x64_S100000x64_1_0_0_1_n_n.contr.Idx) : (dot_S100000x11_S11x64_S100000x64_1_0_0_1_n_n.rhsIdx j r 1).val = (j 1).val := by
  unfold DotDims.rhsIdx
  rw [dif_neg (show ¬(1 : Fin S11x64.rank) ∈ dot_S100000x11_S11x64_S100000x64_1_0_0_1_n_n.rhsBatch by decide), dif_pos (show (1 : Fin S11x64.rank) ∈ dot_S100000x11_S11x64_S100000x64_1_0_0_1_n_n.rhsNonContracting by decide)]
  rfl

/-- The host's dot_general over the one contracted axis is, entry by entry, the sum over `k` of the features' entry
    `(i 0, k)` times the weights' entry `(k, i 1)`: the function the region of ten row blocks leaves. -/
theorem dense_eq (h : (⟨S100000x11, .f32⟩ : BufTy).Contents (Elt Ideal)) (w : (⟨S11x64, .f32⟩ : BufTy).Contents (Elt Ideal)) :
    Cert.Gcn.dense64 (F := Ideal) h w = Cert.KernelIdeal.Dense64.product h w := by
  funext i
  unfold Cert.Gcn.dense64 Cert.KernelIdeal.Dense64.product
  simp only [Host.dotGeneral]
  rw [Ideal.dotGeneral_apply, ← Equiv.sum_comp (ValueIdx.contrEquiv1 dot_S100000x11_S11x64_S100000x64_1_0_0_1_n_n 11 rfl rfl).symm]
  refine Finset.sum_congr rfl fun k _ => ?_
  have hk := ValueIdx.contrEquiv1_symm_val dot_S100000x11_S11x64_S100000x64_1_0_0_1_n_n 11 rfl rfl k
  have el : dot_S100000x11_S11x64_S100000x64_1_0_0_1_n_n.lhsIdx i ((ValueIdx.contrEquiv1 dot_S100000x11_S11x64_S100000x64_1_0_0_1_n_n 11 rfl rfl).symm k) = Cert.KernelIdeal.Dense64.lrow i k := funext fun a => Fin.ext (by
    match a with
    | ⟨0, _⟩ => exact lhs_row _ _
    | ⟨1, _⟩ => exact (lhs_col _ _).trans hk)
  have er : dot_S100000x11_S11x64_S100000x64_1_0_0_1_n_n.rhsIdx i ((ValueIdx.contrEquiv1 dot_S100000x11_S11x64_S100000x64_1_0_0_1_n_n 11 rfl rfl).symm k) = Cert.KernelIdeal.Dense64.rcol i k := funext fun a => Fin.ext (by
    match a with
    | ⟨0, _⟩ => exact (rhs_row _ _).trans hk
    | ⟨1, _⟩ => exact rhs_col _ _)
  rw [el, er]

end Dense64

namespace Bias64

/-- The bias vector's entry an index of the node array reads: its column. -/
abbrev col (i : S100000x64.Idx) : S64.Idx := ix1 (⟨(i 1).val, idx2_lt1 i⟩ : Fin 64)

/-- The bias broadcast to every row, added, and the maximum with zero taken, entry by entry, is the function the region of ten
    row blocks leaves of the aggregated features and of the bias reshaped to one row: both read the bias at the entry's column. -/
theorem activated_eq (a : (⟨S100000x64, .f32⟩ : BufTy).Contents (Elt Ideal)) (b : (⟨S64, .f32⟩ : BufTy).Contents (Elt Ideal)) (hc : S64.ShapeCasts S1x64) :
    Cert.Gcn.activated64 (F := Ideal) a b = Cert.KernelIdeal.Bias64.rowsPlusBias a (shapeCast S1x64 b hc) := by
  funext i
  have e1 : broadcastInDim S100000x64 ![0, 1] bcast_S1x64_S100000x64_0_1 (broadcastInDim S1x64 ![1] bcast_S64_S1x64_1 b) i
      = broadcastInDim S1x64 ![1] bcast_S64_S1x64_1 b (Cert.KernelIdeal.Bias64.biasIdx i) :=
    broadcastInDim_apply _ _ _ i (Cert.KernelIdeal.Bias64.biasIdx i) (fun ax => by match ax with | ⟨0, _⟩ => rfl | ⟨1, _⟩ => rfl)
  have e2 : broadcastInDim S1x64 ![1] bcast_S64_S1x64_1 b (Cert.KernelIdeal.Bias64.biasIdx i) = b (col i) :=
    broadcastInDim_apply _ _ _ (Cert.KernelIdeal.Bias64.biasIdx i) (col i) (fun ax => by match ax with | ⟨0, _⟩ => rfl)
  have e3 : shapeCast S1x64 b hc (Cert.KernelIdeal.Bias64.biasIdx i) = b (col i) :=
    (shapeCast_addUnit_apply ![64] b hc (Cert.KernelIdeal.Bias64.biasIdx i)).trans (congrArg b (funext fun ax => by match ax with | ⟨0, _⟩ => rfl))
  show max (a i + broadcastInDim S100000x64 ![0, 1] bcast_S1x64_S100000x64_0_1 (broadcastInDim S1x64 ![1] bcast_S64_S1x64_1 b) i) (Ideal.ofBits .f32 0x00000000#32)
      = max (a i + shapeCast S1x64 b hc (Cert.KernelIdeal.Bias64.biasIdx i)) (Ideal.ofBits .f32 0x00000000#32)
  rw [e1, e2, e3]

end Bias64

/-! ## Width 32 -/

namespace Dense32

theorem lhs_row (j : S100000x32.Idx) (r : dot_S100000x64_S64x32_S100000x32_1_0_0_1_n_n.contr.Idx) : (dot_S100000x64_S64x32_S100000x32_1_0_0_1_n_n.lhsIdx j r 0).val = (j 0).val := by
  unfold DotDims.lhsIdx
  rw [dif_neg (show ¬(0 : Fin S100000x64.rank) ∈ dot_S100000x64_S64x32_S100000x32_1_0_0_1_n_n.lhsBatch by decide), dif_pos (show (0 : Fin S100000x64.rank) ∈ dot_S100000x64_S64x32_S100000x32_1_0_0_1_n_n.lhsNonContracting by decide)]
  rfl
theorem lhs_col (j : S100000x32.Idx) (r : dot_S100000x64_S64x32_S100000x32_1_0_0_1_n_n.contr.Idx) : (dot_S100000x64_S64x32_S100000x32_1_0_0_1_n_n.lhsIdx j r 1).val = (r ⟨0, by decide⟩).val :=
  dot_S100000x64_S64x32_S100000x32_1_0_0_1_n_n.lhsIdx_val_of_single rfl j r
theorem rhs_row (j : S100000x32.Idx) (r : dot_S100000x64_S64x32_S100000x32_1_0_0_1_n_n.contr.Idx) : (dot_S100000x64_S64x32_S100000x32_1_0_0_1_n_n.rhsIdx j r 0).val = (r ⟨0, by decide⟩).val :=
  dot_S100000x64_S64x32_S100000x32_1_0_0_1_n_n.rhsIdx_val_of_single rfl j r
theorem rhs_col (j : S100000x32.Idx) (r : dot_S100000x64_S64x32_S100000x32_1_0_0_1_n_n.contr.Idx) : (dot_S100000x64_S64x32_S100000x32_1_0_0_1_n_n.rhsIdx j r 1).val = (j 1).val := by
  unfold DotDims.rhsIdx
  rw [dif_neg (show ¬(1 : Fin S64x32.rank) ∈ dot_S100000x64_S64x32_S100000x32_1_0_0_1_n_n.rhsBatch by decide), dif_pos (show (1 : Fin S64x32.rank) ∈ dot_S100000x64_S64x32_S100000x32_1_0_0_1_n_n.rhsNonContracting by decide)]
  rfl

/-- The host's dot_general over the one contracted axis is, entry by entry, the sum over `k` of the features' entry
    `(i 0, k)` times the weights' entry `(k, i 1)`: the function the region of ten row blocks leaves. -/
theorem dense_eq (h : (⟨S100000x64, .f32⟩ : BufTy).Contents (Elt Ideal)) (w : (⟨S64x32, .f32⟩ : BufTy).Contents (Elt Ideal)) :
    Cert.Gcn.dense32 (F := Ideal) h w = Cert.KernelIdeal.Dense32.product h w := by
  funext i
  unfold Cert.Gcn.dense32 Cert.KernelIdeal.Dense32.product
  simp only [Host.dotGeneral]
  rw [Ideal.dotGeneral_apply, ← Equiv.sum_comp (ValueIdx.contrEquiv1 dot_S100000x64_S64x32_S100000x32_1_0_0_1_n_n 64 rfl rfl).symm]
  refine Finset.sum_congr rfl fun k _ => ?_
  have hk := ValueIdx.contrEquiv1_symm_val dot_S100000x64_S64x32_S100000x32_1_0_0_1_n_n 64 rfl rfl k
  have el : dot_S100000x64_S64x32_S100000x32_1_0_0_1_n_n.lhsIdx i ((ValueIdx.contrEquiv1 dot_S100000x64_S64x32_S100000x32_1_0_0_1_n_n 64 rfl rfl).symm k) = Cert.KernelIdeal.Dense32.lrow i k := funext fun a => Fin.ext (by
    match a with
    | ⟨0, _⟩ => exact lhs_row _ _
    | ⟨1, _⟩ => exact (lhs_col _ _).trans hk)
  have er : dot_S100000x64_S64x32_S100000x32_1_0_0_1_n_n.rhsIdx i ((ValueIdx.contrEquiv1 dot_S100000x64_S64x32_S100000x32_1_0_0_1_n_n 64 rfl rfl).symm k) = Cert.KernelIdeal.Dense32.rcol i k := funext fun a => Fin.ext (by
    match a with
    | ⟨0, _⟩ => exact (rhs_row _ _).trans hk
    | ⟨1, _⟩ => exact rhs_col _ _)
  rw [el, er]

end Dense32

namespace Bias32

/-- The bias vector's entry an index of the node array reads: its column. -/
abbrev col (i : S100000x32.Idx) : S32.Idx := ix1 (⟨(i 1).val, idx2_lt1 i⟩ : Fin 32)

/-- The bias broadcast to every row, added, and the maximum with zero taken, entry by entry, is the function the region of ten
    row blocks leaves of the aggregated features and of the bias reshaped to one row: both read the bias at the entry's column. -/
theorem activated_eq (a : (⟨S100000x32, .f32⟩ : BufTy).Contents (Elt Ideal)) (b : (⟨S32, .f32⟩ : BufTy).Contents (Elt Ideal)) (hc : S32.ShapeCasts S1x32) :
    Cert.Gcn.activated32 (F := Ideal) a b = Cert.KernelIdeal.Bias32.rowsPlusBias a (shapeCast S1x32 b hc) := by
  funext i
  have e1 : broadcastInDim S100000x32 ![0, 1] bcast_S1x32_S100000x32_0_1 (broadcastInDim S1x32 ![1] bcast_S32_S1x32_1 b) i
      = broadcastInDim S1x32 ![1] bcast_S32_S1x32_1 b (Cert.KernelIdeal.Bias32.biasIdx i) :=
    broadcastInDim_apply _ _ _ i (Cert.KernelIdeal.Bias32.biasIdx i) (fun ax => by match ax with | ⟨0, _⟩ => rfl | ⟨1, _⟩ => rfl)
  have e2 : broadcastInDim S1x32 ![1] bcast_S32_S1x32_1 b (Cert.KernelIdeal.Bias32.biasIdx i) = b (col i) :=
    broadcastInDim_apply _ _ _ (Cert.KernelIdeal.Bias32.biasIdx i) (col i) (fun ax => by match ax with | ⟨0, _⟩ => rfl)
  have e3 : shapeCast S1x32 b hc (Cert.KernelIdeal.Bias32.biasIdx i) = b (col i) :=
    (shapeCast_addUnit_apply ![32] b hc (Cert.KernelIdeal.Bias32.biasIdx i)).trans (congrArg b (funext fun ax => by match ax with | ⟨0, _⟩ => rfl))
  show max (a i + broadcastInDim S100000x32 ![0, 1] bcast_S1x32_S100000x32_0_1 (broadcastInDim S1x32 ![1] bcast_S32_S1x32_1 b) i) (Ideal.ofBits .f32 0x00000000#32)
      = max (a i + shapeCast S1x32 b hc (Cert.KernelIdeal.Bias32.biasIdx i)) (Ideal.ofBits .f32 0x00000000#32)
  rw [e1, e2, e3]

end Bias32

/-! ## Width 16 -/

namespace Dense16

theorem lhs_row (j : S100000x16.Idx) (r : dot_S100000x32_S32x16_S100000x16_1_0_0_1_n_n.contr.Idx) : (dot_S100000x32_S32x16_S100000x16_1_0_0_1_n_n.lhsIdx j r 0).val = (j 0).val := by
  unfold DotDims.lhsIdx
  rw [dif_neg (show ¬(0 : Fin S100000x32.rank) ∈ dot_S100000x32_S32x16_S100000x16_1_0_0_1_n_n.lhsBatch by decide), dif_pos (show (0 : Fin S100000x32.rank) ∈ dot_S100000x32_S32x16_S100000x16_1_0_0_1_n_n.lhsNonContracting by decide)]
  rfl
theorem lhs_col (j : S100000x16.Idx) (r : dot_S100000x32_S32x16_S100000x16_1_0_0_1_n_n.contr.Idx) : (dot_S100000x32_S32x16_S100000x16_1_0_0_1_n_n.lhsIdx j r 1).val = (r ⟨0, by decide⟩).val :=
  dot_S100000x32_S32x16_S100000x16_1_0_0_1_n_n.lhsIdx_val_of_single rfl j r
theorem rhs_row (j : S100000x16.Idx) (r : dot_S100000x32_S32x16_S100000x16_1_0_0_1_n_n.contr.Idx) : (dot_S100000x32_S32x16_S100000x16_1_0_0_1_n_n.rhsIdx j r 0).val = (r ⟨0, by decide⟩).val :=
  dot_S100000x32_S32x16_S100000x16_1_0_0_1_n_n.rhsIdx_val_of_single rfl j r
theorem rhs_col (j : S100000x16.Idx) (r : dot_S100000x32_S32x16_S100000x16_1_0_0_1_n_n.contr.Idx) : (dot_S100000x32_S32x16_S100000x16_1_0_0_1_n_n.rhsIdx j r 1).val = (j 1).val := by
  unfold DotDims.rhsIdx
  rw [dif_neg (show ¬(1 : Fin S32x16.rank) ∈ dot_S100000x32_S32x16_S100000x16_1_0_0_1_n_n.rhsBatch by decide), dif_pos (show (1 : Fin S32x16.rank) ∈ dot_S100000x32_S32x16_S100000x16_1_0_0_1_n_n.rhsNonContracting by decide)]
  rfl

/-- The host's dot_general over the one contracted axis is, entry by entry, the sum over `k` of the features' entry
    `(i 0, k)` times the weights' entry `(k, i 1)`: the function the region of ten row blocks leaves. -/
theorem dense_eq (h : (⟨S100000x32, .f32⟩ : BufTy).Contents (Elt Ideal)) (w : (⟨S32x16, .f32⟩ : BufTy).Contents (Elt Ideal)) :
    Cert.Gcn.dense16 (F := Ideal) h w = Cert.KernelIdeal.Dense16.product h w := by
  funext i
  unfold Cert.Gcn.dense16 Cert.KernelIdeal.Dense16.product
  simp only [Host.dotGeneral]
  rw [Ideal.dotGeneral_apply, ← Equiv.sum_comp (ValueIdx.contrEquiv1 dot_S100000x32_S32x16_S100000x16_1_0_0_1_n_n 32 rfl rfl).symm]
  refine Finset.sum_congr rfl fun k _ => ?_
  have hk := ValueIdx.contrEquiv1_symm_val dot_S100000x32_S32x16_S100000x16_1_0_0_1_n_n 32 rfl rfl k
  have el : dot_S100000x32_S32x16_S100000x16_1_0_0_1_n_n.lhsIdx i ((ValueIdx.contrEquiv1 dot_S100000x32_S32x16_S100000x16_1_0_0_1_n_n 32 rfl rfl).symm k) = Cert.KernelIdeal.Dense16.lrow i k := funext fun a => Fin.ext (by
    match a with
    | ⟨0, _⟩ => exact lhs_row _ _
    | ⟨1, _⟩ => exact (lhs_col _ _).trans hk)
  have er : dot_S100000x32_S32x16_S100000x16_1_0_0_1_n_n.rhsIdx i ((ValueIdx.contrEquiv1 dot_S100000x32_S32x16_S100000x16_1_0_0_1_n_n 32 rfl rfl).symm k) = Cert.KernelIdeal.Dense16.rcol i k := funext fun a => Fin.ext (by
    match a with
    | ⟨0, _⟩ => exact (rhs_row _ _).trans hk
    | ⟨1, _⟩ => exact rhs_col _ _)
  rw [el, er]

end Dense16

namespace Bias16

/-- The bias vector's entry an index of the node array reads: its column. -/
abbrev col (i : S100000x16.Idx) : S16.Idx := ix1 (⟨(i 1).val, idx2_lt1 i⟩ : Fin 16)

/-- The bias broadcast to every row, added, and the maximum with zero taken, entry by entry, is the function the region of ten
    row blocks leaves of the aggregated features and of the bias reshaped to one row: both read the bias at the entry's column. -/
theorem activated_eq (a : (⟨S100000x16, .f32⟩ : BufTy).Contents (Elt Ideal)) (b : (⟨S16, .f32⟩ : BufTy).Contents (Elt Ideal)) (hc : S16.ShapeCasts S1x16) :
    Cert.Gcn.activated16 (F := Ideal) a b = Cert.KernelIdeal.Bias16.rowsPlusBias a (shapeCast S1x16 b hc) := by
  funext i
  have e1 : broadcastInDim S100000x16 ![0, 1] bcast_S1x16_S100000x16_0_1 (broadcastInDim S1x16 ![1] bcast_S16_S1x16_1 b) i
      = broadcastInDim S1x16 ![1] bcast_S16_S1x16_1 b (Cert.KernelIdeal.Bias16.biasIdx i) :=
    broadcastInDim_apply _ _ _ i (Cert.KernelIdeal.Bias16.biasIdx i) (fun ax => by match ax with | ⟨0, _⟩ => rfl | ⟨1, _⟩ => rfl)
  have e2 : broadcastInDim S1x16 ![1] bcast_S16_S1x16_1 b (Cert.KernelIdeal.Bias16.biasIdx i) = b (col i) :=
    broadcastInDim_apply _ _ _ (Cert.KernelIdeal.Bias16.biasIdx i) (col i) (fun ax => by match ax with | ⟨0, _⟩ => rfl)
  have e3 : shapeCast S1x16 b hc (Cert.KernelIdeal.Bias16.biasIdx i) = b (col i) :=
    (shapeCast_addUnit_apply ![16] b hc (Cert.KernelIdeal.Bias16.biasIdx i)).trans (congrArg b (funext fun ax => by match ax with | ⟨0, _⟩ => rfl))
  show max (a i + broadcastInDim S100000x16 ![0, 1] bcast_S1x16_S100000x16_0_1 (broadcastInDim S1x16 ![1] bcast_S16_S1x16_1 b) i) (Ideal.ofBits .f32 0x00000000#32)
      = max (a i + shapeCast S1x16 b hc (Cert.KernelIdeal.Bias16.biasIdx i)) (Ideal.ofBits .f32 0x00000000#32)
  rw [e1, e2, e3]

end Bias16

/-! ## Width 8 -/

namespace Dense8

theorem lhs_row (j : S100000x8.Idx) (r : dot_S100000x16_S16x8_S100000x8_1_0_0_1_n_n.contr.Idx) : (dot_S100000x16_S16x8_S100000x8_1_0_0_1_n_n.lhsIdx j r 0).val = (j 0).val := by
  unfold DotDims.lhsIdx
  rw [dif_neg (show ¬(0 : Fin S100000x16.rank) ∈ dot_S100000x16_S16x8_S100000x8_1_0_0_1_n_n.lhsBatch by decide), dif_pos (show (0 : Fin S100000x16.rank) ∈ dot_S100000x16_S16x8_S100000x8_1_0_0_1_n_n.lhsNonContracting by decide)]
  rfl
theorem lhs_col (j : S100000x8.Idx) (r : dot_S100000x16_S16x8_S100000x8_1_0_0_1_n_n.contr.Idx) : (dot_S100000x16_S16x8_S100000x8_1_0_0_1_n_n.lhsIdx j r 1).val = (r ⟨0, by decide⟩).val :=
  dot_S100000x16_S16x8_S100000x8_1_0_0_1_n_n.lhsIdx_val_of_single rfl j r
theorem rhs_row (j : S100000x8.Idx) (r : dot_S100000x16_S16x8_S100000x8_1_0_0_1_n_n.contr.Idx) : (dot_S100000x16_S16x8_S100000x8_1_0_0_1_n_n.rhsIdx j r 0).val = (r ⟨0, by decide⟩).val :=
  dot_S100000x16_S16x8_S100000x8_1_0_0_1_n_n.rhsIdx_val_of_single rfl j r
theorem rhs_col (j : S100000x8.Idx) (r : dot_S100000x16_S16x8_S100000x8_1_0_0_1_n_n.contr.Idx) : (dot_S100000x16_S16x8_S100000x8_1_0_0_1_n_n.rhsIdx j r 1).val = (j 1).val := by
  unfold DotDims.rhsIdx
  rw [dif_neg (show ¬(1 : Fin S16x8.rank) ∈ dot_S100000x16_S16x8_S100000x8_1_0_0_1_n_n.rhsBatch by decide), dif_pos (show (1 : Fin S16x8.rank) ∈ dot_S100000x16_S16x8_S100000x8_1_0_0_1_n_n.rhsNonContracting by decide)]
  rfl

/-- The host's dot_general over the one contracted axis is, entry by entry, the sum over `k` of the features' entry
    `(i 0, k)` times the weights' entry `(k, i 1)`: the function the region of ten row blocks leaves. -/
theorem dense_eq (h : (⟨S100000x16, .f32⟩ : BufTy).Contents (Elt Ideal)) (w : (⟨S16x8, .f32⟩ : BufTy).Contents (Elt Ideal)) :
    Cert.Gcn.dense8 (F := Ideal) h w = Cert.KernelIdeal.Dense8.product h w := by
  funext i
  unfold Cert.Gcn.dense8 Cert.KernelIdeal.Dense8.product
  simp only [Host.dotGeneral]
  rw [Ideal.dotGeneral_apply, ← Equiv.sum_comp (ValueIdx.contrEquiv1 dot_S100000x16_S16x8_S100000x8_1_0_0_1_n_n 16 rfl rfl).symm]
  refine Finset.sum_congr rfl fun k _ => ?_
  have hk := ValueIdx.contrEquiv1_symm_val dot_S100000x16_S16x8_S100000x8_1_0_0_1_n_n 16 rfl rfl k
  have el : dot_S100000x16_S16x8_S100000x8_1_0_0_1_n_n.lhsIdx i ((ValueIdx.contrEquiv1 dot_S100000x16_S16x8_S100000x8_1_0_0_1_n_n 16 rfl rfl).symm k) = Cert.KernelIdeal.Dense8.lrow i k := funext fun a => Fin.ext (by
    match a with
    | ⟨0, _⟩ => exact lhs_row _ _
    | ⟨1, _⟩ => exact (lhs_col _ _).trans hk)
  have er : dot_S100000x16_S16x8_S100000x8_1_0_0_1_n_n.rhsIdx i ((ValueIdx.contrEquiv1 dot_S100000x16_S16x8_S100000x8_1_0_0_1_n_n 16 rfl rfl).symm k) = Cert.KernelIdeal.Dense8.rcol i k := funext fun a => Fin.ext (by
    match a with
    | ⟨0, _⟩ => exact (rhs_row _ _).trans hk
    | ⟨1, _⟩ => exact rhs_col _ _)
  rw [el, er]

end Dense8

namespace Bias8

/-- The bias vector's entry an index of the node array reads: its column. -/
abbrev col (i : S100000x8.Idx) : S8.Idx := ix1 (⟨(i 1).val, idx2_lt1 i⟩ : Fin 8)

/-- The bias broadcast to every row and added, entry by entry, is the function the region of ten
    row blocks leaves of the aggregated features and of the bias reshaped to one row: both read the bias at the entry's column. -/
theorem biased_eq (a : (⟨S100000x8, .f32⟩ : BufTy).Contents (Elt Ideal)) (b : (⟨S8, .f32⟩ : BufTy).Contents (Elt Ideal)) (hc : S8.ShapeCasts S1x8) :
    Cert.Gcn.biased8 (F := Ideal) a b = Cert.KernelIdeal.Bias8.rowsPlusBias a (shapeCast S1x8 b hc) := by
  funext i
  have e1 : broadcastInDim S100000x8 ![0, 1] bcast_S1x8_S100000x8_0_1 (broadcastInDim S1x8 ![1] bcast_S8_S1x8_1 b) i
      = broadcastInDim S1x8 ![1] bcast_S8_S1x8_1 b (Cert.KernelIdeal.Bias8.biasIdx i) :=
    broadcastInDim_apply _ _ _ i (Cert.KernelIdeal.Bias8.biasIdx i) (fun ax => by match ax with | ⟨0, _⟩ => rfl | ⟨1, _⟩ => rfl)
  have e2 : broadcastInDim S1x8 ![1] bcast_S8_S1x8_1 b (Cert.KernelIdeal.Bias8.biasIdx i) = b (col i) :=
    broadcastInDim_apply _ _ _ (Cert.KernelIdeal.Bias8.biasIdx i) (col i) (fun ax => by match ax with | ⟨0, _⟩ => rfl)
  have e3 : shapeCast S1x8 b hc (Cert.KernelIdeal.Bias8.biasIdx i) = b (col i) :=
    (shapeCast_addUnit_apply ![8] b hc (Cert.KernelIdeal.Bias8.biasIdx i)).trans (congrArg b (funext fun ax => by match ax with | ⟨0, _⟩ => rfl))
  show a i + broadcastInDim S100000x8 ![0, 1] bcast_S1x8_S100000x8_0_1 (broadcastInDim S1x8 ![1] bcast_S8_S1x8_1 b) i
      = a i + shapeCast S1x8 b hc (Cert.KernelIdeal.Bias8.biasIdx i)
  rw [e1, e2, e3]

end Bias8

end Cert.GcnLaws

end
-- ==== Proof.Stretches.lean ====
/-
  What each stretch of host operations leaves, as a function of what it finds.

  The program's host operations between two regions are the reference's own: the gather of the product's rows along
  the edges, the scaling by the edge weights, the scatter-add into the target nodes. So a stretch applied to ANY
  contents of the buffers leaves, in its result buffers, the corresponding piece of the network (`Cert.Gcn`) of the
  contents it found in the buffers it reads: the operations composed, nothing opened.
-/
import proofs.«111440_j76244259439066_1_alg».proof.Proof.Gen.KernelIdeal.Frame
import proofs.«111440_j76244259439066_1_alg».proof.Proof.Gcn
import Idealize.ShloMosaic.Lib.StableHlo.Run

set_option maxRecDepth 16384

noncomputable section

namespace Cert.KernelIdeal.Stretches

open Cert.KernelIdeal Cert.KernelIdeal.Gen
open Idealize.ShloMosaic Idealize.ShloMosaic.TcCoe Idealize.ShloMosaic.StableHlo Idealize.SL.Sem

variable {F : FTy → Type} [FloatOps F]
variable (V : Valuation τ sig (Elt F))

/-! ## Before the first region: the edges and their weights -/

/-- The edges' source nodes, from the edge list found. -/
theorem sources : StableHlo.after hostOps0 V (Proc.devRef .tc main_v3) = Cert.Gcn.source (F := F) (V (Proc.devRef .tc main_arg1)) := by
  after_results_simp
  rfl

/-- The edges' target nodes. -/
theorem targets : StableHlo.after hostOps0 V (Proc.devRef .tc main_v6) = Cert.Gcn.target (F := F) (V (Proc.devRef .tc main_arg1)) := by
  after_results_simp
  rfl

/-- The nodes' inverse root degrees: the first stretch counts the degrees and takes the roots, the second (the
    selection between the root and zero) picks. -/
theorem inverseRoots : StableHlo.after hostOps0_1 (StableHlo.after hostOps0 V) (Proc.devRef .tc main_v16)
    = Cert.Gcn.invSqrt (F := F) (Cert.Gcn.degree (Cert.Gcn.target (V (Proc.devRef .tc main_arg1)))) := by
  after_results_simp
  rfl

/-- The edges' weights, from the inverse roots, sources and targets found. -/
theorem edgeWeights : StableHlo.after hostOps0_2 V (Proc.devRef .tc main_v31)
    = Cert.Gcn.edgeWeight (F := F) (V (Proc.devRef .tc main_v16)) (V (Proc.devRef .tc main_v3)) (V (Proc.devRef .tc main_v6)) := by
  after_results_simp
  rfl

/-! ## Between the regions: each layer's aggregation, and its bias as a row -/

/-- Layer 1's host stretch leaves the aggregation of the product it finds (over the edges it finds) … -/
theorem aggregated64 : StableHlo.after hostOps1 V (Proc.devRef .tc main_v45)
    = Cert.Gcn.aggregate64 (F := F) (V (Proc.devRef .tc main_v32)) (V (Proc.devRef .tc main_v3)) (V (Proc.devRef .tc main_v6)) (V (Proc.devRef .tc main_v31)) := by
  after_results_simp
  rfl

/-- … and the layer's bias vector as one row. -/
theorem biasRow64 : StableHlo.after hostOps1 V (Proc.devRef .tc main_v46)
    = shapeCast S1x64 (V (Proc.devRef .tc main_arg3)) shapeCasts_S64_S1x64 := by
  after_results_simp
  rfl

/-- Layer 2's host stretch leaves the aggregation of the product it finds (over the edges it finds) … -/
theorem aggregated32 : StableHlo.after hostOps3 V (Proc.devRef .tc main_v61)
    = Cert.Gcn.aggregate32 (F := F) (V (Proc.devRef .tc main_v48)) (V (Proc.devRef .tc main_v3)) (V (Proc.devRef .tc main_v6)) (V (Proc.devRef .tc main_v31)) := by
  after_results_simp
  rfl

/-- … and the layer's bias vector as one row. -/
theorem biasRow32 : StableHlo.after hostOps3 V (Proc.devRef .tc main_v62)
    = shapeCast S1x32 (V (Proc.devRef .tc main_arg5)) shapeCasts_S32_S1x32 := by
  after_results_simp
  rfl

/-- Layer 3's host stretch leaves the aggregation of the product it finds (over the edges it finds) … -/
theorem aggregated16 : StableHlo.after hostOps5 V (Proc.devRef .tc main_v77)
    = Cert.Gcn.aggregate16 (F := F) (V (Proc.devRef .tc main_v64)) (V (Proc.devRef .tc main_v3)) (V (Proc.devRef .tc main_v6)) (V (Proc.devRef .tc main_v31)) := by
  after_results_simp
  rfl

/-- … and the layer's bias vector as one row. -/
theorem biasRow16 : StableHlo.after hostOps5 V (Proc.devRef .tc main_v78)
    = shapeCast S1x16 (V (Proc.devRef .tc main_arg7)) shapeCasts_S16_S1x16 := by
  after_results_simp
  rfl

/-- Layer 4's host stretch leaves the aggregation of the product it finds (over the edges it finds) … -/
theorem aggregated8 : StableHlo.after hostOps7 V (Proc.devRef .tc main_v93)
    = Cert.Gcn.aggregate8 (F := F) (V (Proc.devRef .tc main_v80)) (V (Proc.devRef .tc main_v3)) (V (Proc.devRef .tc main_v6)) (V (Proc.devRef .tc main_v31)) := by
  after_results_simp
  rfl

/-- … and the layer's bias vector as one row. -/
theorem biasRow8 : StableHlo.after hostOps7 V (Proc.devRef .tc main_v94)
    = shapeCast S1x8 (V (Proc.devRef .tc main_arg9)) shapeCasts_S8_S1x8 := by
  after_results_simp
  rfl

end Cert.KernelIdeal.Stretches

end
-- ==== Proof.CarriedEdges.lean ====
/-
  The three edge arrays — the edges' source nodes, their target nodes and their weights — are computed once, before the
  first region, and read again by every layer's gather and scatter. No region has one of them among its arrays and no
  later host operation writes one, so at the boundary where each layer's host stretch begins they still hold what
  they held when the first region was entered.
-/
import proofs.«111440_j76244259439066_1_alg».proof.Proof.Gen.KernelIdeal.Frame
import Idealize.ShloMosaic.Lib.StableHlo.Run

set_option maxRecDepth 16384

noncomputable section

namespace Cert.KernelIdeal.CarriedEdges

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- No operation of the stretch at hand writes the buffer at hand: each operation writes its one result buffer, a
    different reference. -/
local macro "not_written" : tactic => `(tactic| (
  simp only [hostOps0, hostOps0_1, hostOps0_2, hostOps1, hostOps3, hostOps5, hostOps7, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-- The source nodes where layer 1's host stretch begins are those of the first region's entry. -/
theorem v3_at4 (c : Dev nD) : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

/-- The source nodes where layer 2's host stretch begins are those of the first region's entry. -/
theorem v3_at7 (c : Dev nD) : W7 m ρ c (Proc.devRef .tc main_v3) = W3 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by not_written))
    _ = W3 m ρ c (Proc.devRef .tc main_v3) := v3_at4 m ρ c

/-- The source nodes where layer 3's host stretch begins are those of the first region's entry. -/
theorem v3_at10 (c : Dev nD) : W10 m ρ c (Proc.devRef .tc main_v3) = W3 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := W9_of_ne m ρ c main_v3 (by decide)
    _ = W7 m ρ c (Proc.devRef .tc main_v3) := StableHlo.after_of_forall_not_mem (b := Proc.devRef .tc main_v3) _ _ (List.forall_iff_forall_mem.mp (by not_written))
    _ = W3 m ρ c (Proc.devRef .tc main_v3) := v3_at7 m ρ c

/-- The source nodes where layer 4's host stretch begins are those of the first region's entry. -/
theorem v3_at13 (c : Dev nD) : W13 m ρ c (Proc.devRef .tc main_v3) = W3 m ρ c (Proc.devRef .tc main_v3) :=
  calc W13 m ρ c (Proc.devRef .tc main_v3)
    _ = W12 m ρ c (Proc.devRef .tc main_v3) := W13_of_ne m ρ c main_v3 (by decide)
    _ = W11 m ρ c (Proc.devRef .tc main_v3) := W12_of_ne m ρ c main_v3 (by decide)
    _ = W10 m ρ c (Proc.devRef .tc main_v3) := StableHlo.after_of_forall_not_mem (b := Proc.devRef .tc main_v3) _ _ (List.forall_iff_forall_mem.mp (by not_written))
    _ = W3 m ρ c (Proc.devRef .tc main_v3) := v3_at10 m ρ c

/-- The target nodes where layer 1's host stretch begins are those of the first region's entry. -/
theorem v6_at4 (c : Dev nD) : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

/-- The target nodes where layer 2's host stretch begins are those of the first region's entry. -/
theorem v6_at7 (c : Dev nD) : W7 m ρ c (Proc.devRef .tc main_v6) = W3 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by not_written))
    _ = W3 m ρ c (Proc.devRef .tc main_v6) := v6_at4 m ρ c

/-- The target nodes where layer 3's host stretch begins are those of the first region's entry. -/
theorem v6_at10 (c : Dev nD) : W10 m ρ c (Proc.devRef .tc main_v6) = W3 m ρ c (Proc.devRef .tc main_v6) :=
  calc W10 m ρ c (Proc.devRef .tc main_v6)
    _ = W9 m ρ c (Proc.devRef .tc main_v6) := W10_of_ne m ρ c main_v6 (by decide)
    _ = W8 m ρ c (Proc.devRef .tc main_v6) := W9_of_ne m ρ c main_v6 (by decide)
    _ = W7 m ρ c (Proc.devRef .tc main_v6) := StableHlo.after_of_forall_not_mem (b := Proc.devRef .tc main_v6) _ _ (List.forall_iff_forall_mem.mp (by not_written))
    _ = W3 m ρ c (Proc.devRef .tc main_v6) := v6_at7 m ρ c

/-- The target nodes where layer 4's host stretch begins are those of the first region's entry. -/
theorem v6_at13 (c : Dev nD) : W13 m ρ c (Proc.devRef .tc main_v6) = W3 m ρ c (Proc.devRef .tc main_v6) :=
  calc W13 m ρ c (Proc.devRef .tc main_v6)
    _ = W12 m ρ c (Proc.devRef .tc main_v6) := W13_of_ne m ρ c main_v6 (by decide)
    _ = W11 m ρ c (Proc.devRef .tc main_v6) := W12_of_ne m ρ c main_v6 (by decide)
    _ = W10 m ρ c (Proc.devRef .tc main_v6) := StableHlo.after_of_forall_not_mem (b := Proc.devRef .tc main_v6) _ _ (List.forall_iff_forall_mem.mp (by not_written))
    _ = W3 m ρ c (Proc.devRef .tc main_v6) := v6_at10 m ρ c

/-- The edge weights where layer 1's host stretch begins are those of the first region's entry. -/
theorem v31_at4 (c : Dev nD) : W4 m ρ c (Proc.devRef .tc main_v31) = W3 m ρ c (Proc.devRef .tc main_v31) :=
  calc W4 m ρ c (Proc.devRef .tc main_v31)
    _ = W3 m ρ c (Proc.devRef .tc main_v31) := W4_of_ne m ρ c main_v31 (by decide)

/-- The edge weights where layer 2's host stretch begins are those of the first region's entry. -/
theorem v31_at7 (c : Dev nD) : W7 m ρ c (Proc.devRef .tc main_v31) = W3 m ρ c (Proc.devRef .tc main_v31) :=
  calc W7 m ρ c (Proc.devRef .tc main_v31)
    _ = W6 m ρ c (Proc.devRef .tc main_v31) := W7_of_ne m ρ c main_v31 (by decide)
    _ = W5 m ρ c (Proc.devRef .tc main_v31) := W6_of_ne m ρ c main_v31 (by decide)
    _ = W4 m ρ c (Proc.devRef .tc main_v31) := StableHlo.after_of_forall_not_mem (b := Proc.devRef .tc main_v31) _ _ (List.forall_iff_forall_mem.mp (by not_written))
    _ = W3 m ρ c (Proc.devRef .tc main_v31) := v31_at4 m ρ c

/-- The edge weights where layer 3's host stretch begins are those of the first region's entry. -/
theorem v31_at10 (c : Dev nD) : W10 m ρ c (Proc.devRef .tc main_v31) = W3 m ρ c (Proc.devRef .tc main_v31) :=
  calc W10 m ρ c (Proc.devRef .tc main_v31)
    _ = W9 m ρ c (Proc.devRef .tc main_v31) := W10_of_ne m ρ c main_v31 (by decide)
    _ = W8 m ρ c (Proc.devRef .tc main_v31) := W9_of_ne m ρ c main_v31 (by decide)
    _ = W7 m ρ c (Proc.devRef .tc main_v31) := StableHlo.after_of_forall_not_mem (b := Proc.devRef .tc main_v31) _ _ (List.forall_iff_forall_mem.mp (by not_written))
    _ = W3 m ρ c (Proc.devRef .tc main_v31) := v31_at7 m ρ c

/-- The edge weights where layer 4's host stretch begins are those of the first region's entry. -/
theorem v31_at13 (c : Dev nD) : W13 m ρ c (Proc.devRef .tc main_v31) = W3 m ρ c (Proc.devRef .tc main_v31) :=
  calc W13 m ρ c (Proc.devRef .tc main_v31)
    _ = W12 m ρ c (Proc.devRef .tc main_v31) := W13_of_ne m ρ c main_v31 (by decide)
    _ = W11 m ρ c (Proc.devRef .tc main_v31) := W12_of_ne m ρ c main_v31 (by decide)
    _ = W10 m ρ c (Proc.devRef .tc main_v31) := StableHlo.after_of_forall_not_mem (b := Proc.devRef .tc main_v31) _ _ (List.forall_iff_forall_mem.mp (by not_written))
    _ = W3 m ρ c (Proc.devRef .tc main_v31) := v31_at10 m ρ c

end Cert.KernelIdeal.CarriedEdges

end
-- ==== Proof.CarriedArgs.lean ====
/-
  The weight matrices and bias vectors are arguments: nothing writes them. Each is read once — a weight matrix by its
  layer's product region, a bias vector by the reshape in its layer's host stretch — and at that boundary it still
  holds its launch contents: the fold walked back to the launch memory.
-/
import proofs.«111440_j76244259439066_1_alg».proof.Proof.Gen.KernelIdeal.Frame
import Idealize.ShloMosaic.Lib.StableHlo.Run

set_option maxRecDepth 16384

noncomputable section

namespace Cert.KernelIdeal.CarriedArgs

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- No operation of the stretch at hand writes the buffer at hand: each operation writes its one result buffer, a
    different reference. -/
local macro "not_written" : tactic => `(tactic| (
  simp only [hostOps0, hostOps0_1, hostOps0_2, hostOps1, hostOps3, hostOps5, hostOps7, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-- Argument 0 where the first region is entered is as launched: the three host stretches before it do not write it. -/
theorem arg0_at3 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by not_written))
    _ = W1 m ρ c (Proc.devRef .tc main_arg0) := StableHlo.after_of_forall_not_mem (b := Proc.devRef .tc main_arg0) _ _ (List.forall_iff_forall_mem.mp (by not_written))
    _ = W0 m ρ c (Proc.devRef .tc main_arg0) := StableHlo.after_of_forall_not_mem (b := Proc.devRef .tc main_arg0) _ _ (List.forall_iff_forall_mem.mp (by not_written))
    _ = m ((c : Thread nD τ).loc main_arg0) := rfl

/-- Argument 2 where the first region is entered is as launched: the three host stretches before it do not write it. -/
theorem arg2_at3 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by not_written))
    _ = W1 m ρ c (Proc.devRef .tc main_arg2) := StableHlo.after_of_forall_not_mem (b := Proc.devRef .tc main_arg2) _ _ (List.forall_iff_forall_mem.mp (by not_written))
    _ = W0 m ρ c (Proc.devRef .tc main_arg2) := StableHlo.after_of_forall_not_mem (b := Proc.devRef .tc main_arg2) _ _ (List.forall_iff_forall_mem.mp (by not_written))
    _ = m ((c : Thread nD τ).loc main_arg2) := rfl

/-- Argument 3 where the first region is entered is as launched: the three host stretches before it do not write it. -/
theorem arg3_at3 (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by not_written))
    _ = W1 m ρ c (Proc.devRef .tc main_arg3) := StableHlo.after_of_forall_not_mem (b := Proc.devRef .tc main_arg3) _ _ (List.forall_iff_forall_mem.mp (by not_written))
    _ = W0 m ρ c (Proc.devRef .tc main_arg3) := StableHlo.after_of_forall_not_mem (b := Proc.devRef .tc main_arg3) _ _ (List.forall_iff_forall_mem.mp (by not_written))
    _ = m ((c : Thread nD τ).loc main_arg3) := rfl

/-- Argument 4 where the first region is entered is as launched: the three host stretches before it do not write it. -/
theorem arg4_at3 (c : Dev nD) : W3 m ρ c (Proc.devRef .tc main_arg4) = m ((c : Thread nD τ).loc main_arg4) :=
  calc W3 m ρ c (Proc.devRef .tc main_arg4)
    _ = W2 m ρ c (Proc.devRef .tc main_arg4) := StableHlo.after_of_forall_not_mem (b := Proc.devRef .tc main_arg4) _ _ (List.forall_iff_forall_mem.mp (by not_written))
    _ = W1 m ρ c (Proc.devRef .tc main_arg4) := StableHlo.after_of_forall_not_mem (b := Proc.devRef .tc main_arg4) _ _ (List.forall_iff_forall_mem.mp (by not_written))
    _ = W0 m ρ c (Proc.devRef .tc main_arg4) := StableHlo.after_of_forall_not_mem (b := Proc.devRef .tc main_arg4) _ _ (List.forall_iff_forall_mem.mp (by not_written))
    _ = m ((c : Thread nD τ).loc main_arg4) := rfl

/-- Argument 5 where the first region is entered is as launched: the three host stretches before it do not write it. -/
theorem arg5_at3 (c : Dev nD) : W3 m ρ c (Proc.devRef .tc main_arg5) = m ((c : Thread nD τ).loc main_arg5) :=
  calc W3 m ρ c (Proc.devRef .tc main_arg5)
    _ = W2 m ρ c (Proc.devRef .tc main_arg5) := StableHlo.after_of_forall_not_mem (b := Proc.devRef .tc main_arg5) _ _ (List.forall_iff_forall_mem.mp (by not_written))
    _ = W1 m ρ c (Proc.devRef .tc main_arg5) := StableHlo.after_of_forall_not_mem (b := Proc.devRef .tc main_arg5) _ _ (List.forall_iff_forall_mem.mp (by not_written))
    _ = W0 m ρ c (Proc.devRef .tc main_arg5) := StableHlo.after_of_forall_not_mem (b := Proc.devRef .tc main_arg5) _ _ (List.forall_iff_forall_mem.mp (by not_written))
    _ = m ((c : Thread nD τ).loc main_arg5) := rfl

/-- Argument 6 where the first region is entered is as launched: the three host stretches before it do not write it. -/
theorem arg6_at3 (c : Dev nD) : W3 m ρ c (Proc.devRef .tc main_arg6) = m ((c : Thread nD τ).loc main_arg6) :=
  calc W3 m ρ c (Proc.devRef .tc main_arg6)
    _ = W2 m ρ c (Proc.devRef .tc main_arg6) := StableHlo.after_of_forall_not_mem (b := Proc.devRef .tc main_arg6) _ _ (List.forall_iff_forall_mem.mp (by not_written))
    _ = W1 m ρ c (Proc.devRef .tc main_arg6) := StableHlo.after_of_forall_not_mem (b := Proc.devRef .tc main_arg6) _ _ (List.forall_iff_forall_mem.mp (by not_written))
    _ = W0 m ρ c (Proc.devRef .tc main_arg6) := StableHlo.after_of_forall_not_mem (b := Proc.devRef .tc main_arg6) _ _ (List.forall_iff_forall_mem.mp (by not_written))
    _ = m ((c : Thread nD τ).loc main_arg6) := rfl

/-- Argument 7 where the first region is entered is as launched: the three host stretches before it do not write it. -/
theorem arg7_at3 (c : Dev nD) : W3 m ρ c (Proc.devRef .tc main_arg7) = m ((c : Thread nD τ).loc main_arg7) :=
  calc W3 m ρ c (Proc.devRef .tc main_arg7)
    _ = W2 m ρ c (Proc.devRef .tc main_arg7) := StableHlo.after_of_forall_not_mem (b := Proc.devRef .tc main_arg7) _ _ (List.forall_iff_forall_mem.mp (by not_written))
    _ = W1 m ρ c (Proc.devRef .tc main_arg7) := StableHlo.after_of_forall_not_mem (b := Proc.devRef .tc main_arg7) _ _ (List.forall_iff_forall_mem.mp (by not_written))
    _ = W0 m ρ c (Proc.devRef .tc main_arg7) := StableHlo.after_of_forall_not_mem (b := Proc.devRef .tc main_arg7) _ _ (List.forall_iff_forall_mem.mp (by not_written))
    _ = m ((c : Thread nD τ).loc main_arg7) := rfl

/-- Argument 8 where the first region is entered is as launched: the three host stretches before it do not write it. -/
theorem arg8_at3 (c : Dev nD) : W3 m ρ c (Proc.devRef .tc main_arg8) = m ((c : Thread nD τ).loc main_arg8) :=
  calc W3 m ρ c (Proc.devRef .tc main_arg8)
    _ = W2 m ρ c (Proc.devRef .tc main_arg8) := StableHlo.after_of_forall_not_mem (b := Proc.devRef .tc main_arg8) _ _ (List.forall_iff_forall_mem.mp (by not_written))
    _ = W1 m ρ c (Proc.devRef .tc main_arg8) := StableHlo.after_of_forall_not_mem (b := Proc.devRef .tc main_arg8) _ _ (List.forall_iff_forall_mem.mp (by not_written))
    _ = W0 m ρ c (Proc.devRef .tc main_arg8) := StableHlo.after_of_forall_not_mem (b := Proc.devRef .tc main_arg8) _ _ (List.forall_iff_forall_mem.mp (by not_written))
    _ = m ((c : Thread nD τ).loc main_arg8) := rfl

/-- Argument 9 where the first region is entered is as launched: the three host stretches before it do not write it. -/
theorem arg9_at3 (c : Dev nD) : W3 m ρ c (Proc.devRef .tc main_arg9) = m ((c : Thread nD τ).loc main_arg9) :=
  calc W3 m ρ c (Proc.devRef .tc main_arg9)
    _ = W2 m ρ c (Proc.devRef .tc main_arg9) := StableHlo.after_of_forall_not_mem (b := Proc.devRef .tc main_arg9) _ _ (List.forall_iff_forall_mem.mp (by not_written))
    _ = W1 m ρ c (Proc.devRef .tc main_arg9) := StableHlo.after_of_forall_not_mem (b := Proc.devRef .tc main_arg9) _ _ (List.forall_iff_forall_mem.mp (by not_written))
    _ = W0 m ρ c (Proc.devRef .tc main_arg9) := StableHlo.after_of_forall_not_mem (b := Proc.devRef .tc main_arg9) _ _ (List.forall_iff_forall_mem.mp (by not_written))
    _ = m ((c : Thread nD τ).loc main_arg9) := rfl

/-- As launched: layer 1's bias where its host stretch begins. -/
theorem arg3_at4 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = m ((c : Thread nD τ).loc main_arg3) := arg3_at3 m ρ c

/-- As launched: layer 2's bias where its host stretch begins. -/
theorem arg5_at7 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by not_written))
    _ = W3 m ρ c (Proc.devRef .tc main_arg5) := W4_of_ne m ρ c main_arg5 (by decide)
    _ = m ((c : Thread nD τ).loc main_arg5) := arg5_at3 m ρ c

/-- As launched: layer 3's bias where its host stretch begins. -/
theorem arg7_at10 (c : Dev nD) : W10 m ρ c (Proc.devRef .tc main_arg7) = m ((c : Thread nD τ).loc main_arg7) :=
  calc W10 m ρ c (Proc.devRef .tc main_arg7)
    _ = W9 m ρ c (Proc.devRef .tc main_arg7) := W10_of_ne m ρ c main_arg7 (by decide)
    _ = W8 m ρ c (Proc.devRef .tc main_arg7) := W9_of_ne m ρ c main_arg7 (by decide)
    _ = W7 m ρ c (Proc.devRef .tc main_arg7) := StableHlo.after_of_forall_not_mem (b := Proc.devRef .tc main_arg7) _ _ (List.forall_iff_forall_mem.mp (by not_written))
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by not_written))
    _ = W3 m ρ c (Proc.devRef .tc main_arg7) := W4_of_ne m ρ c main_arg7 (by decide)
    _ = m ((c : Thread nD τ).loc main_arg7) := arg7_at3 m ρ c

/-- As launched: layer 4's bias where its host stretch begins. -/
theorem arg9_at13 (c : Dev nD) : W13 m ρ c (Proc.devRef .tc main_arg9) = m ((c : Thread nD τ).loc main_arg9) :=
  calc W13 m ρ c (Proc.devRef .tc main_arg9)
    _ = W12 m ρ c (Proc.devRef .tc main_arg9) := W13_of_ne m ρ c main_arg9 (by decide)
    _ = W11 m ρ c (Proc.devRef .tc main_arg9) := W12_of_ne m ρ c main_arg9 (by decide)
    _ = W10 m ρ c (Proc.devRef .tc main_arg9) := StableHlo.after_of_forall_not_mem (b := Proc.devRef .tc main_arg9) _ _ (List.forall_iff_forall_mem.mp (by not_written))
    _ = W9 m ρ c (Proc.devRef .tc main_arg9) := W10_of_ne m ρ c main_arg9 (by decide)
    _ = W8 m ρ c (Proc.devRef .tc main_arg9) := W9_of_ne m ρ c main_arg9 (by decide)
    _ = W7 m ρ c (Proc.devRef .tc main_arg9) := StableHlo.after_of_forall_not_mem (b := Proc.devRef .tc main_arg9) _ _ (List.forall_iff_forall_mem.mp (by not_written))
    _ = W6 m ρ c (Proc.devRef .tc main_arg9) := W7_of_ne m ρ c main_arg9 (by decide)
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by not_written))
    _ = W3 m ρ c (Proc.devRef .tc main_arg9) := W4_of_ne m ρ c main_arg9 (by decide)
    _ = m ((c : Thread nD τ).loc main_arg9) := arg9_at3 m ρ c

/-- As launched: layer 2's weights where its product region is entered. -/
theorem arg4_at6 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by not_written))
    _ = W3 m ρ c (Proc.devRef .tc main_arg4) := W4_of_ne m ρ c main_arg4 (by decide)
    _ = m ((c : Thread nD τ).loc main_arg4) := arg4_at3 m ρ c

/-- As launched: layer 3's weights where its product region is entered. -/
theorem arg6_at9 (c : Dev nD) : W9 m ρ c (Proc.devRef .tc main_arg6) = m ((c : Thread nD τ).loc main_arg6) :=
  calc W9 m ρ c (Proc.devRef .tc main_arg6)
    _ = W8 m ρ c (Proc.devRef .tc main_arg6) := W9_of_ne m ρ c main_arg6 (by decide)
    _ = W7 m ρ c (Proc.devRef .tc main_arg6) := StableHlo.after_of_forall_not_mem (b := Proc.devRef .tc main_arg6) _ _ (List.forall_iff_forall_mem.mp (by not_written))
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by not_written))
    _ = W3 m ρ c (Proc.devRef .tc main_arg6) := W4_of_ne m ρ c main_arg6 (by decide)
    _ = m ((c : Thread nD τ).loc main_arg6) := arg6_at3 m ρ c

/-- As launched: layer 4's weights where its product region is entered. -/
theorem arg8_at12 (c : Dev nD) : W12 m ρ c (Proc.devRef .tc main_arg8) = m ((c : Thread nD τ).loc main_arg8) :=
  calc W12 m ρ c (Proc.devRef .tc main_arg8)
    _ = W11 m ρ c (Proc.devRef .tc main_arg8) := W12_of_ne m ρ c main_arg8 (by decide)
    _ = W10 m ρ c (Proc.devRef .tc main_arg8) := StableHlo.after_of_forall_not_mem (b := Proc.devRef .tc main_arg8) _ _ (List.forall_iff_forall_mem.mp (by not_written))
    _ = W9 m ρ c (Proc.devRef .tc main_arg8) := W10_of_ne m ρ c main_arg8 (by decide)
    _ = W8 m ρ c (Proc.devRef .tc main_arg8) := W9_of_ne m ρ c main_arg8 (by decide)
    _ = W7 m ρ c (Proc.devRef .tc main_arg8) := StableHlo.after_of_forall_not_mem (b := Proc.devRef .tc main_arg8) _ _ (List.forall_iff_forall_mem.mp (by not_written))
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by not_written))
    _ = W3 m ρ c (Proc.devRef .tc main_arg8) := W4_of_ne m ρ c main_arg8 (by decide)
    _ = m ((c : Thread nD τ).loc main_arg8) := arg8_at3 m ρ c

end Cert.KernelIdeal.CarriedArgs

end
-- ==== Proof.KernelValue.lean ====
/-
  The program's result is the network of its arguments: the fold of buffer contents read from the first region's
  entry to the last region's exit.

  Before the first region the host computes the edges' sources, targets and weights from the edge list. Then, four
  times: a region leaves the product of the layer's input with its weight matrix (the block product is the host's
  dot_general); a host stretch gathers, scales and scatter-adds it along the edges, and reshapes the bias vector to
  a row; a region adds the bias row to every row and (in the first three layers) takes the positive part. The edge
  arrays and the arguments are carried unchanged to where each is read. So the buffer the last region writes ends
  at `Cert.Gcn.result` of the ten launched arguments — the reference's own formula.
-/
import proofs.«111440_j76244259439066_1_alg».proof.Proof.KernelRun
import proofs.«111440_j76244259439066_1_alg».proof.Proof.GcnLaws
import proofs.«111440_j76244259439066_1_alg».proof.Proof.Stretches
import proofs.«111440_j76244259439066_1_alg».proof.Proof.CarriedEdges
import proofs.«111440_j76244259439066_1_alg».proof.Proof.CarriedArgs

set_option maxRecDepth 16384

noncomputable section

namespace Cert.KernelIdeal.Walk

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg)

/-! ## The edge arrays when the first region is entered -/

/-- After the first two stretches: the sources, … -/
theorem sources2 (c : Dev nD) : W2 m ρ c (Proc.devRef .tc main_v3) = Cert.Gcn.source (m ((c : Thread nD τ).loc main_arg1)) := by
  show StableHlo.after hostOps0_1 (StableHlo.after hostOps0 (W0 m ρ c)) (Proc.devRef .tc main_v3) = _
  after_results_simp
  rfl

/-- … the targets, … -/
theorem targets2 (c : Dev nD) : W2 m ρ c (Proc.devRef .tc main_v6) = Cert.Gcn.target (m ((c : Thread nD τ).loc main_arg1)) := by
  show StableHlo.after hostOps0_1 (StableHlo.after hostOps0 (W0 m ρ c)) (Proc.devRef .tc main_v6) = _
  after_results_simp
  rfl

/-- … and the inverse root degrees. -/
theorem roots2 (c : Dev nD) : W2 m ρ c (Proc.devRef .tc main_v16) = Cert.Gcn.invSqrt (Cert.Gcn.degree (Cert.Gcn.target (m ((c : Thread nD τ).loc main_arg1)))) :=
  Stretches.inverseRoots (W0 m ρ c)

/-- At the first region's entry: the sources, … -/
theorem sources3 (c : Dev nD) : W3 m ρ c (Proc.devRef .tc main_v3) = Cert.Gcn.source (m ((c : Thread nD τ).loc main_arg1)) := by
  show StableHlo.after hostOps0_2 (StableHlo.after hostOps0_1 (StableHlo.after hostOps0 (W0 m ρ c))) (Proc.devRef .tc main_v3) = _
  after_results_simp
  rfl

/-- … the targets, … -/
theorem targets3 (c : Dev nD) : W3 m ρ c (Proc.devRef .tc main_v6) = Cert.Gcn.target (m ((c : Thread nD τ).loc main_arg1)) := by
  show StableHlo.after hostOps0_2 (StableHlo.after hostOps0_1 (StableHlo.after hostOps0 (W0 m ρ c))) (Proc.devRef .tc main_v6) = _
  after_results_simp
  rfl

/-- … and the edges' weights: the third stretch multiplies the inverse roots of each edge's two ends. -/
theorem weights3 (c : Dev nD) : W3 m ρ c (Proc.devRef .tc main_v31) = Cert.Gcn.weights (m ((c : Thread nD τ).loc main_arg1)) := by
  have h := Stretches.edgeWeights (W2 m ρ c)
  rw [roots2 m ρ c, sources2 m ρ c, targets2 m ρ c] at h
  exact h

/-! ## Layer 1 -/

/-- The edge arrays where layer 1's host stretch begins. -/
theorem sources4 (c : Dev nD) : W4 m ρ c (Proc.devRef .tc main_v3) = Cert.Gcn.source (m ((c : Thread nD τ).loc main_arg1)) :=
  (CarriedEdges.v3_at4 m ρ c).trans (sources3 m ρ c)
theorem targets4 (c : Dev nD) : W4 m ρ c (Proc.devRef .tc main_v6) = Cert.Gcn.target (m ((c : Thread nD τ).loc main_arg1)) :=
  (CarriedEdges.v6_at4 m ρ c).trans (targets3 m ρ c)
theorem weights4 (c : Dev nD) : W4 m ρ c (Proc.devRef .tc main_v31) = Cert.Gcn.weights (m ((c : Thread nD τ).loc main_arg1)) :=
  (CarriedEdges.v31_at4 m ρ c).trans (weights3 m ρ c)

/-- The product region leaves the layer's input times its weight matrix. -/
theorem product1 (c : Dev nD) : W4 m ρ c (Proc.devRef .tc main_v32) = Cert.Gcn.dense64 (m ((c : Thread nD τ).loc main_arg0)) (m ((c : Thread nD τ).loc main_arg2)) :=
  (W4_arr m ρ c 2).trans ((Dense64.value (V3 m ρ) c).trans
    ((congrArg₂ Dense64.product (CarriedArgs.arg0_at3 m ρ c) (CarriedArgs.arg2_at3 m ρ c)).trans (Cert.GcnLaws.Dense64.dense_eq _ _).symm))

/-- The host stretch aggregates it along the edges … -/
theorem aggregated1 (c : Dev nD) : W5 m ρ c (Proc.devRef .tc main_v45) = Cert.Gcn.aggregate64 (Cert.Gcn.dense64 (m ((c : Thread nD τ).loc main_arg0)) (m ((c : Thread nD τ).loc main_arg2))) (Cert.Gcn.source (m ((c : Thread nD τ).loc main_arg1))) (Cert.Gcn.target (m ((c : Thread nD τ).loc main_arg1))) (Cert.Gcn.weights (m ((c : Thread nD τ).loc main_arg1))) := by
  have h := Stretches.aggregated64 (W4 m ρ c)
  rw [product1 m ρ c, sources4 m ρ c, targets4 m ρ c, weights4 m ρ c] at h
  exact h

/-- … and lays the bias vector out as a row. -/
theorem biasRow1 (c : Dev nD) : W5 m ρ c (Proc.devRef .tc main_v46) = shapeCast S1x64 (m ((c : Thread nD τ).loc main_arg3)) shapeCasts_S64_S1x64 := by
  have h := Stretches.biasRow64 (W4 m ρ c)
  rw [CarriedArgs.arg3_at4 m ρ c] at h
  exact h

/-- The bias region adds the row to every row and takes the positive part: the layer's output. -/
theorem layer1 (c : Dev nD) : W6 m ρ c (Proc.devRef .tc main_v47) = Cert.Gcn.layer1 (m ((c : Thread nD τ).loc main_arg0)) (m ((c : Thread nD τ).loc main_arg1)) (m ((c : Thread nD τ).loc main_arg2)) (m ((c : Thread nD τ).loc main_arg3)) :=
  (W6_arr m ρ c 2).trans ((Bias64.value (V5 m ρ) c).trans
    ((congrArg₂ Bias64.rowsPlusBias (aggregated1 m ρ c) (biasRow1 m ρ c)).trans (Cert.GcnLaws.Bias64.activated_eq _ _ _).symm))

/-! ## Layer 2 -/

/-- The edge arrays where layer 2's host stretch begins. -/
theorem sources7 (c : Dev nD) : W7 m ρ c (Proc.devRef .tc main_v3) = Cert.Gcn.source (m ((c : Thread nD τ).loc main_arg1)) :=
  (CarriedEdges.v3_at7 m ρ c).trans (sources3 m ρ c)
theorem targets7 (c : Dev nD) : W7 m ρ c (Proc.devRef .tc main_v6) = Cert.Gcn.target (m ((c : Thread nD τ).loc main_arg1)) :=
  (CarriedEdges.v6_at7 m ρ c).trans (targets3 m ρ c)
theorem weights7 (c : Dev nD) : W7 m ρ c (Proc.devRef .tc main_v31) = Cert.Gcn.weights (m ((c : Thread nD τ).loc main_arg1)) :=
  (CarriedEdges.v31_at7 m ρ c).trans (weights3 m ρ c)

/-- The product region leaves the layer's input times its weight matrix. -/
theorem product2 (c : Dev nD) : W7 m ρ c (Proc.devRef .tc main_v48) = Cert.Gcn.dense32 (Cert.Gcn.layer1 (m ((c : Thread nD τ).loc main_arg0)) (m ((c : Thread nD τ).loc main_arg1)) (m ((c : Thread nD τ).loc main_arg2)) (m ((c : Thread nD τ).loc main_arg3))) (m ((c : Thread nD τ).loc main_arg4)) :=
  (W7_arr m ρ c 2).trans ((Dense32.value (V6 m ρ) c).trans
    ((congrArg₂ Dense32.product (layer1 m ρ c) (CarriedArgs.arg4_at6 m ρ c)).trans (Cert.GcnLaws.Dense32.dense_eq _ _).symm))

/-- The host stretch aggregates it along the edges … -/
theorem aggregated2 (c : Dev nD) : W8 m ρ c (Proc.devRef .tc main_v61) = Cert.Gcn.aggregate32 (Cert.Gcn.dense32 (Cert.Gcn.layer1 (m ((c : Thread nD τ).loc main_arg0)) (m ((c : Thread nD τ).loc main_arg1)) (m ((c : Thread nD τ).loc main_arg2)) (m ((c : Thread nD τ).loc main_arg3))) (m ((c : Thread nD τ).loc main_arg4))) (Cert.Gcn.source (m ((c : Thread nD τ).loc main_arg1))) (Cert.Gcn.target (m ((c : Thread nD τ).loc main_arg1))) (Cert.Gcn.weights (m ((c : Thread nD τ).loc main_arg1))) := by
  have h := Stretches.aggregated32 (W7 m ρ c)
  rw [product2 m ρ c, sources7 m ρ c, targets7 m ρ c, weights7 m ρ c] at h
  exact h

/-- … and lays the bias vector out as a row. -/
theorem biasRow2 (c : Dev nD) : W8 m ρ c (Proc.devRef .tc main_v62) = shapeCast S1x32 (m ((c : Thread nD τ).loc main_arg5)) shapeCasts_S32_S1x32 := by
  have h := Stretches.biasRow32 (W7 m ρ c)
  rw [CarriedArgs.arg5_at7 m ρ c] at h
  exact h

/-- The bias region adds the row to every row and takes the positive part: the layer's output. -/
theorem layer2 (c : Dev nD) : W9 m ρ c (Proc.devRef .tc main_v63) = Cert.Gcn.layer2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W9_arr m ρ c 2).trans ((Bias32.value (V8 m ρ) c).trans
    ((congrArg₂ Bias32.rowsPlusBias (aggregated2 m ρ c) (biasRow2 m ρ c)).trans (Cert.GcnLaws.Bias32.activated_eq _ _ _).symm))

/-! ## Layer 3 -/

/-- The edge arrays where layer 3's host stretch begins. -/
theorem sources10 (c : Dev nD) : W10 m ρ c (Proc.devRef .tc main_v3) = Cert.Gcn.source (m ((c : Thread nD τ).loc main_arg1)) :=
  (CarriedEdges.v3_at10 m ρ c).trans (sources3 m ρ c)
theorem targets10 (c : Dev nD) : W10 m ρ c (Proc.devRef .tc main_v6) = Cert.Gcn.target (m ((c : Thread nD τ).loc main_arg1)) :=
  (CarriedEdges.v6_at10 m ρ c).trans (targets3 m ρ c)
theorem weights10 (c : Dev nD) : W10 m ρ c (Proc.devRef .tc main_v31) = Cert.Gcn.weights (m ((c : Thread nD τ).loc main_arg1)) :=
  (CarriedEdges.v31_at10 m ρ c).trans (weights3 m ρ c)

/-- The product region leaves the layer's input times its weight matrix. -/
theorem product3 (c : Dev nD) : W10 m ρ c (Proc.devRef .tc main_v64) = Cert.Gcn.dense16 (Cert.Gcn.layer2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) :=
  (W10_arr m ρ c 2).trans ((Dense16.value (V9 m ρ) c).trans
    ((congrArg₂ Dense16.product (layer2 m ρ c) (CarriedArgs.arg6_at9 m ρ c)).trans (Cert.GcnLaws.Dense16.dense_eq _ _).symm))

/-- The host stretch aggregates it along the edges … -/
theorem aggregated3 (c : Dev nD) : W11 m ρ c (Proc.devRef .tc main_v77) = Cert.Gcn.aggregate16 (Cert.Gcn.dense16 (Cert.Gcn.layer2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6))) (Cert.Gcn.source (m ((c : Thread nD τ).loc main_arg1))) (Cert.Gcn.target (m ((c : Thread nD τ).loc main_arg1))) (Cert.Gcn.weights (m ((c : Thread nD τ).loc main_arg1))) := by
  have h := Stretches.aggregated16 (W10 m ρ c)
  rw [product3 m ρ c, sources10 m ρ c, targets10 m ρ c, weights10 m ρ c] at h
  exact h

/-- … and lays the bias vector out as a row. -/
theorem biasRow3 (c : Dev nD) : W11 m ρ c (Proc.devRef .tc main_v78) = shapeCast S1x16 (m ((c : Thread nD τ).loc main_arg7)) shapeCasts_S16_S1x16 := by
  have h := Stretches.biasRow16 (W10 m ρ c)
  rw [CarriedArgs.arg7_at10 m ρ c] at h
  exact h

/-- The bias region adds the row to every row and takes the positive part: the layer's output. -/
theorem layer3 (c : Dev nD) : W12 m ρ c (Proc.devRef .tc main_v79) = Cert.Gcn.layer3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W12_arr m ρ c 2).trans ((Bias16.value (V11 m ρ) c).trans
    ((congrArg₂ Bias16.rowsPlusBias (aggregated3 m ρ c) (biasRow3 m ρ c)).trans (Cert.GcnLaws.Bias16.activated_eq _ _ _).symm))

/-! ## Layer 4 -/

/-- The edge arrays where layer 4's host stretch begins. -/
theorem sources13 (c : Dev nD) : W13 m ρ c (Proc.devRef .tc main_v3) = Cert.Gcn.source (m ((c : Thread nD τ).loc main_arg1)) :=
  (CarriedEdges.v3_at13 m ρ c).trans (sources3 m ρ c)
theorem targets13 (c : Dev nD) : W13 m ρ c (Proc.devRef .tc main_v6) = Cert.Gcn.target (m ((c : Thread nD τ).loc main_arg1)) :=
  (CarriedEdges.v6_at13 m ρ c).trans (targets3 m ρ c)
theorem weights13 (c : Dev nD) : W13 m ρ c (Proc.devRef .tc main_v31) = Cert.Gcn.weights (m ((c : Thread nD τ).loc main_arg1)) :=
  (CarriedEdges.v31_at13 m ρ c).trans (weights3 m ρ c)

/-- The product region leaves the layer's input times its weight matrix. -/
theorem product4 (c : Dev nD) : W13 m ρ c (Proc.devRef .tc main_v80) = Cert.Gcn.dense8 (Cert.Gcn.layer3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)) :=
  (W13_arr m ρ c 2).trans ((Dense8.value (V12 m ρ) c).trans
    ((congrArg₂ Dense8.product (layer3 m ρ c) (CarriedArgs.arg8_at12 m ρ c)).trans (Cert.GcnLaws.Dense8.dense_eq _ _).symm))

/-- The host stretch aggregates it along the edges … -/
theorem aggregated4 (c : Dev nD) : W14 m ρ c (Proc.devRef .tc main_v93) = Cert.Gcn.aggregate8 (Cert.Gcn.dense8 (Cert.Gcn.layer3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8))) (Cert.Gcn.source (m ((c : Thread nD τ).loc main_arg1))) (Cert.Gcn.target (m ((c : Thread nD τ).loc main_arg1))) (Cert.Gcn.weights (m ((c : Thread nD τ).loc main_arg1))) := by
  have h := Stretches.aggregated8 (W13 m ρ c)
  rw [product4 m ρ c, sources13 m ρ c, targets13 m ρ c, weights13 m ρ c] at h
  exact h

/-- … and lays the bias vector out as a row. -/
theorem biasRow4 (c : Dev nD) : W14 m ρ c (Proc.devRef .tc main_v94) = shapeCast S1x8 (m ((c : Thread nD τ).loc main_arg9)) shapeCasts_S8_S1x8 := by
  have h := Stretches.biasRow8 (W13 m ρ c)
  rw [CarriedArgs.arg9_at13 m ρ c] at h
  exact h

/-- The bias region adds the row to every row: the layer's output. -/
theorem result (c : Dev nD) : W15 m ρ c (Proc.devRef .tc main_v95) = Cert.Gcn.result (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) (m ((c : Thread nD τ).loc main_arg8)) (m ((c : Thread nD τ).loc main_arg9)) :=
  (W15_arr m ρ c 2).trans ((Bias8.value (V14 m ρ) c).trans
    ((congrArg₂ Bias8.rowsPlusBias (aggregated4 m ρ c) (biasRow4 m ρ c)).trans (Cert.GcnLaws.Bias8.biased_eq _ _ _).symm))

/-! ## The run -/

/-- Every weakly fair execution of the program terminates with its result at the network of the arguments, and the
    arguments unchanged. -/
theorem run : θ_run defs (onTc (τ := τ) (main (F := Ideal))) ⟨m, fun _ => 0, ρ⟩ fun r => ∀ c : Dev nD,
      r.2.mem ((c.tc : Thread nD τ).loc main_v95)
        = Cert.Gcn.result (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans (result m ρ c), (h c).2⟩) (Cert.KernelIdeal.RunNamed.run m ρ)

end Cert.KernelIdeal.Walk

end
-- ==== Proof.ReferenceValue.lean ====
/-
  The reference program computes the four-layer graph convolution `Gcn.result` of its ten argument arrays.

  Its @main is a straight line of host operations, so its run ends with the result buffer at the operations'
  composed term of the arguments; that term is `Gcn.result` with its definitions unfolded — the same operations in the
  same order with the same dimension records.
-/
import proofs.«111440_j76244259439066_1_alg».proof.Proof.ReferenceRun
import proofs.«111440_j76244259439066_1_alg».proof.Proof.Gcn

set_option maxRecDepth 16384

noncomputable section

namespace Cert.ReferenceIdeal.RefValue

open Cert.ReferenceIdeal Cert.ReferenceIdeal.Gen Idealize.ShloMosaic Idealize.ShloMosaic.TcCoe Idealize.SL.Sem

variable {F : FTy → Type} [FloatOps F]

/-- The composed term of the reference's operations is the network of the argument arrays. -/
theorem result_eq (m : (ℓ : Loc nD τ sig) → Buf (Elt F) ℓ) (c : Dev nD) :
    Cert.ReferenceIdeal.RunP.res_main_v102 m c
      = Cert.Gcn.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold Cert.ReferenceIdeal.RunP.res_main_v102
  rfl

/-- Every weakly fair execution of the reference terminates with its result at the network of the arguments, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v102)
        = Cert.Gcn.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans (result_eq m c), (h c).2⟩) (Cert.ReferenceIdeal.RunP.run m ρ)

end Cert.ReferenceIdeal.RefValue

end
-- ==== Proof.lean ====
/-
  A four-layer graph convolution over 100000 nodes and 3300000 edges (the edge list and a self loop per node):
  each layer is `A · (h · W) + b` with `A` the adjacency matrix weighted by the inverse root degrees of an edge's two
  ends, the first three layers followed by the positive part. The program computes the dense product `h · W` and the
  bias (and positive part) in regions of ten row blocks and the rest — degrees, weights, gather, scale, scatter-add —
  on the host; the reference computes everything on the host.

  At the ideal instance the two are the same function of the arguments, with no condition on the inputs:
    * the narrowing of the product's operands to bf16 is the identity on extended reals, and a row of the product
      depends on the same row of `h` only, so the ten block products, accumulated from zero, are the host's
      dot_general — one sum over the contracted axis on both sides, term for term (`Cert.GcnLaws.Dense*.dense_eq`);
    * the bias row broadcast down a block and the bias vector broadcast to every row read the same entry, and the
      maximum with zero is one function on both sides (`Cert.GcnLaws.Bias*.activated_eq`, `biased_eq`);
    * every host operation of the program between its regions is an operation of the reference, in the same order.
  No law used needs finiteness (no distributivity, no cancellation), so the precondition is never opened.

  The frames: the program's (at both instances) is the generated frame of its eight regions among seven stretches
  of host operations; the reference's is its run with the result dropped. The idealization rewrote nothing, so
  there is nothing to preserve.
-/
import proofs.«111440_j76244259439066_1_alg».proof.Defs
import proofs.«111440_j76244259439066_1_alg».proof.Proof.Gen.Kernel
import proofs.«111440_j76244259439066_1_alg».proof.Proof.Gen.Kernel.Skeleton
import proofs.«111440_j76244259439066_1_alg».proof.Proof.Gen.Kernel.Launch
import proofs.«111440_j76244259439066_1_alg».proof.Proof.Gen.Kernel.Points
import proofs.«111440_j76244259439066_1_alg».proof.Proof.Gen.Kernel.Frame
import proofs.«111440_j76244259439066_1_alg».proof.Proof.Gen.KernelIdeal
import proofs.«111440_j76244259439066_1_alg».proof.Proof.Gen.KernelIdeal.Skeleton
import proofs.«111440_j76244259439066_1_alg».proof.Proof.Gen.KernelIdeal.Launch
import proofs.«111440_j76244259439066_1_alg».proof.Proof.Gen.KernelIdeal.Points
import proofs.«111440_j76244259439066_1_alg».proof.Proof.Gen.KernelIdeal.Frame
import proofs.«111440_j76244259439066_1_alg».proof.Proof.Gen.ReferenceIdeal
import proofs.«111440_j76244259439066_1_alg».proof.Proof.Gen.Pre_finite_inputs
import proofs.«111440_j76244259439066_1_alg».proof.Proof.KernelValue
import proofs.«111440_j76244259439066_1_alg».proof.Proof.ReferenceValue
import Idealize.ShloMosaic.Adequacy
import Idealize.ShloMosaic.Init

noncomputable section

namespace Cert.Proof

open Idealize.ShloMosaic Idealize.SL.Sem

/-- The program as printed runs and keeps its arguments: the generated frame, which asks nothing of the inputs. -/
theorem frame_kernel : Cert.frame_Kernel := fun m ρ _ => Cert.Kernel.Gen.frame m ρ

/-- The same at the ideal instance. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- The idealization rewrote no operation. -/
theorem preserves : Cert.preserves_Kernel_KernelIdeal := trivial

/-- Both programs end with their result at the network `Cert.Gcn.result` of their arguments, and the arguments agree. -/
theorem algebraic : Cert.algebraic_KernelIdeal_ReferenceIdeal := by
  intro m ρ m' ρ' _ hagree
  refine ⟨_, Cert.KernelIdeal.Walk.run m ρ, ?_⟩
  refine (θ_run Cert.ReferenceIdeal.defs _ _).mono (fun _ h c => ⟨(h c).1.trans ?_, (h c).2⟩)
    (Cert.ReferenceIdeal.RefValue.run (F := Ideal) m' ρ')
  obtain ⟨h0, h1, h2, h3, h4, h5, h6, h7, h8, h9⟩ := hagree c
  rw [h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
